-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg2 : IVec S100000 32) (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S100000 32 := broadcastInDim S100000 ![] bcast_S_S100000 main_c_24
  let main_v65 : IVec S100000 1 := cmpi .sge main_arg2 main_v64
  let main_c_25 : IVec S_ 1 := constantI S_ 1 1#1
  let main_v66 : IVec S_ 1 := (fun x v => Host.reduce IntOp.andi x v reducesTo_S100000_S_d0 h_S_) main_v65 main_c_25
  let main_v67 : IVec S_ 1 := andi main_v63 main_v66
  main_v67

def fn_part2 {F : FTy → Type} [FloatOps F] (main_arg2 : IVec S100000 32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg2 main_arg13 main_arg14 main_v48 main_v49 main_v50

def fn_part1 {F : FTy → Type} [FloatOps F] (main_arg2 : IVec S100000 32) (main_arg6 : FVec F S64 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S100000x7 .f32) (main_arg1 : IVec S2x1600000 32) (main_arg2 : IVec S100000 32) (main_arg3 : FVec F S7x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_arg11 main_arg12 main_arg13 main_arg14 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S10000x7 : Shape := ⟨2, ![10000, 7]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1x32 : Shape := ⟨2, ![1, 32]⟩
abbrev S1x1 : Shape := ⟨2, ![1, 1]⟩
abbrev S256x32 : Shape := ⟨2, ![256, 32]⟩

abbrev nBuf : Space → Nat
  | .hbm => 181
  | .vmem => 38
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S_, .f32⟩
  | 30 => ⟨S1600000, .f32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S100000, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x1, .f32⟩
  | 67 => ⟨S1600000x64, .f32⟩
  | 68 => ⟨S1600000x64, .f32⟩
  | 69 => ⟨S_, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S100000x64, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S1600000x1, .f32⟩
  | 97 => ⟨S1600000x64, .f32⟩
  | 98 => ⟨S1600000x64, .f32⟩
  | 99 => ⟨S_, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S100000x64, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x7, .f32⟩

abbrev hbmTy0_1 (i : Nat) : BufTy := match i % 128 with
  | 0 => ⟨S1600000x64, .f32⟩
  | 1 => ⟨S_, .f32⟩
  | 2 => ⟨S100000x64, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S100000x64, .f32⟩
  | 12 => ⟨S100000x1, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S_, .f32⟩
  | 19 => ⟨S256x64, .f32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S256x64, .f32⟩
  | 29 => ⟨S_, .f32⟩
  | 30 => ⟨S256, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S_, .f32⟩
  | 40 => ⟨S100000, .f32⟩
  | 41 => ⟨S256, .f32⟩
  | 42 => ⟨S_, .f32⟩
  | 43 => ⟨S256, .f32⟩
  | 44 => ⟨S256, .f32⟩
  | 45 => ⟨S256x1, .f32⟩
  | 46 => ⟨S256x64, .f32⟩
  | 47 => ⟨S256x64, .f32⟩
  | 48 => ⟨S1x64, .f32⟩
  | 49 => ⟨S1x32, .f32⟩
  | 50 => ⟨S1x1, .f32⟩
  | 51 => ⟨S256x1, .f32⟩
  | 52 => ⟨S256, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S256x64, .f32⟩
  | .local _ .vmem, ⟨31, _⟩ => ⟨S64x64, .f32⟩
  | .local _ .vmem, ⟨32, _⟩ => ⟨S1x64, .f32⟩
  | .local _ .vmem, ⟨33, _⟩ => ⟨S64x32, .f32⟩
  | .local _ .vmem, ⟨34, _⟩ => ⟨S1x32, .f32⟩
  | .local _ .vmem, ⟨35, _⟩ => ⟨S32x1, .f32⟩
  | .local _ .vmem, ⟨36, _⟩ => ⟨S1x1, .f32⟩
  | .local _ .vmem, ⟨37, _⟩ => ⟨S256x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_c_20 : Ref sig .tc := ⟨.hbm, 131, rfl⟩
abbrev main_v94 : Ref sig .tc := ⟨.hbm, 132, rfl⟩
abbrev main_v95 : Ref sig .tc := ⟨.hbm, 133, rfl⟩
abbrev main_c_21 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_c_23 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_25 : Ref sig .tc := ⟨.hbm, 157, rfl⟩
abbrev main_v115 : Ref sig .tc := ⟨.hbm, 158, rfl⟩
abbrev main_c_26 : Ref sig .tc := ⟨.hbm, 159, rfl⟩
abbrev main_v116 : Ref sig .tc := ⟨.hbm, 160, rfl⟩
abbrev main_v117 : Ref sig .tc := ⟨.hbm, 161, rfl⟩
abbrev main_c_27 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_28 : Ref sig .tc := ⟨.hbm, 167, rfl⟩
abbrev main_v122 : Ref sig .tc := ⟨.hbm, 168, rfl⟩
abbrev main_v123 : Ref sig .tc := ⟨.hbm, 169, rfl⟩
abbrev main_cst_29 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc6_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36
abbrev cc6_sem7_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x7_S7x64_S10000x64_1_0_0_1_n_n_wf : DotDims.WF S10000x7 S7x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x1.size a ≤ S32x1.size a
  hwx6_5 : ∀ i : grid6.Coords, EltTy.bits .f32 = 32 ∨ (Rect.block (s := S32x1) S32x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x1.size a ≤ S256x1.size a
  hwx6_7 : ∀ i : grid6.Coords, EltTy.bits .f32 = 32 ∨ (Rect.block (s := S256x1) S256x1.size (cc6_transform_7 i) (hinb6_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v104) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v128) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v130) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S32x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v131) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v132) S256x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x64 : Shape := ⟨2, ![7, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S1x1 : Shape := ⟨2, ![1, 1]⟩

abbrev nBuf : Space → Nat
  | .hbm => 303
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x1, .f32⟩
  | 68 => ⟨S1600000x64, .f32⟩
  | 69 => ⟨S1600000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S100000x64, .f32⟩
  | 79 => ⟨S100000, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .i1⟩
  | 90 => ⟨S_, .f32⟩
  | 91 => ⟨S100000x64, .f32⟩
  | 92 => ⟨S100000x64, .i1⟩
  | 93 => ⟨S_, .f32⟩
  | 94 => ⟨S_, .f32⟩
  | 95 => ⟨S100000x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S100000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S_, .f32⟩
  | 114 => ⟨S1600000, .f32⟩
  | 115 => ⟨S100000, .f32⟩
  | 116 => ⟨S_, .f32⟩
  | 117 => ⟨S100000, .f32⟩
  | 118 => ⟨S100000, .f32⟩
  | 119 => ⟨S100000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x7, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S100000x64, .f32⟩
  | 34 => ⟨S100000, .f32⟩
  | 35 => ⟨S100000x1, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .i1⟩
  | 45 => ⟨S_, .f32⟩
  | 46 => ⟨S100000x64, .f32⟩
  | 47 => ⟨S100000x64, .i1⟩
  | 48 => ⟨S_, .f32⟩
  | 49 => ⟨S_, .f32⟩
  | 50 => ⟨S100000x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S100000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S_, .f32⟩
  | 69 => ⟨S1600000, .f32⟩
  | 70 => ⟨S100000, .f32⟩
  | 71 => ⟨S_, .f32⟩
  | 72 => ⟨S100000, .f32⟩
  | 73 => ⟨S100000, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x1, .f32⟩
  | 106 => ⟨S1600000x64, .f32⟩
  | 107 => ⟨S1600000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S100000x64, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .i1⟩
  | _ => ⟨S100000x7, .f32⟩

abbrev hbmTy0_2 (i : Nat) : BufTy := match i % 128 with
  | 0 => ⟨S_, .f32⟩
  | 1 => ⟨S100000x64, .f32⟩
  | 2 => ⟨S100000x64, .i1⟩
  | 3 => ⟨S_, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S_, .f32⟩
  | 13 => ⟨S256x64, .f32⟩
  | 14 => ⟨S100000x1, .i32⟩
  | 15 => ⟨S256x64, .f32⟩
  | 16 => ⟨S_, .f32⟩
  | 17 => ⟨S100000, .f32⟩
  | 18 => ⟨S_, .f32⟩
  | 19 => ⟨S256, .f32⟩
  | 20 => ⟨S100000x1, .i32⟩
  | 21 => ⟨S256, .f32⟩
  | 22 => ⟨S_, .f32⟩
  | 23 => ⟨S256, .f32⟩
  | 24 => ⟨S256, .f32⟩
  | 25 => ⟨S256x1, .f32⟩
  | 26 => ⟨S256x64, .f32⟩
  | 27 => ⟨S256x64, .f32⟩
  | 28 => ⟨S256x64, .f32⟩
  | 29 => ⟨S1x64, .f32⟩
  | 30 => ⟨S256x64, .f32⟩
  | 31 => ⟨S256x64, .f32⟩
  | 32 => ⟨S_, .f32⟩
  | 33 => ⟨S256x64, .f32⟩
  | 34 => ⟨S256x64, .f32⟩
  | 35 => ⟨S256x32, .f32⟩
  | 36 => ⟨S1x32, .f32⟩
  | 37 => ⟨S256x32, .f32⟩
  | 38 => ⟨S256x32, .f32⟩
  | 39 => ⟨S_, .f32⟩
  | 40 => ⟨S256x32, .f32⟩
  | 41 => ⟨S256x32, .f32⟩
  | 42 => ⟨S256x1, .f32⟩
  | 43 => ⟨S1x1, .f32⟩
  | 44 => ⟨S256x1, .f32⟩
  | 45 => ⟨S256x1, .f32⟩
  | 46 => ⟨S256, .f32⟩
  | _ => ⟨S100000x7, .f32⟩

abbrev hbmTy (i : Nat) : BufTy := match i / 128 with
  | 0 => hbmTy0_0 i
  | 1 => hbmTy0_1 i
  | 2 => hbmTy0_2 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_cst_0 : Ref sig .tc := ⟨.hbm, 90, rfl⟩
abbrev main_call0_v2 : Ref sig .tc := ⟨.hbm, 91, rfl⟩
abbrev main_call0_v3 : Ref sig .tc := ⟨.hbm, 92, rfl⟩
abbrev main_call0_cst_1 : Ref sig .tc := ⟨.hbm, 93, rfl⟩
abbrev main_call0_call0_v0 : Ref sig .tc := ⟨.hbm, 94, rfl⟩
abbrev main_call0_call0_v1 : Ref sig .tc := ⟨.hbm, 95, rfl⟩
abbrev main_call0_v4 : Ref sig .tc := ⟨.hbm, 96, rfl⟩
abbrev main_call0_v5 : Ref sig .tc := ⟨.hbm, 97, rfl⟩
abbrev main_call0_cst_2 : Ref sig .tc := ⟨.hbm, 98, rfl⟩
abbrev main_call0_v6 : Ref sig .tc := ⟨.hbm, 99, rfl⟩
abbrev main_call0_v7 : Ref sig .tc := ⟨.hbm, 100, rfl⟩
abbrev main_v58 : Ref sig .tc := ⟨.hbm, 101, rfl⟩
abbrev main_v59 : Ref sig .tc := ⟨.hbm, 102, rfl⟩
abbrev main_cst_12 : Ref sig .tc := ⟨.hbm, 103, rfl⟩
abbrev main_v60 : Ref sig .tc := ⟨.hbm, 104, rfl⟩
abbrev main_c_13 : Ref sig .tc := ⟨.hbm, 105, rfl⟩
abbrev main_v61 : Ref sig .tc := ⟨.hbm, 106, rfl⟩
abbrev main_v62 : Ref sig .tc := ⟨.hbm, 107, rfl⟩
abbrev main_c_14 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_15 : Ref sig .tc := ⟨.hbm, 113, rfl⟩
abbrev main_v67 : Ref sig .tc := ⟨.hbm, 114, rfl⟩
abbrev main_v68 : Ref sig .tc := ⟨.hbm, 115, rfl⟩
abbrev main_cst_16 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_17 : Ref sig .tc := ⟨.hbm, 120, rfl⟩
abbrev main_v72 : Ref sig .tc := ⟨.hbm, 121, rfl⟩
abbrev main_v73 : Ref sig .tc := ⟨.hbm, 122, rfl⟩
abbrev main_c_18 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_c_19 : Ref sig .tc := ⟨.hbm, 129, rfl⟩
abbrev main_v79 : Ref sig .tc := ⟨.hbm, 130, rfl⟩
abbrev main_v80 : Ref sig .tc := ⟨.hbm, 131, rfl⟩
abbrev main_c_20 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_21 : Ref sig .tc := ⟨.hbm, 139, rfl⟩
abbrev main_v87 : Ref sig .tc := ⟨.hbm, 140, rfl⟩
abbrev main_c_22 : Ref sig .tc := ⟨.hbm, 141, rfl⟩
abbrev main_v88 : Ref sig .tc := ⟨.hbm, 142, rfl⟩
abbrev main_v89 : Ref sig .tc := ⟨.hbm, 143, rfl⟩
abbrev main_c_23 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_24 : Ref sig .tc := ⟨.hbm, 153, rfl⟩
abbrev main_v98 : Ref sig .tc := ⟨.hbm, 154, rfl⟩
abbrev main_v99 : Ref sig .tc := ⟨.hbm, 155, rfl⟩
abbrev main_c_25 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call1_cst : Ref sig .tc := ⟨.hbm, 170, rfl⟩
abbrev main_call1_v0 : Ref sig .tc := ⟨.hbm, 171, rfl⟩
abbrev main_call1_v1 : Ref sig .tc := ⟨.hbm, 172, rfl⟩
abbrev main_call1_cst_0 : Ref sig .tc := ⟨.hbm, 173, rfl⟩
abbrev main_call1_v2 : Ref sig .tc := ⟨.hbm, 174, rfl⟩
abbrev main_call1_v3 : Ref sig .tc := ⟨.hbm, 175, rfl⟩
abbrev main_call1_cst_1 : Ref sig .tc := ⟨.hbm, 176, rfl⟩
abbrev main_call1_call0_v0 : Ref sig .tc := ⟨.hbm, 177, rfl⟩
abbrev main_call1_call0_v1 : Ref sig .tc := ⟨.hbm, 178, rfl⟩
abbrev main_call1_v4 : Ref sig .tc := ⟨.hbm, 179, rfl⟩
abbrev main_call1_v5 : Ref sig .tc := ⟨.hbm, 180, rfl⟩
abbrev main_call1_cst_2 : Ref sig .tc := ⟨.hbm, 181, rfl⟩
abbrev main_call1_v6 : Ref sig .tc := ⟨.hbm, 182, rfl⟩
abbrev main_call1_v7 : Ref sig .tc := ⟨.hbm, 183, rfl⟩
abbrev main_v113 : Ref sig .tc := ⟨.hbm, 184, rfl⟩
abbrev main_v114 : Ref sig .tc := ⟨.hbm, 185, rfl⟩
abbrev main_cst_26 : Ref sig .tc := ⟨.hbm, 186, rfl⟩
abbrev main_v115 : Ref sig .tc := ⟨.hbm, 187, rfl⟩
abbrev main_c_27 : Ref sig .tc := ⟨.hbm, 188, rfl⟩
abbrev main_v116 : Ref sig .tc := ⟨.hbm, 189, rfl⟩
abbrev main_v117 : Ref sig .tc := ⟨.hbm, 190, rfl⟩
abbrev main_c_28 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_29 : Ref sig .tc := ⟨.hbm, 196, rfl⟩
abbrev main_v122 : Ref sig .tc := ⟨.hbm, 197, rfl⟩
abbrev main_v123 : Ref sig .tc := ⟨.hbm, 198, rfl⟩
abbrev main_cst_30 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_c_31 : Ref sig .tc := ⟨.hbm, 203, rfl⟩
abbrev main_v127 : Ref sig .tc := ⟨.hbm, 204, rfl⟩
abbrev main_v128 : Ref sig .tc := ⟨.hbm, 205, rfl⟩
abbrev main_c_32 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_c_33 : Ref sig .tc := ⟨.hbm, 212, rfl⟩
abbrev main_v134 : Ref sig .tc := ⟨.hbm, 213, rfl⟩
abbrev main_v135 : Ref sig .tc := ⟨.hbm, 214, rfl⟩
abbrev main_c_34 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_35 : Ref sig .tc := ⟨.hbm, 222, rfl⟩
abbrev main_v142 : Ref sig .tc := ⟨.hbm, 223, rfl⟩
abbrev main_c_36 : Ref sig .tc := ⟨.hbm, 224, rfl⟩
abbrev main_v143 : Ref sig .tc := ⟨.hbm, 225, rfl⟩
abbrev main_v144 : Ref sig .tc := ⟨.hbm, 226, rfl⟩
abbrev main_c_37 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_c_38 : Ref sig .tc := ⟨.hbm, 236, rfl⟩
abbrev main_v153 : Ref sig .tc := ⟨.hbm, 237, rfl⟩
abbrev main_v154 : Ref sig .tc := ⟨.hbm, 238, rfl⟩
abbrev main_c_39 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_call2_cst : Ref sig .tc := ⟨.hbm, 253, rfl⟩
abbrev main_call2_v0 : Ref sig .tc := ⟨.hbm, 254, rfl⟩
abbrev main_call2_v1 : Ref sig .tc := ⟨.hbm, 255, rfl⟩
abbrev main_call2_cst_0 : Ref sig .tc := ⟨.hbm, 256, rfl⟩
abbrev main_call2_v2 : Ref sig .tc := ⟨.hbm, 257, rfl⟩
abbrev main_call2_v3 : Ref sig .tc := ⟨.hbm, 258, rfl⟩
abbrev main_call2_cst_1 : Ref sig .tc := ⟨.hbm, 259, rfl⟩
abbrev main_call2_call0_v0 : Ref sig .tc := ⟨.hbm, 260, rfl⟩
abbrev main_call2_call0_v1 : Ref sig .tc := ⟨.hbm, 261, rfl⟩
abbrev main_call2_v4 : Ref sig .tc := ⟨.hbm, 262, rfl⟩
abbrev main_call2_v5 : Ref sig .tc := ⟨.hbm, 263, rfl⟩
abbrev main_call2_cst_2 : Ref sig .tc := ⟨.hbm, 264, rfl⟩
abbrev main_call2_v6 : Ref sig .tc := ⟨.hbm, 265, rfl⟩
abbrev main_call2_v7 : Ref sig .tc := ⟨.hbm, 266, rfl⟩
abbrev main_v168 : Ref sig .tc := ⟨.hbm, 267, rfl⟩
abbrev main_cst_40 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_cst_41 : Ref sig .tc := ⟨.hbm, 272, rfl⟩
abbrev main_v172 : Ref sig .tc := ⟨.hbm, 273, rfl⟩
abbrev main_cst_42 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_43 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_call3_cst : Ref sig .tc := ⟨.hbm, 288, rfl⟩
abbrev main_call3_v0 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_call4_cst : Ref sig .tc := ⟨.hbm, 295, rfl⟩
abbrev main_call4_v0 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S100000x7_S7x64_S100000x64_1_0_0_1_n_n_wf : DotDims.WF S100000x7 S7x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []

variable [Facts₀]

def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.KernelRun.lean ====
/-
  The kernel program's run with its results named. The launch over the program's thirteen segments ends with
  every unscoped buffer of a core at the last boundary's contents `W13` (the generated frame's fold of the host
  stretches and the regions' write-backs over the launch memory); the frame reads the fifteen argument arrays
  off it, and here the two result buffers are read off it as well.
-/
import proofs.«128728_j78176994722446_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the final state has the two results at the last
    boundary's contents and the arguments as launched. -/
theorem run_main : θ_run defs (onTc (τ := τ) (main (F := F))) ⟨m, fun _ => 0, ρ⟩ (fun r => ∀ c : Dev nD,
      r.2.mem ((c.tc : Thread nD τ).loc main_v133) = W13 m ρ c (Proc.devRef .tc main_v133)
      ∧ r.2.mem ((c.tc : Thread nD τ).loc main_v128) = W13 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v133 (by decide)),
       h c _ (mem_uc main_v128 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.Run

end
-- ==== Proof.Stage.lean ====
/-
  The graph network both programs compute, cut into stages. Every stage is a composition of whole-array
  operations in the order the reference states them, so the reference's result is a stage composition by
  unfolding, and the kernel's host arithmetic between its launches is the same composition.

  Notation: `n = 100000` nodes, `E = 1600000` edges, `src e` / `dst e` the two rows of the edge list.
  A node number below zero counts from the end (`wrapNode`: `e + n`). With `deg v = 1 + #{e | dst e = v}`
  and `dinv = deg ^ (-1/2)`,
    aggregate h v = (Σ_{e : dst e = v} h (src e) · dinv (src e) · dinv (dst e)) + h v · dinv v · dinv v,
  a layer is `elu (aggregate (x · W) + b)`, the read-out of graph `g` is the sum of its nodes' rows over
  `max (its node count) 1`, and the head is two `max (· W + b) 0` layers and one affine layer.
-/
import proofs.«128728_j78176994722446_1_alg».proof.Proof.Gen.ReferenceIdeal

noncomputable section

namespace Cert.Stage

open Idealize.ShloMosaic Cert.ReferenceIdeal Cert.ReferenceIdeal.Facts₀ Cert.ReferenceIdeal.Facts

variable {F : FTy → Type} [FloatOps F]

/-- The contents of a buffer of shape `s` and element type `e`. -/
abbrev Arr (F : FTy → Type) [FloatOps F] (s : Shape) (e : EltTy) : Type := (⟨s, e⟩ : BufTy).Contents (Elt F)

/-- Row 0 of the edge list: each edge's source node. -/
def srcRow (ei : Arr F S2x1600000 .i32) : Arr F S1600000 .i32 :=
  fun i => shapeCast S1600000 (extractStridedSlice S1x1600000 ![0, 0] ei slices_S2x1600000_S1x1600000_0_0) shapeCasts_S1x1600000_S1600000 i

/-- Row 1 of the edge list: each edge's target node. -/
def dstRow (ei : Arr F S2x1600000 .i32) : Arr F S1600000 .i32 :=
  fun i => shapeCast S1600000 (extractStridedSlice S1x1600000 ![1, 0] ei slices_S2x1600000_S1x1600000_1_0) shapeCasts_S1x1600000_S1600000 i

/-- A node number below zero counts from the end: `e + n` there, `e` otherwise; as a column of indices. -/
def wrapNode (e : Arr F S1600000 .i32) : Arr F S1600000x1 .i32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- `dinv v = (1 + #{e | dst e = v}) ^ (-1/2)`. -/
def invSqrtDeg (dst : Arr F S1600000 .i32) : Arr F S100000 .f32 :=
  Host.rsqrt (addf
    (Host.scatterAdd scatter_S100000_S1600000x1_S1600000_n_0_0_1
      (broadcastInDim S100000 ![] bcast_S_S100000 (constant S_ .f32 0x00000000#32)) (wrapNode dst)
      (broadcastInDim S1600000 ![] bcast_S_S1600000 (constant S_ .f32 0x3F800000#32)))
    (broadcastInDim S100000 ![] bcast_S_S100000 (constant S_ .f32 0x3F800000#32)))

/-- The weight of edge `e`: `dinv (src e) · dinv (dst e)`. -/
def edgeWeight (src dst : Arr F S1600000 .i32) (dinv : Arr F S100000 .f32) : Arr F S1600000 .f32 :=
  mulf (Host.gather gather_S100000_S1600000x1_S1600000_n_0_n_n_0_1_1 dinv (wrapNode src))
    (Host.gather gather_S100000_S1600000x1_S1600000_n_0_n_n_0_1_1 dinv (wrapNode dst))

/-- `aggregate h v = (Σ_{e : dst e = v} h (src e) · w e) + h v · s v` for edge weights `w` and self weights `s`. -/
def aggregate (src dst : Arr F S1600000 .i32) (w : Arr F S1600000 .f32) (s : Arr F S100000 .f32)
    (h : Arr F S100000x64 .f32) : Arr F S100000x64 .f32 :=
  addf
    (Host.scatterAdd scatter_S100000x64_S1600000x1_S1600000x64_1_0_0_1
      (broadcastInDim S100000x64 ![] bcast_S_S100000x64 (constant S_ .f32 0x00000000#32)) (wrapNode dst)
      (mulf (Host.gather gather_S100000x64_S1600000x1_S1600000x64_1_0_n_n_0_1_164 h (wrapNode src))
        (broadcastInDim S1600000x64 ![0, 1] bcast_S1600000x1_S1600000x64_0_1
          (broadcastInDim S1600000x1 ![0] bcast_S1600000_S1600000x1_0 w))))
    (mulf h (broadcastInDim S100000x64 ![0, 1] bcast_S100000x1_S100000x64_0_1
      (broadcastInDim S100000x1 ![0] bcast_S100000_S100000x1_0 s)))

/-- The aggregation of one layer from the edge list alone: weights `dinv (src e) · dinv (dst e)`, self weights `dinv²`. -/
def layerAgg (ei : Arr F S2x1600000 .i32) (h : Arr F S100000x64 .f32) : Arr F S100000x64 .f32 :=
  aggregate (srcRow ei) (dstRow ei) (edgeWeight (srcRow ei) (dstRow ei) (invSqrtDeg (dstRow ei)))
    (mulf (invSqrtDeg (dstRow ei)) (invSqrtDeg (dstRow ei))) h

/-- A row vector added to every row. -/
def addBias (a : Arr F S100000x64 .f32) (b : Arr F S64 .f32) : Arr F S100000x64 .f32 :=
  addf a (broadcastInDim S100000x64 ![0, 1] bcast_S1x64_S100000x64_0_1 (broadcastInDim S1x64 ![1] bcast_S64_S1x64_1 b))

/-- `elu z = z` where `z > 0`, and `1 · (exp z' - 1)` elsewhere with `z' = 0` where `z > 0`, `z` elsewhere. -/
def elu (z : Arr F S100000x64 .f32) : Arr F S100000x64 .f32 :=
  select (cmpf .ogt z (broadcastInDim S100000x64 ![] bcast_S_S100000x64 (constant S_ .f32 0x00000000#32))) z
    (mulf (broadcastInDim S100000x64 ![] bcast_S_S100000x64 (constant S_ .f32 0x3F800000#32))
      (Host.expm1
        (select (cmpf .ogt z (broadcastInDim S100000x64 ![] bcast_S_S100000x64 (constant S_ .f32 0x00000000#32)))
          (broadcastInDim S100000x64 ![] bcast_S_S100000x64 (id (constant S_ .f32 0x00000000#32))) z)))

/-- What one layer makes of the product `h = x · W`: `elu (aggregate h + b)`. -/
def layerPost (ei : Arr F S2x1600000 .i32) (h : Arr F S100000x64 .f32) (b : Arr F S64 .f32) : Arr F S100000x64 .f32 :=
  elu (addBias (layerAgg ei h) b)

/-- The three products, by their shapes. -/
def dot7 (x : Arr F S100000x7 .f32) (w : Arr F S7x64 .f32) : Arr F S100000x64 .f32 :=
  Host.dotGeneral dot_S100000x7_S7x64_S100000x64_1_0_0_1_n_n none x w
def dot64 (x : Arr F S100000x64 .f32) (w : Arr F S64x64 .f32) : Arr F S100000x64 .f32 :=
  Host.dotGeneral dot_S100000x64_S64x64_S100000x64_1_0_0_1_n_n none x w

/-- The node features after the three layers. -/
def nodes (ei : Arr F S2x1600000 .i32) (x : Arr F S100000x7 .f32) (W1 : Arr F S7x64 .f32) (b1 : Arr F S64 .f32)
    (W2 : Arr F S64x64 .f32) (b2 : Arr F S64 .f32) (W3 : Arr F S64x64 .f32) (b3 : Arr F S64 .f32) : Arr F S100000x64 .f32 :=
  layerPost ei (dot64 (layerPost ei (dot64 (layerPost ei (dot7 x W1) b1) W2) b2) W3) b3

/-- The read-out with the graph numbers given as a column of indices `g`: row `r` is the sum of the rows `v` with
    `g v = r`, over `max #{v | g v = r} 1`; a row whose number is outside `0 … 255` is in no sum. -/
def poolAt (g : Arr F S100000x1 .i32) (h : Arr F S100000x64 .f32) : Arr F S256x64 .f32 :=
  Host.divf
    (Host.scatterAdd scatter_S256x64_S100000x1_S100000x64_1_0_0_1
      (broadcastInDim S256x64 ![] bcast_S_S256x64 (constant S_ .f32 0x00000000#32)) g h)
    (broadcastInDim S256x64 ![0, 1] bcast_S256x1_S256x64_0_1
      (broadcastInDim S256x1 ![0] bcast_S256_S256x1_0
        (maximumf
          (Host.scatterAdd scatter_S256_S100000x1_S100000_n_0_0_1
            (broadcastInDim S256 ![] bcast_S_S256 (constant S_ .f32 0x00000000#32)) g
            (broadcastInDim S100000 ![] bcast_S_S100000 (constant S_ .f32 0x3F800000#32)))
          (broadcastInDim S256 ![] bcast_S_S256 (constant S_ .f32 0x3F800000#32)))))

/-- The read-out as the reference indexes it: the graph numbers as they come. -/
def pool (batch : Arr F S100000 .i32) (h : Arr F S100000x64 .f32) : Arr F S256x64 .f32 :=
  poolAt (broadcastInDim S100000x1 ![0] bcast_S100000_S100000x1_0 batch) h

/-- The head as a column: `max (r · Wp1 + bp1) 0`, `max (· Wp2 + bp2) 0`, `· Wp3 + bp3`. -/
def headCol (r : Arr F S256x64 .f32) (Wp1 : Arr F S64x64 .f32) (bp1 : Arr F S64 .f32) (Wp2 : Arr F S64x32 .f32)
    (bp2 : Arr F S32 .f32) (Wp3 : Arr F S32x1 .f32) (bp3 : Arr F S1 .f32) : Arr F S256x1 .f32 :=
    (addf
      (Host.dotGeneral dot_S256x32_S32x1_S256x1_1_0_0_1_n_n none
        (maximumf
          (addf
            (Host.dotGeneral dot_S256x64_S64x32_S256x32_1_0_0_1_n_n none
              (maximumf
                (addf (Host.dotGeneral dot_S256x64_S64x64_S256x64_1_0_0_1_n_n none r Wp1)
                  (broadcastInDim S256x64 ![0, 1] bcast_S1x64_S256x64_0_1 (broadcastInDim S1x64 ![1] bcast_S64_S1x64_1 bp1)))
                (broadcastInDim S256x64 ![] bcast_S_S256x64 (constant S_ .f32 0x00000000#32)))
              Wp2)
            (broadcastInDim S256x32 ![0, 1] bcast_S1x32_S256x32_0_1 (broadcastInDim S1x32 ![1] bcast_S32_S1x32_1 bp2)))
          (broadcastInDim S256x32 ![] bcast_S_S256x32 (constant S_ .f32 0x00000000#32)))
        Wp3)
      (broadcastInDim S256x1 ![0, 1] bcast_S1x1_S256x1_0_1 (broadcastInDim S1x1 ![1] bcast_S1_S1x1_1 bp3)))

/-- The head: the column with its unit axis dropped. -/
def head (r : Arr F S256x64 .f32) (Wp1 : Arr F S64x64 .f32) (bp1 : Arr F S64 .f32) (Wp2 : Arr F S64x32 .f32)
    (bp2 : Arr F S32 .f32) (Wp3 : Arr F S32x1 .f32) (bp3 : Arr F S1 .f32) : Arr F S256 .f32 :=
  fun i => shapeCast S256 (headCol r Wp1 bp1 Wp2 bp2 Wp3 bp3) shapeCasts_S256x1_S256 i

end Cert.Stage

end
-- ==== Proof.KernelStretch.lean ====
/-
  The kernel program's host arithmetic between its launches, read as the stage functions. From any buffer contents
  `W`, each stretch leaves at the buffers a later launch or stretch reads:
    stretch 0: the two rows of the edge list, `dinv`, the edge weights `dinv (src e) · dinv (dst e)` and the self
               weights `dinv²` (computed once, used by all three layers);
    stretches 1, 3, 5: the aggregation of the layer's product with those weights, and the layer's bias as a row;
    stretch 6: the read-out — with each graph number below zero replaced by that number plus 256 — and the head's
               three biases as rows;
    stretch 7: the head's column with its unit axis dropped.
  They are the reference's operations in the reference's order, so each read is a stage function by unfolding.
-/
import proofs.«128728_j78176994722446_1_alg».proof.Proof.Gen.KernelIdeal.Launch
import proofs.«128728_j78176994722446_1_alg».proof.Proof.Stage
import Idealize.ShloMosaic.Lib.StableHlo.Run

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- The graph numbers as the kernel indexes with them: a number below zero replaced by that number plus 256, as a column. -/
def wrapGraph (b : Cert.Stage.Arr F S100000 .i32) : Cert.Stage.Arr F S100000x1 .i32 :=
  broadcastInDim S100000x1 ![0] Facts₀.bcast_S100000_S100000x1_0
    (select (cmpi .slt b (broadcastInDim S100000 ![] Facts₀.bcast_S_S100000 (constantI S_ 32 0#32)))
      (addi b (broadcastInDim S100000 ![] Facts₀.bcast_S_S100000 (constantI S_ 32 256#32))) b)

variable (W : Valuation τ sig (Elt F))

/-! ## Stretch 0 -/

theorem s0_src : after hostOps0 W (Proc.devRef .tc main_v1) = Cert.Stage.srcRow (W (Proc.devRef .tc main_arg1)) := by
  after_results_simp
  rfl
theorem s0_dst : after hostOps0 W (Proc.devRef .tc main_v3) = Cert.Stage.dstRow (W (Proc.devRef .tc main_arg1)) := by
  after_results_simp
  rfl
theorem s0_edgeWeight : after hostOps0 W (Proc.devRef .tc main_v30)
    = Cert.Stage.edgeWeight (Cert.Stage.srcRow (W (Proc.devRef .tc main_arg1))) (Cert.Stage.dstRow (W (Proc.devRef .tc main_arg1)))
        (Cert.Stage.invSqrtDeg (Cert.Stage.dstRow (W (Proc.devRef .tc main_arg1)))) := by
  after_results_simp
  rfl
theorem s0_selfWeight : after hostOps0 W (Proc.devRef .tc main_v31)
    = mulf (Cert.Stage.invSqrtDeg (Cert.Stage.dstRow (W (Proc.devRef .tc main_arg1)))) (Cert.Stage.invSqrtDeg (Cert.Stage.dstRow (W (Proc.devRef .tc main_arg1)))) := by
  after_results_simp
  rfl

/-! ## Stretches 1, 3, 5: one layer's aggregation and its bias as a row -/

theorem s1_agg : after hostOps1 W (Proc.devRef .tc main_v54)
    = Cert.Stage.aggregate (W (Proc.devRef .tc main_v1)) (W (Proc.devRef .tc main_v3)) (W (Proc.devRef .tc main_v30)) (W (Proc.devRef .tc main_v31)) (W (Proc.devRef .tc main_v32)) := by
  after_results_simp
  rfl
theorem s1_bias : after hostOps1 W (Proc.devRef .tc main_v55)
    = fun i => shapeCast S1x64 (W (Proc.devRef .tc main_arg4)) Facts₀.shapeCasts_S64_S1x64 i := by
  after_results_simp
  rfl
theorem s3_agg : after hostOps3 W (Proc.devRef .tc main_v79)
    = Cert.Stage.aggregate (W (Proc.devRef .tc main_v1)) (W (Proc.devRef .tc main_v3)) (W (Proc.devRef .tc main_v30)) (W (Proc.devRef .tc main_v31)) (W (Proc.devRef .tc main_v57)) := by
  after_results_simp
  rfl
theorem s3_bias : after hostOps3 W (Proc.devRef .tc main_v80)
    = fun i => shapeCast S1x64 (W (Proc.devRef .tc main_arg6)) Facts₀.shapeCasts_S64_S1x64 i := by
  after_results_simp
  rfl
theorem s5_agg : after hostOps5 W (Proc.devRef .tc main_v104)
    = Cert.Stage.aggregate (W (Proc.devRef .tc main_v1)) (W (Proc.devRef .tc main_v3)) (W (Proc.devRef .tc main_v30)) (W (Proc.devRef .tc main_v31)) (W (Proc.devRef .tc main_v82)) := by
  after_results_simp
  rfl
theorem s5_bias : after hostOps5 W (Proc.devRef .tc main_v105)
    = fun i => shapeCast S1x64 (W (Proc.devRef .tc main_arg8)) Facts₀.shapeCasts_S64_S1x64 i := by
  after_results_simp
  rfl

/-! ## Stretch 6: the read-out and the head's biases as rows -/

theorem s6_readout : after hostOps6 W (Proc.devRef .tc main_v128)
    = Cert.Stage.poolAt (wrapGraph (W (Proc.devRef .tc main_arg2))) (W (Proc.devRef .tc main_v106)) := by
  after_results_simp
  rfl
theorem s6_bias1 : after hostOps6 W (Proc.devRef .tc main_v129)
    = fun i => shapeCast S1x64 (W (Proc.devRef .tc main_arg10)) Facts₀.shapeCasts_S64_S1x64 i := by
  after_results_simp
  rfl
theorem s6_bias2 : after hostOps6 W (Proc.devRef .tc main_v130)
    = fun i => shapeCast S1x32 (W (Proc.devRef .tc main_arg12)) Facts₀.shapeCasts_S32_S1x32 i := by
  after_results_simp
  rfl
theorem s6_bias3 : after hostOps6 W (Proc.devRef .tc main_v131)
    = fun i => shapeCast S1x1 (W (Proc.devRef .tc main_arg14)) Facts₀.shapeCasts_S1_S1x1 i := by
  after_results_simp
  rfl

/-! ## Stretch 7 -/

theorem s7_out : after hostOps7 W (Proc.devRef .tc main_v133)
    = fun i => shapeCast S256 (W (Proc.devRef .tc main_v132)) Facts₀.shapeCasts_S256x1_S256 i := by
  after_results_simp
  rfl

end Cert.KernelIdeal.Stretch

end
-- ==== Proof.KernelKeep.lean ====
/-
  A stretch of host operations writes only its own results: every other buffer holds afterwards what it held before.
  One fact per stretch and per buffer that a later launch or stretch reads across it: the argument arrays, and the
  edge rows and weights that stretch 0 computes once for all three layers.
-/
import proofs.«128728_j78176994722446_1_alg».proof.Proof.Gen.KernelIdeal.Launch
import Idealize.ShloMosaic.Lib.StableHlo.Run

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-! ## Stretch 0 -/

theorem s0_arg0 : after hostOps0 W (Proc.devRef .tc main_arg0) = W (Proc.devRef .tc main_arg0) := by
  after_results_simp
theorem s0_arg2 : after hostOps0 W (Proc.devRef .tc main_arg2) = W (Proc.devRef .tc main_arg2) := by
  after_results_simp
theorem s0_arg3 : after hostOps0 W (Proc.devRef .tc main_arg3) = W (Proc.devRef .tc main_arg3) := by
  after_results_simp
theorem s0_arg4 : after hostOps0 W (Proc.devRef .tc main_arg4) = W (Proc.devRef .tc main_arg4) := by
  after_results_simp
theorem s0_arg5 : after hostOps0 W (Proc.devRef .tc main_arg5) = W (Proc.devRef .tc main_arg5) := by
  after_results_simp
theorem s0_arg6 : after hostOps0 W (Proc.devRef .tc main_arg6) = W (Proc.devRef .tc main_arg6) := by
  after_results_simp
theorem s0_arg7 : after hostOps0 W (Proc.devRef .tc main_arg7) = W (Proc.devRef .tc main_arg7) := by
  after_results_simp
theorem s0_arg8 : after hostOps0 W (Proc.devRef .tc main_arg8) = W (Proc.devRef .tc main_arg8) := by
  after_results_simp
theorem s0_arg9 : after hostOps0 W (Proc.devRef .tc main_arg9) = W (Proc.devRef .tc main_arg9) := by
  after_results_simp
theorem s0_arg10 : after hostOps0 W (Proc.devRef .tc main_arg10) = W (Proc.devRef .tc main_arg10) := by
  after_results_simp
theorem s0_arg11 : after hostOps0 W (Proc.devRef .tc main_arg11) = W (Proc.devRef .tc main_arg11) := by
  after_results_simp
theorem s0_arg12 : after hostOps0 W (Proc.devRef .tc main_arg12) = W (Proc.devRef .tc main_arg12) := by
  after_results_simp
theorem s0_arg13 : after hostOps0 W (Proc.devRef .tc main_arg13) = W (Proc.devRef .tc main_arg13) := by
  after_results_simp
theorem s0_arg14 : after hostOps0 W (Proc.devRef .tc main_arg14) = W (Proc.devRef .tc main_arg14) := by
  after_results_simp

/-! ## Stretch 1 -/

theorem s1_v1 : after hostOps1 W (Proc.devRef .tc main_v1) = W (Proc.devRef .tc main_v1) := by
  after_results_simp
theorem s1_v3 : after hostOps1 W (Proc.devRef .tc main_v3) = W (Proc.devRef .tc main_v3) := by
  after_results_simp
theorem s1_v30 : after hostOps1 W (Proc.devRef .tc main_v30) = W (Proc.devRef .tc main_v30) := by
  after_results_simp
theorem s1_v31 : after hostOps1 W (Proc.devRef .tc main_v31) = W (Proc.devRef .tc main_v31) := by
  after_results_simp
theorem s1_arg2 : after hostOps1 W (Proc.devRef .tc main_arg2) = W (Proc.devRef .tc main_arg2) := by
  after_results_simp
theorem s1_arg5 : after hostOps1 W (Proc.devRef .tc main_arg5) = W (Proc.devRef .tc main_arg5) := by
  after_results_simp
theorem s1_arg6 : after hostOps1 W (Proc.devRef .tc main_arg6) = W (Proc.devRef .tc main_arg6) := by
  after_results_simp
theorem s1_arg7 : after hostOps1 W (Proc.devRef .tc main_arg7) = W (Proc.devRef .tc main_arg7) := by
  after_results_simp
theorem s1_arg8 : after hostOps1 W (Proc.devRef .tc main_arg8) = W (Proc.devRef .tc main_arg8) := by
  after_results_simp
theorem s1_arg9 : after hostOps1 W (Proc.devRef .tc main_arg9) = W (Proc.devRef .tc main_arg9) := by
  after_results_simp
theorem s1_arg10 : after hostOps1 W (Proc.devRef .tc main_arg10) = W (Proc.devRef .tc main_arg10) := by
  after_results_simp
theorem s1_arg11 : after hostOps1 W (Proc.devRef .tc main_arg11) = W (Proc.devRef .tc main_arg11) := by
  after_results_simp
theorem s1_arg12 : after hostOps1 W (Proc.devRef .tc main_arg12) = W (Proc.devRef .tc main_arg12) := by
  after_results_simp
theorem s1_arg13 : after hostOps1 W (Proc.devRef .tc main_arg13) = W (Proc.devRef .tc main_arg13) := by
  after_results_simp
theorem s1_arg14 : after hostOps1 W (Proc.devRef .tc main_arg14) = W (Proc.devRef .tc main_arg14) := by
  after_results_simp

/-! ## Stretch 3 -/

theorem s3_v1 : after hostOps3 W (Proc.devRef .tc main_v1) = W (Proc.devRef .tc main_v1) := by
  after_results_simp
theorem s3_v3 : after hostOps3 W (Proc.devRef .tc main_v3) = W (Proc.devRef .tc main_v3) := by
  after_results_simp
theorem s3_v30 : after hostOps3 W (Proc.devRef .tc main_v30) = W (Proc.devRef .tc main_v30) := by
  after_results_simp
theorem s3_v31 : after hostOps3 W (Proc.devRef .tc main_v31) = W (Proc.devRef .tc main_v31) := by
  after_results_simp
theorem s3_arg2 : after hostOps3 W (Proc.devRef .tc main_arg2) = W (Proc.devRef .tc main_arg2) := by
  after_results_simp
theorem s3_arg7 : after hostOps3 W (Proc.devRef .tc main_arg7) = W (Proc.devRef .tc main_arg7) := by
  after_results_simp
theorem s3_arg8 : after hostOps3 W (Proc.devRef .tc main_arg8) = W (Proc.devRef .tc main_arg8) := by
  after_results_simp
theorem s3_arg9 : after hostOps3 W (Proc.devRef .tc main_arg9) = W (Proc.devRef .tc main_arg9) := by
  after_results_simp
theorem s3_arg10 : after hostOps3 W (Proc.devRef .tc main_arg10) = W (Proc.devRef .tc main_arg10) := by
  after_results_simp
theorem s3_arg11 : after hostOps3 W (Proc.devRef .tc main_arg11) = W (Proc.devRef .tc main_arg11) := by
  after_results_simp
theorem s3_arg12 : after hostOps3 W (Proc.devRef .tc main_arg12) = W (Proc.devRef .tc main_arg12) := by
  after_results_simp
theorem s3_arg13 : after hostOps3 W (Proc.devRef .tc main_arg13) = W (Proc.devRef .tc main_arg13) := by
  after_results_simp
theorem s3_arg14 : after hostOps3 W (Proc.devRef .tc main_arg14) = W (Proc.devRef .tc main_arg14) := by
  after_results_simp

/-! ## Stretch 5 -/

theorem s5_arg2 : after hostOps5 W (Proc.devRef .tc main_arg2) = W (Proc.devRef .tc main_arg2) := by
  after_results_simp
theorem s5_arg9 : after hostOps5 W (Proc.devRef .tc main_arg9) = W (Proc.devRef .tc main_arg9) := by
  after_results_simp
theorem s5_arg10 : after hostOps5 W (Proc.devRef .tc main_arg10) = W (Proc.devRef .tc main_arg10) := by
  after_results_simp
theorem s5_arg11 : after hostOps5 W (Proc.devRef .tc main_arg11) = W (Proc.devRef .tc main_arg11) := by
  after_results_simp
theorem s5_arg12 : after hostOps5 W (Proc.devRef .tc main_arg12) = W (Proc.devRef .tc main_arg12) := by
  after_results_simp
theorem s5_arg13 : after hostOps5 W (Proc.devRef .tc main_arg13) = W (Proc.devRef .tc main_arg13) := by
  after_results_simp
theorem s5_arg14 : after hostOps5 W (Proc.devRef .tc main_arg14) = W (Proc.devRef .tc main_arg14) := by
  after_results_simp

/-! ## Stretch 6 -/

theorem s6_arg9 : after hostOps6 W (Proc.devRef .tc main_arg9) = W (Proc.devRef .tc main_arg9) := by
  after_results_simp
theorem s6_arg11 : after hostOps6 W (Proc.devRef .tc main_arg11) = W (Proc.devRef .tc main_arg11) := by
  after_results_simp
theorem s6_arg13 : after hostOps6 W (Proc.devRef .tc main_arg13) = W (Proc.devRef .tc main_arg13) := by
  after_results_simp

/-! ## Stretch 7 -/

theorem s7_v128 : after hostOps7 W (Proc.devRef .tc main_v128) = W (Proc.devRef .tc main_v128) := by
  after_results_simp

end Cert.KernelIdeal.Keep

end
-- ==== Proof.LibBlocks.lean ====
/-
  Index-by-index readings shared by the matrix-product regions and the bias + ELU regions.

  * A plain product of an m×k by a k×n matrix, read at (a, b), is Σ_c A(a, c) · B(c, b): for a kernel's
    product accumulated into a zero block, and for the host's product, whenever the dimension numbers are
    the plain ones (contract the left operand's columns with the right operand's rows).
  * ELU on the extended reals: `eluAt z = z` where `z > 0` and `exp z - 1` elsewhere. The host spells it
    `select (z > 0) z (1 · (exp (select (z > 0) 0 z) - 1))`; the two agree because where `z > 0` fails the
    inner selection is `z` itself and `1 · y = y`.
  * A block of rows with a one-row block added to each row, then ELU, read at (p, q).
-/
import Idealize.ShloMosaic.Lib.StackMember
import Idealize.ShloMosaic.Lib.ValueLayout
import Idealize.ShloMosaic.Lib.IdealHost
import Idealize.ShloMosaic.Lib.Pipeline.Value

noncomputable section

namespace Cert.LibBlocks

open Idealize.ShloMosaic Idealize.ShloMosaic.ValueIdx

/-- The offset of a rank-2 block that starts at the origin. -/
theorem zeroOffset2 : (![0, 0] : Fin 2 → Nat) = fun _ => 0 := funext fun a => by fin_cases a <;> rfl

/-! ## Plain matrix products at an index -/

/-- A kernel's product with plain dimension numbers, accumulated into the zero block: entry (a, b) is
    Σ_c A(a, c) · B(c, b). -/
theorem matmul_zero_plain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  subst hD
  rw [matmul_zero_eq_dotGeneral]
  exact StackMember.dotGeneral_plain_apply prec A B a b

/-- The host's product with plain dimension numbers: entry (a, b) is Σ_c A(a, c) · B(c, b). -/
theorem dotGeneral_plain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-! ## ELU on the extended reals -/

/-- `eluAt z = z` where `z > 0`, and `exp z - 1` elsewhere. -/
def eluAt (z : EReal) : EReal := Scalar.select (Ideal.cmp .ogt z 0) z (Ideal.exp z - 1)

/-- The host's spelling: the exponential is taken of `0` where `z > 0` (that branch is then discarded) and of `z`
    elsewhere, and the result is scaled by one. -/
theorem elu_law (z : EReal) :
    Scalar.select (Ideal.cmp .ogt z 0) z (1 * (Ideal.exp (Scalar.select (Ideal.cmp .ogt z 0) 0 z) - 1)) = eluAt z := by
  unfold eluAt
  rcases BitVec.eq_zero_or_eq_one (Ideal.cmp .ogt z 0) with h | h
  · rw [h, select_zero, select_zero, select_zero, one_mul]
  · rw [h, select_one, select_one]

/-- A block of rows `x0` with the one-row block `x1` added to every row, then `select (z > 0) z (exp z - 1)`:
    entry (p, q) is `eluAt (x0 (p, q) + x1 (0, q))`. -/
theorem biasElu_apply {m n : Nat} (x0 : FVec Ideal ⟨2, ![m, n]⟩ .f32) (x1 : FVec Ideal ⟨2, ![1, n]⟩ .f32)
    (hb : (⟨2, ![1, n]⟩ : Shape).Broadcasts ⟨2, ![m, n]⟩) (p : Fin m) (q : Fin n) :
    select (cmpf .ogt (addf x0 (broadcastTo ⟨2, ![m, n]⟩ x1 hb)) (broadcast ⟨2, ![m, n]⟩ (Scalar.ofBits .f32 0x00000000#32)))
        (addf x0 (broadcastTo ⟨2, ![m, n]⟩ x1 hb))
        (subf (exp (addf x0 (broadcastTo ⟨2, ![m, n]⟩ x1 hb))) (broadcast ⟨2, ![m, n]⟩ (Scalar.ofBits .f32 0x3F800000#32)))
        (ix2 p q)
      = eluAt (x0 (ix2 p q) + x1 (ix2 (0 : Fin 1) q)) := by
  have hrow := broadcastTo_1b_ab_apply x1 hb p q
  show Scalar.select (Ideal.cmp .ogt (x0 (ix2 p q) + broadcastTo ⟨2, ![m, n]⟩ x1 hb (ix2 p q)) (Ideal.ofBits .f32 0x00000000#32))
      (x0 (ix2 p q) + broadcastTo ⟨2, ![m, n]⟩ x1 hb (ix2 p q))
      (Ideal.exp (x0 (ix2 p q) + broadcastTo ⟨2, ![m, n]⟩ x1 hb (ix2 p q)) - Ideal.ofBits .f32 0x3F800000#32) = _
  rw [hrow, Ideal.ofBits_zero_f32, Ideal.ofBits_one_f32]
  rfl

end Cert.LibBlocks

end
-- ==== Proof.RegionDot.lean ====
/-
  The three matrix-product regions (regions 0, 2 and 4), from blocks to the array.

  Each region runs over ten grid points. At point `t` it holds rows 10000·t … 10000·t + 9999 of the left operand
  `x` (a [100000, K] array, K = 7 in region 0 and 64 in regions 2 and 4), the whole weight `w` ([K, 64]), and
  writes back the block's product, whose entry (p, q) is Σ_c x (10000·t + p, c) · w (c, q). That is entry
  (10000·t + p, q) of the whole product `x · w`, and every row `r` of the output lies in the block of point
  `r / 10000`; so after the region the output array is `x · w`.
-/
import proofs.«128728_j78176994722446_1_alg».proof.Proof.Stage
import proofs.«128728_j78176994722446_1_alg».proof.Proof.Gen.KernelIdeal.Frame
import proofs.«128728_j78176994722446_1_alg».proof.Proof.LibBlocks
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)
open Cert.LibBlocks

/-! ## The whole products at an index -/

theorem dot7_apply (x : Cert.Stage.Arr Ideal Cert.ReferenceIdeal.S100000x7 .f32) (w : Cert.Stage.Arr Ideal Cert.ReferenceIdeal.S7x64 .f32)
    (r : Fin 100000) (q : Fin 64) :
    Cert.Stage.dot7 x w (ix2 r q) = ∑ c : Fin 7, x (ix2 r c) * w (ix2 c q) := by
  unfold Cert.Stage.dot7
  exact dotGeneral_plain_apply _ rfl none x w r q

theorem dot64_apply (x : Cert.Stage.Arr Ideal Cert.ReferenceIdeal.S100000x64 .f32) (w : Cert.Stage.Arr Ideal Cert.ReferenceIdeal.S64x64 .f32)
    (r : Fin 100000) (q : Fin 64) :
    Cert.Stage.dot64 x w (ix2 r q) = ∑ c : Fin 64, x (ix2 r c) * w (ix2 c q) := by
  unfold Cert.Stage.dot64
  exact dotGeneral_plain_apply _ rfl none x w r q

variable (V : (c : Dev nD) → (b : Ref sig .tc) → Buf (Elt Ideal) ((c : Thread nD τ).loc b))

/-! ## Region 0: rows 10000·t … 10000·t + 9999 of `x · w`, for t = 0 … 9 -/

/-- The block's product at (p, q): Σ_c x0 (p, c) · x1 (c, q) (rounding to the narrower format is the identity on the
    extended reals, and the accumulator starts at zero). -/
theorem pay0_apply (x0 : Vec Ideal S10000x7 .f32) (x1 : Vec Ideal S7x64 .f32) (p : Fin 10000) (q : Fin 64) :
    k0_pay1 x0 x1 (ix2 p q) = ∑ c : Fin 7, x0 (ix2 p c) * x1 (ix2 c q) := by
  unfold k0_pay1
  exact matmul_zero_plain_apply _ rfl none _ _ p q

/-- The block indices over the grid: at point `t` the row windows (the left operand's and the output's) are at row
    block `t`, column block 0; the weight window is the whole matrix. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has ten points. -/
theorem point0_lt (t : Fin cfg0.N) : t.val < 10 := by
  have h := t.isLt
  have e : cfg0.N = 10 := N_0
  omega

/-- Entry (p, k) of the left operand's block at point `t` is entry (10000·t + p, k) of the array. -/
theorem blockPos0_0 (t : Fin cfg0.N) (p : Fin 10000) (k : Fin 7) (h : t.val * 10000 + p.val < 100000) :
    ((cfg0.win 0).blk t).view.emb (ix2 p k) = ix2 (⟨t.val * 10000 + p.val, h⟩ : Fin 100000) k := by
  obtain ⟨e0, e1, e2, e3, e4, e5⟩ := blockIndex0 t
  funext a; apply Fin.ext
  match a with
  | ⟨0, _⟩ => show win0_0.index t (0 : Fin 2) * 10000 + 1 * p.val = t.val * 10000 + p.val; omega
  | ⟨1, _⟩ => show win0_0.index t (1 : Fin 2) * 7 + 1 * k.val = k.val; omega

/-- The weight's block is the whole matrix at every point. -/
theorem blockPos0_1 (t : Fin cfg0.N) (k : Fin 7) (q : Fin 64) :
    ((cfg0.win 1).blk t).view.emb (ix2 k q) = ix2 k q := by
  obtain ⟨e0, e1, e2, e3, e4, e5⟩ := blockIndex0 t
  funext a; apply Fin.ext
  match a with
  | ⟨0, _⟩ => show win0_1.index t (0 : Fin 2) * 7 + 1 * k.val = k.val; omega
  | ⟨1, _⟩ => show win0_1.index t (1 : Fin 2) * 64 + 1 * q.val = q.val; omega

/-- Entry (p, q) of the output's block at point `t` is entry (10000·t + p, q) of the array. -/
theorem blockPos0_2 (t : Fin cfg0.N) (p : Fin 10000) (q : Fin 64) (h : t.val * 10000 + p.val < 100000) :
    ((cfg0.win 2).blk t).view.emb (ix2 p q) = ix2 (⟨t.val * 10000 + p.val, h⟩ : Fin 100000) q := by
  obtain ⟨e0, e1, e2, e3, e4, e5⟩ := blockIndex0 t
  funext a; apply Fin.ext
  match a with
  | ⟨0, _⟩ => show win0_2.index t (0 : Fin 2) * 10000 + 1 * p.val = t.val * 10000 + p.val; omega
  | ⟨1, _⟩ => show win0_2.index t (1 : Fin 2) * 64 + 1 * q.val = q.val; omega

/-- What point `t` writes back is block `t` of the whole product: row 10000·t + p of `x` against `w`. -/
theorem written0 (c : Dev nD) (x : Cert.Stage.Arr Ideal Cert.ReferenceIdeal.S100000x7 .f32) (w : Cert.Stage.Arr Ideal Cert.ReferenceIdeal.S7x64 .f32)
    (hx : V c (Pipeline.arrRef spec0 0) = x) (hw : V c (Pipeline.arrRef spec0 1) = w) (t : Fin cfg0.N) :
    (dat0 (F := Ideal) V c).flushed 2 t = ((cfg0.win 2).blk t).view.read (Elt Ideal) (Cert.Stage.dot7 x w) := by
  show (cfg0.win 2).cut (grid0.coords t) ((dat0 V c).after 2 t) = _
  rw [after0_2]
  unfold out0_2
  rw [View.canon_unit_zero zeroOffset2]
  simp only [View.ld_unit_zero (S := S10000x7) zeroOffset2, View.ld_unit_zero (S := S7x64) zeroOffset2]
  funext j
  obtain ⟨p, q, rfl⟩ : ∃ (p : Fin 10000) (q : Fin 64), j = ix2 p q := ⟨j 0, j 1, eq_ix2 j⟩
  have ht := point0_lt t
  have hp : t.val * 10000 + p.val < 100000 := by have := p.isLt; omega
  show k0_pay1 (iblk0 V c 0 t) (iblk0 V c 1 t) (ix2 p q) = Cert.Stage.dot7 x w (((cfg0.win 2).blk t).view.emb (ix2 p q))
  refine (pay0_apply _ _ p q).trans ?_
  rw [blockPos0_2 t p q hp, dot7_apply]
  refine Finset.sum_congr rfl fun k _ => ?_
  have e0 : iblk0 V c 0 t (ix2 p k) = x (ix2 (⟨t.val * 10000 + p.val, hp⟩ : Fin 100000) k) := by
    show V c (Pipeline.arrRef spec0 0) (((cfg0.win 0).blk t).view.emb (ix2 p k)) = _
    rw [blockPos0_0 t p k hp, hx]
  have e1 : iblk0 V c 1 t (ix2 k q) = w (ix2 k q) := by
    show V c (Pipeline.arrRef spec0 1) (((cfg0.win 1).blk t).view.emb (ix2 k q)) = _
    rw [blockPos0_1 t k q, hw]
  rw [e0, e1]

/-- An index is in point `t`'s output block iff each coordinate is in the block's range on its axis. -/
theorem mem_block0 (t : Fin cfg0.N) (i : Cert.ReferenceIdeal.S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row `r` is in the block of point `r / 10000`: the ten blocks cover the array. -/
theorem covered0 (i : Cert.ReferenceIdeal.S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by omega⟩
  obtain ⟨e0, e1, e2, e3, e4, e5⟩ := blockIndex0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array after region 0 is the whole product of the region's two input arrays. -/
theorem dot0 (c : Dev nD) (x : Cert.Stage.Arr Ideal Cert.ReferenceIdeal.S100000x7 .f32) (w : Cert.Stage.Arr Ideal Cert.ReferenceIdeal.S7x64 .f32)
    (hx : V c (Pipeline.arrRef spec0 0) = x) (hw : V c (Pipeline.arrRef spec0 1) = w) :
    (Gen.dat0 (F := Ideal) V c).arrAt 2 cfg0.N = Cert.Stage.dot7 x w :=
  (dat0 (F := Ideal) V c).arrAt_eq_of_cover 2 (Cert.Stage.dot7 x w) (fun t _ => written0 V c x w hx hw t) covered0

/-! ## Region 2: rows 10000·t … 10000·t + 9999 of `x · w`, for t = 0 … 9 -/

/-- The block's product at (p, q): Σ_c x0 (p, c) · x1 (c, q) (rounding to the narrower format is the identity on the
    extended reals, and the accumulator starts at zero). -/
theorem pay2_apply (x0 : Vec Ideal S10000x64 .f32) (x1 : Vec Ideal S64x64 .f32) (p : Fin 10000) (q : Fin 64) :
    k2_pay1 x0 x1 (ix2 p q) = ∑ c : Fin 64, x0 (ix2 p c) * x1 (ix2 c q) := by
  unfold k2_pay1
  simp only [shapeCast_self]
  exact matmul_zero_plain_apply _ rfl none _ _ p q

/-- The block indices over the grid: at point `t` the row windows (the left operand's and the output's) are at row
    block `t`, column block 0; the weight window is the whole matrix. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has ten points. -/
theorem point2_lt (t : Fin cfg2.N) : t.val < 10 := by
  have h := t.isLt
  have e : cfg2.N = 10 := N_2
  omega

/-- Entry (p, k) of the left operand's block at point `t` is entry (10000·t + p, k) of the array. -/
theorem blockPos2_0 (t : Fin cfg2.N) (p : Fin 10000) (k : Fin 64) (h : t.val * 10000 + p.val < 100000) :
    ((cfg2.win 0).blk t).view.emb (ix2 p k) = ix2 (⟨t.val * 10000 + p.val, h⟩ : Fin 100000) k := by
  obtain ⟨e0, e1, e2, e3, e4, e5⟩ := blockIndex2 t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The weight's block is the whole matrix at every point. -/
theorem blockPos2_1 (t : Fin cfg2.N) (k : Fin 64) (q : Fin 64) :
    ((cfg2.win 1).blk t).view.emb (ix2 k q) = ix2 k q := by
  obtain ⟨e0, e1, e2, e3, e4, e5⟩ := blockIndex2 t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (p, q) of the output's block at point `t` is entry (10000·t + p, q) of the array. -/
theorem blockPos2_2 (t : Fin cfg2.N) (p : Fin 10000) (q : Fin 64) (h : t.val * 10000 + p.val < 100000) :
    ((cfg2.win 2).blk t).view.emb (ix2 p q) = ix2 (⟨t.val * 10000 + p.val, h⟩ : Fin 100000) q := by
  obtain ⟨e0, e1, e2, e3, e4, e5⟩ := blockIndex2 t
  funext a; apply Fin.ext
  match a with
  | ⟨0, _⟩ => show win2_2.index t (0 : Fin 2) * 10000 + 1 * p.val = t.val * 10000 + p.val; omega
  | ⟨1, _⟩ => show win2_2.index t (1 : Fin 2) * 64 + 1 * q.val = q.val; omega

/-- What point `t` writes back is block `t` of the whole product: row 10000·t + p of `x` against `w`. -/
theorem written2 (c : Dev nD) (x : Cert.Stage.Arr Ideal Cert.ReferenceIdeal.S100000x64 .f32) (w : Cert.Stage.Arr Ideal Cert.ReferenceIdeal.S64x64 .f32)
    (hx : V c (Pipeline.arrRef spec2 0) = x) (hw : V c (Pipeline.arrRef spec2 1) = w) (t : Fin cfg2.N) :
    (dat2 (F := Ideal) V c).flushed 2 t = ((cfg2.win 2).blk t).view.read (Elt Ideal) (Cert.Stage.dot64 x w) := by
  show (cfg2.win 2).cut (grid2.coords t) ((dat2 V c).after 2 t) = _
  rw [after2_2]
  unfold out2_2
  rw [View.canon_unit_zero zeroOffset2]
  simp only [View.ld_unit_zero (S := S10000x64) zeroOffset2, View.ld_unit_zero (S := S64x64) zeroOffset2]
  funext j
  obtain ⟨p, q, rfl⟩ : ∃ (p : Fin 10000) (q : Fin 64), j = ix2 p q := ⟨j 0, j 1, eq_ix2 j⟩
  have ht := point2_lt t
  have hp : t.val * 10000 + p.val < 100000 := by have := p.isLt; omega
  show k2_pay1 (iblk2 V c 0 t) (iblk2 V c 1 t) (ix2 p q) = Cert.Stage.dot64 x w (((cfg2.win 2).blk t).view.emb (ix2 p q))
  refine (pay2_apply _ _ p q).trans ?_
  rw [blockPos2_2 t p q hp, dot64_apply]
  refine Finset.sum_congr rfl fun k _ => ?_
  have e0 : iblk2 V c 0 t (ix2 p k) = x (ix2 (⟨t.val * 10000 + p.val, hp⟩ : Fin 100000) k) := by
    show V c (Pipeline.arrRef spec2 0) (((cfg2.win 0).blk t).view.emb (ix2 p k)) = _
    rw [blockPos2_0 t p k hp, hx]
  have e1 : iblk2 V c 1 t (ix2 k q) = w (ix2 k q) := by
    show V c (Pipeline.arrRef spec2 1) (((cfg2.win 1).blk t).view.emb (ix2 k q)) = _
    rw [blockPos2_1 t k q, hw]
  rw [e0, e1]

/-- An index is in point `t`'s output block iff each coordinate is in the block's range on its axis. -/
theorem mem_block2 (t : Fin cfg2.N) (i : Cert.ReferenceIdeal.S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v57).slice (win2_2.rect t)).set ↔ _
  rw [View.set_slice_whole, Rect.mem_set_unit]
  exact Iff.rfl

/-- Row `r` is in the block of point `r / 10000`: the ten blocks cover the array. -/
theorem covered2 (i : Cert.ReferenceIdeal.S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by omega⟩
  obtain ⟨e0, e1, e2, e3, e4, e5⟩ := blockIndex2 t
  have ht : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array after region 2 is the whole product of the region's two input arrays. -/
theorem dot2 (c : Dev nD) (x : Cert.Stage.Arr Ideal Cert.ReferenceIdeal.S100000x64 .f32) (w : Cert.Stage.Arr Ideal Cert.ReferenceIdeal.S64x64 .f32)
    (hx : V c (Pipeline.arrRef spec2 0) = x) (hw : V c (Pipeline.arrRef spec2 1) = w) :
    (Gen.dat2 (F := Ideal) V c).arrAt 2 cfg2.N = Cert.Stage.dot64 x w :=
  (dat2 (F := Ideal) V c).arrAt_eq_of_cover 2 (Cert.Stage.dot64 x w) (fun t _ => written2 V c x w hx hw t) covered2

/-! ## Region 4: rows 10000·t … 10000·t + 9999 of `x · w`, for t = 0 … 9 -/

/-- The block's product at (p, q): Σ_c x0 (p, c) · x1 (c, q) (rounding to the narrower format is the identity on the
    extended reals, and the accumulator starts at zero). -/
theorem pay4_apply (x0 : Vec Ideal S10000x64 .f32) (x1 : Vec Ideal S64x64 .f32) (p : Fin 10000) (q : Fin 64) :
    k4_pay1 x0 x1 (ix2 p q) = ∑ c : Fin 64, x0 (ix2 p c) * x1 (ix2 c q) := by
  unfold k4_pay1
  simp only [shapeCast_self]
  exact matmul_zero_plain_apply _ rfl none _ _ p q

/-- The block indices over the grid: at point `t` the row windows (the left operand's and the output's) are at row
    block `t`, column block 0; the weight window is the whole matrix. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The grid has ten points. -/
theorem point4_lt (t : Fin cfg4.N) : t.val < 10 := by
  have h := t.isLt
  have e : cfg4.N = 10 := N_4
  omega

/-- Entry (p, k) of the left operand's block at point `t` is entry (10000·t + p, k) of the array. -/
theorem blockPos4_0 (t : Fin cfg4.N) (p : Fin 10000) (k : Fin 64) (h : t.val * 10000 + p.val < 100000) :
    ((cfg4.win 0).blk t).view.emb (ix2 p k) = ix2 (⟨t.val * 10000 + p.val, h⟩ : Fin 100000) k := by
  obtain ⟨e0, e1, e2, e3, e4, e5⟩ := blockIndex4 t
  funext a; apply Fin.ext
  match a with
  | ⟨0, _⟩ => show win4_0.index t (0 : Fin 2) * 10000 + 1 * p.val = t.val * 10000 + p.val; omega
  | ⟨1, _⟩ => show win4_0.index t (1 : Fin 2) * 64 + 1 * k.val = k.val; omega

/-- The weight's block is the whole matrix at every point. -/
theorem blockPos4_1 (t : Fin cfg4.N) (k : Fin 64) (q : Fin 64) :
    ((cfg4.win 1).blk t).view.emb (ix2 k q) = ix2 k q := by
  obtain ⟨e0, e1, e2, e3, e4, e5⟩ := blockIndex4 t
  funext a; apply Fin.ext
  match a with
  | ⟨0, _⟩ => show win4_1.index t (0 : Fin 2) * 64 + 1 * k.val = k.val; omega
  | ⟨1, _⟩ => show win4_1.index t (1 : Fin 2) * 64 + 1 * q.val = q.val; omega

/-- Entry (p, q) of the output's block at point `t` is entry (10000·t + p, q) of the array. -/
theorem blockPos4_2 (t : Fin cfg4.N) (p : Fin 10000) (q : Fin 64) (h : t.val * 10000 + p.val < 100000) :
    ((cfg4.win 2).blk t).view.emb (ix2 p q) = ix2 (⟨t.val * 10000 + p.val, h⟩ : Fin 100000) q := by
  obtain ⟨e0, e1, e2, e3, e4, e5⟩ := blockIndex4 t
  funext a; apply Fin.ext
  match a with
  | ⟨0, _⟩ => show win4_2.index t (0 : Fin 2) * 10000 + 1 * p.val = t.val * 10000 + p.val; omega
  | ⟨1, _⟩ => show win4_2.index t (1 : Fin 2) * 64 + 1 * q.val = q.val; omega

/-- What point `t` writes back is block `t` of the whole product: row 10000·t + p of `x` against `w`. -/
theorem written4 (c : Dev nD) (x : Cert.Stage.Arr Ideal Cert.ReferenceIdeal.S100000x64 .f32) (w : Cert.Stage.Arr Ideal Cert.ReferenceIdeal.S64x64 .f32)
    (hx : V c (Pipeline.arrRef spec4 0) = x) (hw : V c (Pipeline.arrRef spec4 1) = w) (t : Fin cfg4.N) :
    (dat4 (F := Ideal) V c).flushed 2 t = ((cfg4.win 2).blk t).view.read (Elt Ideal) (Cert.Stage.dot64 x w) := by
  show (cfg4.win 2).cut (grid4.coords t) ((dat4 V c).after 2 t) = _
  rw [after4_2]
  unfold out4_2
  rw [View.canon_unit_zero zeroOffset2]
  simp only [View.ld_unit_zero (S := S10000x64) zeroOffset2, View.ld_unit_zero (S := S64x64) zeroOffset2]
  funext j
  obtain ⟨p, q, rfl⟩ : ∃ (p : Fin 10000) (q : Fin 64), j = ix2 p q := ⟨j 0, j 1, eq_ix2 j⟩
  have ht := point4_lt t
  have hp : t.val * 10000 + p.val < 100000 := by have := p.isLt; omega
  show k4_pay1 (iblk4 V c 0 t) (iblk4 V c 1 t) (ix2 p q) = Cert.Stage.dot64 x w (((cfg4.win 2).blk t).view.emb (ix2 p q))
  refine (pay4_apply _ _ p q).trans ?_
  rw [blockPos4_2 t p q hp, dot64_apply]
  refine Finset.sum_congr rfl fun k _ => ?_
  have e0 : iblk4 V c 0 t (ix2 p k) = x (ix2 (⟨t.val * 10000 + p.val, hp⟩ : Fin 100000) k) := by
    show V c (Pipeline.arrRef spec4 0) (((cfg4.win 0).blk t).view.emb (ix2 p k)) = _
    rw [blockPos4_0 t p k hp, hx]
  have e1 : iblk4 V c 1 t (ix2 k q) = w (ix2 k q) := by
    show V c (Pipeline.arrRef spec4 1) (((cfg4.win 1).blk t).view.emb (ix2 k q)) = _
    rw [blockPos4_1 t k q, hw]
  rw [e0, e1]

/-- An index is in point `t`'s output block iff each coordinate is in the block's range on its axis. -/
theorem mem_block4 (t : Fin cfg4.N) (i : Cert.ReferenceIdeal.S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v82).slice (win4_2.rect t)).set ↔ _
  rw [View.set_slice_whole, Rect.mem_set_unit]
  exact Iff.rfl

/-- Row `r` is in the block of point `r / 10000`: the ten blocks cover the array. -/
theorem covered4 (i : Cert.ReferenceIdeal.S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by omega⟩
  obtain ⟨e0, e1, e2, e3, e4, e5⟩ := blockIndex4 t
  have ht : t.val = (i 0).val / 10000 := rfl
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The array after region 4 is the whole product of the region's two input arrays. -/
theorem dot4 (c : Dev nD) (x : Cert.Stage.Arr Ideal Cert.ReferenceIdeal.S100000x64 .f32) (w : Cert.Stage.Arr Ideal Cert.ReferenceIdeal.S64x64 .f32)
    (hx : V c (Pipeline.arrRef spec4 0) = x) (hw : V c (Pipeline.arrRef spec4 1) = w) :
    (Gen.dat4 (F := Ideal) V c).arrAt 2 cfg4.N = Cert.Stage.dot64 x w :=
  (dat4 (F := Ideal) V c).arrAt_eq_of_cover 2 (Cert.Stage.dot64 x w) (fun t _ => written4 V c x w hx hw t) covered4

end Cert.KernelIdeal.Region

end
-- ==== Proof.RegionElu.lean ====
/-
  The three bias + ELU regions (regions 1, 3 and 5), from blocks to the array.

  Each region runs over ten grid points. At point `t` it holds rows 10000·t … 10000·t + 9999 of the input `a`
  (a [100000, 64] array), the whole bias row (a [1, 64] array whose entry (0, q) is `b q`), and writes back the
  block whose entry (p, q) is `eluAt (a (10000·t + p, q) + b q)`, with `eluAt z = z` where `z > 0` and
  `exp z - 1` elsewhere. The whole-array function `elu (addBias a b)` has the same entry at (10000·t + p, q): it
  spells ELU as `select (z > 0) z (1 · (exp (select (z > 0) 0 z) - 1))`, which is `eluAt z`. Every row `r` of
  the output lies in the block of point `r / 10000`; so after the region the output array is `elu (addBias a b)`.
-/
import proofs.«128728_j78176994722446_1_alg».proof.Proof.Stage
import proofs.«128728_j78176994722446_1_alg».proof.Proof.Gen.KernelIdeal.Frame
import proofs.«128728_j78176994722446_1_alg».proof.Proof.LibBlocks
import Idealize.ShloMosaic.Lib.Pipeline.Value

set_option maxRecDepth 16384

noncomputable section

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)
open Cert.LibBlocks

/-! ## The whole-array function at an index -/

/-- Entry (r, q) of `elu (addBias a b)` is `eluAt (a (r, q) + b q)`. -/
theorem elu_apply (a : Cert.Stage.Arr Ideal Cert.ReferenceIdeal.S100000x64 .f32) (b : Cert.Stage.Arr Ideal Cert.ReferenceIdeal.S64 .f32)
    (r : Fin 100000) (q : Fin 64) :
    Cert.Stage.elu (Cert.Stage.addBias a b) (ix2 r q) = eluAt (a (ix2 r q) + b (ix1 q)) := by
  have hrow : Cert.Stage.addBias a b (ix2 r q) = a (ix2 r q) + b (ix1 q) := by
    unfold Cert.Stage.addBias
    refine congrArg (a (ix2 r q) + ·) ?_
    refine (broadcastInDim_apply ![0, 1] _ _ (ix2 r q) (ix2 (0 : Fin 1) q) ?_).trans ?_
    · intro ax
      match ax with
      | ⟨0, _⟩ => rfl
      | ⟨1, _⟩ => rfl
    · refine broadcastInDim_apply ![1] _ b (ix2 (0 : Fin 1) q) (ix1 q) ?_
      intro ax
      match ax with
      | ⟨0, _⟩ => rfl
  unfold Cert.Stage.elu
  generalize Cert.Stage.addBias a b = z at hrow ⊢
  show Scalar.select (Ideal.cmp .ogt (z (ix2 r q)) (Ideal.ofBits .f32 0x00000000#32)) (z (ix2 r q))
      (Ideal.ofBits .f32 0x3F800000#32 * (Ideal.exp (Scalar.select (Ideal.cmp .ogt (z (ix2 r q)) (Ideal.ofBits .f32 0x00000000#32))
        (Ideal.ofBits .f32 0x00000000#32) (z (ix2 r q))) - 1)) = _
  rw [Ideal.ofBits_zero_f32, Ideal.ofBits_one_f32, elu_law, hrow]

variable (V : (c : Dev nD) → (b : Ref sig .tc) → Buf (Elt Ideal) ((c : Thread nD τ).loc b))

/-! ## Region 1: rows 10000·t … 10000·t + 9999 of `elu (a + b)`, for t = 0 … 9 -/

/-- The block's result at (p, q): `eluAt (x0 (p, q) + x1 (0, q))`. -/
theorem pay1_apply (x0 : Vec Ideal S10000x64 .f32) (x1 : Vec Ideal S1x64 .f32) (p : Fin 10000) (q : Fin 64) :
    k1_pay1 x0 x1 (ix2 p q) = eluAt (x0 (ix2 p q) + x1 (ix2 (0 : Fin 1) q)) := by
  unfold k1_pay1
  simp only [shapeCast_self]
  exact biasElu_apply x0 x1 broadcasts_S1x64_S10000x64 p q

/-- The block indices over the grid: at point `t` the row windows (the input's and the output's) are at row block
    `t`, column block 0; the bias window is the whole row. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has ten points. -/
theorem point1_lt (t : Fin cfg1.N) : t.val < 10 := by
  have h := t.isLt
  have e : cfg1.N = 10 := N_1
  omega

/-- Entry (p, q) of the input's block at point `t` is entry (10000·t + p, q) of the array. -/
theorem blockPos1_0 (t : Fin cfg1.N) (p : Fin 10000) (q : Fin 64) (h : t.val * 10000 + p.val < 100000) :
    ((cfg1.win 0).blk t).view.emb (ix2 p q) = ix2 (⟨t.val * 10000 + p.val, h⟩ : Fin 100000) q := by
  obtain ⟨e0, e1, e2, e3, e4, e5⟩ := blockIndex1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

/-- The bias's block is the whole row at every point. -/
theorem blockPos1_1 (t : Fin cfg1.N) (q : Fin 64) :
    ((cfg1.win 1).blk t).view.emb (ix2 (0 : Fin 1) q) = ix2 (0 : Fin 1) q := by
  obtain ⟨e0, e1, e2, e3, e4, e5⟩ := blockIndex1 t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- Entry (p, q) of the output's block at point `t` is entry (10000·t + p, q) of the array. -/
theorem blockPos1_2 (t : Fin cfg1.N) (p : Fin 10000) (q : Fin 64) (h : t.val * 10000 + p.val < 100000) :
    ((cfg1.win 2).blk t).view.emb (ix2 p q) = ix2 (⟨t.val * 10000 + p.val, h⟩ : Fin 100000) q := by
  obtain ⟨e0, e1, e2, e3, e4, e5⟩ := blockIndex1 t
  funext a; apply Fin.ext
  match a with
  | ⟨0, _⟩ => show win1_2.index t (0 : Fin 2) * 10000 + 1 * p.val = t.val * 10000 + p.val; omega
  | ⟨1, _⟩ => show win1_2.index t (1 : Fin 2) * 64 + 1 * q.val = q.val; omega

/-- What point `t` writes back is block `t` of `elu (a + b)`. -/
theorem written1 (c : Dev nD) (a : Cert.Stage.Arr Ideal Cert.ReferenceIdeal.S100000x64 .f32) (b : Cert.Stage.Arr Ideal Cert.ReferenceIdeal.S64 .f32)
    (ha : V c (Pipeline.arrRef spec1 0) = a)
    (hb : ∀ q : Fin 64, V c (Pipeline.arrRef spec1 1) (ValueIdx.ix2 (0 : Fin 1) q) = b (ValueIdx.ix1 q)) (t : Fin cfg1.N) :
    (dat1 (F := Ideal) V c).flushed 2 t = ((cfg1.win 2).blk t).view.read (Elt Ideal) (Cert.Stage.elu (Cert.Stage.addBias a b)) := by
  show (cfg1.win 2).cut (grid1.coords t) ((dat1 V c).after 2 t) = _
  rw [after1_2]
  unfold out1_2
  rw [View.canon_unit_zero zeroOffset2]
  simp only [View.ld_unit_zero (S := S10000x64) zeroOffset2, View.ld_unit_zero (S := S1x64) zeroOffset2]
  funext j
  obtain ⟨p, q, rfl⟩ : ∃ (p : Fin 10000) (q : Fin 64), j = ix2 p q := ⟨j 0, j 1, eq_ix2 j⟩
  have ht := point1_lt t
  have hp : t.val * 10000 + p.val < 100000 := by have := p.isLt; omega
  show k1_pay1 (iblk1 V c 0 t) (iblk1 V c 1 t) (ix2 p q) = Cert.Stage.elu (Cert.Stage.addBias a b) (((cfg1.win 2).blk t).view.emb (ix2 p q))
  refine (pay1_apply _ _ p q).trans ?_
  rw [blockPos1_2 t p q hp, elu_apply]
  have e0 : iblk1 V c 0 t (ix2 p q) = a (ix2 (⟨t.val * 10000 + p.val, hp⟩ : Fin 100000) q) := by
    show V c (Pipeline.arrRef spec1 0) (((cfg1.win 0).blk t).view.emb (ix2 p q)) = _
    rw [blockPos1_0 t p q hp, ha]
  have e1 : iblk1 V c 1 t (ix2 (0 : Fin 1) q) = b (ix1 q) := by
    show V c (Pipeline.arrRef spec1 1) (((cfg1.win 1).blk t).view.emb (ix2 (0 : Fin 1) q)) = _
    rw [blockPos1_1 t q, hb]
  rw [e0, e1]

/-- An index is in point `t`'s output block iff each coordinate is in the block's range on its axis. -/
theorem mem_block1 (t : Fin cfg1.N) (i : Cert.ReferenceIdeal.S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v56).slice (win1_2.rect t)).set ↔ _
  rw [View.set_slice_whole, Rect.mem_set_unit]
  exact Iff.rfl

/-- Row `r` is in the block of point `r / 10000`: the ten blocks cover the array. -/
theorem covered1 (i : Cert.ReferenceIdeal.S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by omega⟩
  obtain ⟨e0, e1, e2, e3, e4, e5⟩ := blockIndex1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array after region 1 is `elu (a + b)` of the region's input array `a` and bias row `b`. -/
theorem elu1 (c : Dev nD) (a : Cert.Stage.Arr Ideal Cert.ReferenceIdeal.S100000x64 .f32) (b : Cert.Stage.Arr Ideal Cert.ReferenceIdeal.S64 .f32)
    (ha : V c (Pipeline.arrRef spec1 0) = a)
    (hb : ∀ q : Fin 64, V c (Pipeline.arrRef spec1 1) (ValueIdx.ix2 (0 : Fin 1) q) = b (ValueIdx.ix1 q)) :
    (Gen.dat1 (F := Ideal) V c).arrAt 2 cfg1.N = Cert.Stage.elu (Cert.Stage.addBias a b) :=
  (dat1 (F := Ideal) V c).arrAt_eq_of_cover 2 (Cert.Stage.elu (Cert.Stage.addBias a b)) (fun t _ => written1 V c a b ha hb t) covered1

/-! ## Region 3: rows 10000·t … 10000·t + 9999 of `elu (a + b)`, for t = 0 … 9 -/

/-- The block's result at (p, q): `eluAt (x0 (p, q) + x1 (0, q))`. -/
theorem pay3_apply (x0 : Vec Ideal S10000x64 .f32) (x1 : Vec Ideal S1x64 .f32) (p : Fin 10000) (q : Fin 64) :
    k3_pay1 x0 x1 (ix2 p q) = eluAt (x0 (ix2 p q) + x1 (ix2 (0 : Fin 1) q)) := by
  unfold k3_pay1
  simp only [shapeCast_self]
  exact biasElu_apply x0 x1 broadcasts_S1x64_S10000x64 p q

/-- The block indices over the grid: at point `t` the row windows (the input's and the output's) are at row block
    `t`, column block 0; the bias window is the whole row. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The grid has ten points. -/
theorem point3_lt (t : Fin cfg3.N) : t.val < 10 := by
  have h := t.isLt
  have e : cfg3.N = 10 := N_3
  omega

/-- Entry (p, q) of the input's block at point `t` is entry (10000·t + p, q) of the array. -/
theorem blockPos3_0 (t : Fin cfg3.N) (p : Fin 10000) (q : Fin 64) (h : t.val * 10000 + p.val < 100000) :
    ((cfg3.win 0).blk t).view.emb (ix2 p q) = ix2 (⟨t.val * 10000 + p.val, h⟩ : Fin 100000) q := by
  obtain ⟨e0, e1, e2, e3, e4, e5⟩ := blockIndex3 t
  funext a; apply Fin.ext
  match a with
  | ⟨0, _⟩ => show win3_0.index t (0 : Fin 2) * 10000 + 1 * p.val = t.val * 10000 + p.val; omega
  | ⟨1, _⟩ => show win3_0.index t (1 : Fin 2) * 64 + 1 * q.val = q.val; omega

/-- The bias's block is the whole row at every point. -/
theorem blockPos3_1 (t : Fin cfg3.N) (q : Fin 64) :
    ((cfg3.win 1).blk t).view.emb (ix2 (0 : Fin 1) q) = ix2 (0 : Fin 1) q := by
  obtain ⟨e0, e1, e2, e3, e4, e5⟩ := blockIndex3 t
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- Entry (p, q) of the output's block at point `t` is entry (10000·t + p, q) of the array. -/
theorem blockPos3_2 (t : Fin cfg3.N) (p : Fin 10000) (q : Fin 64) (h : t.val * 10000 + p.val < 100000) :
    ((cfg3.win 2).blk t).view.emb (ix2 p q) = ix2 (⟨t.val * 10000 + p.val, h⟩ : Fin 100000) q := by
  obtain ⟨e0, e1, e2, e3, e4, e5⟩ := blockIndex3 t
  funext a; apply Fin.ext
  match a with
  | ⟨0, _⟩ => show win3_2.index t (0 : Fin 2) * 10000 + 1 * p.val = t.val * 10000 + p.val; omega
  | ⟨1, _⟩ => show win3_2.index t (1 : Fin 2) * 64 + 1 * q.val = q.val; omega

/-- What point `t` writes back is block `t` of `elu (a + b)`. -/
theorem written3 (c : Dev nD) (a : Cert.Stage.Arr Ideal Cert.ReferenceIdeal.S100000x64 .f32) (b : Cert.Stage.Arr Ideal Cert.ReferenceIdeal.S64 .f32)
    (ha : V c (Pipeline.arrRef spec3 0) = a)
    (hb : ∀ q : Fin 64, V c (Pipeline.arrRef spec3 1) (ValueIdx.ix2 (0 : Fin 1) q) = b (ValueIdx.ix1 q)) (t : Fin cfg3.N) :
    (dat3 (F := Ideal) V c).flushed 2 t = ((cfg3.win 2).blk t).view.read (Elt Ideal) (Cert.Stage.elu (Cert.Stage.addBias a b)) := by
  show (cfg3.win 2).cut (grid3.coords t) ((dat3 V c).after 2 t) = _
  rw [after3_2]
  unfold out3_2
  rw [View.canon_unit_zero zeroOffset2]
  simp only [View.ld_unit_zero (S := S10000x64) zeroOffset2, View.ld_unit_zero (S := S1x64) zeroOffset2]
  funext j
  obtain ⟨p, q, rfl⟩ : ∃ (p : Fin 10000) (q : Fin 64), j = ix2 p q := ⟨j 0, j 1, eq_ix2 j⟩
  have ht := point3_lt t
  have hp : t.val * 10000 + p.val < 100000 := by have := p.isLt; omega
  show k3_pay1 (iblk3 V c 0 t) (iblk3 V c 1 t) (ix2 p q) = Cert.Stage.elu (Cert.Stage.addBias a b) (((cfg3.win 2).blk t).view.emb (ix2 p q))
  refine (pay3_apply _ _ p q).trans ?_
  rw [blockPos3_2 t p q hp, elu_apply]
  have e0 : iblk3 V c 0 t (ix2 p q) = a (ix2 (⟨t.val * 10000 + p.val, hp⟩ : Fin 100000) q) := by
    show V c (Pipeline.arrRef spec3 0) (((cfg3.win 0).blk t).view.emb (ix2 p q)) = _
    rw [blockPos3_0 t p q hp, ha]
  have e1 : iblk3 V c 1 t (ix2 (0 : Fin 1) q) = b (ix1 q) := by
    show V c (Pipeline.arrRef spec3 1) (((cfg3.win 1).blk t).view.emb (ix2 (0 : Fin 1) q)) = _
    rw [blockPos3_1 t q, hb]
  rw [e0, e1]

/-- An index is in point `t`'s output block iff each coordinate is in the block's range on its axis. -/
theorem mem_block3 (t : Fin cfg3.N) (i : Cert.ReferenceIdeal.S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v81).slice (win3_2.rect t)).set ↔ _
  rw [View.set_slice_whole, Rect.mem_set_unit]
  exact Iff.rfl

/-- Row `r` is in the block of point `r / 10000`: the ten blocks cover the array. -/
theorem covered3 (i : Cert.ReferenceIdeal.S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by omega⟩
  obtain ⟨e0, e1, e2, e3, e4, e5⟩ := blockIndex3 t
  have ht : t.val = (i 0).val / 10000 := rfl
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array after region 3 is `elu (a + b)` of the region's input array `a` and bias row `b`. -/
theorem elu3 (c : Dev nD) (a : Cert.Stage.Arr Ideal Cert.ReferenceIdeal.S100000x64 .f32) (b : Cert.Stage.Arr Ideal Cert.ReferenceIdeal.S64 .f32)
    (ha : V c (Pipeline.arrRef spec3 0) = a)
    (hb : ∀ q : Fin 64, V c (Pipeline.arrRef spec3 1) (ValueIdx.ix2 (0 : Fin 1) q) = b (ValueIdx.ix1 q)) :
    (Gen.dat3 (F := Ideal) V c).arrAt 2 cfg3.N = Cert.Stage.elu (Cert.Stage.addBias a b) :=
  (dat3 (F := Ideal) V c).arrAt_eq_of_cover 2 (Cert.Stage.elu (Cert.Stage.addBias a b)) (fun t _ => written3 V c a b ha hb t) covered3

/-! ## Region 5: rows 10000·t … 10000·t + 9999 of `elu (a + b)`, for t = 0 … 9 -/

/-- The block's result at (p, q): `eluAt (x0 (p, q) + x1 (0, q))`. -/
theorem pay5_apply (x0 : Vec Ideal S10000x64 .f32) (x1 : Vec Ideal S1x64 .f32) (p : Fin 10000) (q : Fin 64) :
    k5_pay1 x0 x1 (ix2 p q) = eluAt (x0 (ix2 p q) + x1 (ix2 (0 : Fin 1) q)) := by
  unfold k5_pay1
  simp only [shapeCast_self]
  exact biasElu_apply x0 x1 broadcasts_S1x64_S10000x64 p q

/-- The block indices over the grid: at point `t` the row windows (the input's and the output's) are at row block
    `t`, column block 0; the bias window is the whole row. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The grid has ten points. -/
theorem point5_lt (t : Fin cfg5.N) : t.val < 10 := by
  have h := t.isLt
  have e : cfg5.N = 10 := N_5
  omega

/-- Entry (p, q) of the input's block at point `t` is entry (10000·t + p, q) of the array. -/
theorem blockPos5_0 (t : Fin cfg5.N) (p : Fin 10000) (q : Fin 64) (h : t.val * 10000 + p.val < 100000) :
    ((cfg5.win 0).blk t).view.emb (ix2 p q) = ix2 (⟨t.val * 10000 + p.val, h⟩ : Fin 100000) q := by
  obtain ⟨e0, e1, e2, e3, e4, e5⟩ := blockIndex5 t
  funext a; apply Fin.ext
  match a with
  | ⟨0, _⟩ => show win5_0.index t (0 : Fin 2) * 10000 + 1 * p.val = t.val * 10000 + p.val; omega
  | ⟨1, _⟩ => show win5_0.index t (1 : Fin 2) * 64 + 1 * q.val = q.val; omega

/-- The bias's block is the whole row at every point. -/
theorem blockPos5_1 (t : Fin cfg5.N) (q : Fin 64) :
    ((cfg5.win 1).blk t).view.emb (ix2 (0 : Fin 1) q) = ix2 (0 : Fin 1) q := by
  obtain ⟨e0, e1, e2, e3, e4, e5⟩ := blockIndex5 t
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- Entry (p, q) of the output's block at point `t` is entry (10000·t + p, q) of the array. -/
theorem blockPos5_2 (t : Fin cfg5.N) (p : Fin 10000) (q : Fin 64) (h : t.val * 10000 + p.val < 100000) :
    ((cfg5.win 2).blk t).view.emb (ix2 p q) = ix2 (⟨t.val * 10000 + p.val, h⟩ : Fin 100000) q := by
  obtain ⟨e0, e1, e2, e3, e4, e5⟩ := blockIndex5 t
  funext a; apply Fin.ext
  match a with
  | ⟨0, _⟩ => show win5_2.index t (0 : Fin 2) * 10000 + 1 * p.val = t.val * 10000 + p.val; omega
  | ⟨1, _⟩ => show win5_2.index t (1 : Fin 2) * 64 + 1 * q.val = q.val; omega

/-- What point `t` writes back is block `t` of `elu (a + b)`. -/
theorem written5 (c : Dev nD) (a : Cert.Stage.Arr Ideal Cert.ReferenceIdeal.S100000x64 .f32) (b : Cert.Stage.Arr Ideal Cert.ReferenceIdeal.S64 .f32)
    (ha : V c (Pipeline.arrRef spec5 0) = a)
    (hb : ∀ q : Fin 64, V c (Pipeline.arrRef spec5 1) (ValueIdx.ix2 (0 : Fin 1) q) = b (ValueIdx.ix1 q)) (t : Fin cfg5.N) :
    (dat5 (F := Ideal) V c).flushed 2 t = ((cfg5.win 2).blk t).view.read (Elt Ideal) (Cert.Stage.elu (Cert.Stage.addBias a b)) := by
  show (cfg5.win 2).cut (grid5.coords t) ((dat5 V c).after 2 t) = _
  rw [after5_2]
  unfold out5_2
  rw [View.canon_unit_zero zeroOffset2]
  simp only [View.ld_unit_zero (S := S10000x64) zeroOffset2, View.ld_unit_zero (S := S1x64) zeroOffset2]
  funext j
  obtain ⟨p, q, rfl⟩ : ∃ (p : Fin 10000) (q : Fin 64), j = ix2 p q := ⟨j 0, j 1, eq_ix2 j⟩
  have ht := point5_lt t
  have hp : t.val * 10000 + p.val < 100000 := by have := p.isLt; omega
  show k5_pay1 (iblk5 V c 0 t) (iblk5 V c 1 t) (ix2 p q) = Cert.Stage.elu (Cert.Stage.addBias a b) (((cfg5.win 2).blk t).view.emb (ix2 p q))
  refine (pay5_apply _ _ p q).trans ?_
  rw [blockPos5_2 t p q hp, elu_apply]
  have e0 : iblk5 V c 0 t (ix2 p q) = a (ix2 (⟨t.val * 10000 + p.val, hp⟩ : Fin 100000) q) := by
    show V c (Pipeline.arrRef spec5 0) (((cfg5.win 0).blk t).view.emb (ix2 p q)) = _
    rw [blockPos5_0 t p q hp, ha]
  have e1 : iblk5 V c 1 t (ix2 (0 : Fin 1) q) = b (ix1 q) := by
    show V c (Pipeline.arrRef spec5 1) (((cfg5.win 1).blk t).view.emb (ix2 (0 : Fin 1) q)) = _
    rw [blockPos5_1 t q, hb]
  rw [e0, e1]

/-- An index is in point `t`'s output block iff each coordinate is in the block's range on its axis. -/
theorem mem_block5 (t : Fin cfg5.N) (i : Cert.ReferenceIdeal.S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v106).slice (win5_2.rect t)).set ↔ _
  rw [View.set_slice_whole, Rect.mem_set_unit]
  exact Iff.rfl

/-- Row `r` is in the block of point `r / 10000`: the ten blocks cover the array. -/
theorem covered5 (i : Cert.ReferenceIdeal.S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by omega⟩
  obtain ⟨e0, e1, e2, e3, e4, e5⟩ := blockIndex5 t
  have ht : t.val = (i 0).val / 10000 := rfl
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The array after region 5 is `elu (a + b)` of the region's input array `a` and bias row `b`. -/
theorem elu5 (c : Dev nD) (a : Cert.Stage.Arr Ideal Cert.ReferenceIdeal.S100000x64 .f32) (b : Cert.Stage.Arr Ideal Cert.ReferenceIdeal.S64 .f32)
    (ha : V c (Pipeline.arrRef spec5 0) = a)
    (hb : ∀ q : Fin 64, V c (Pipeline.arrRef spec5 1) (ValueIdx.ix2 (0 : Fin 1) q) = b (ValueIdx.ix1 q)) :
    (Gen.dat5 (F := Ideal) V c).arrAt 2 cfg5.N = Cert.Stage.elu (Cert.Stage.addBias a b) :=
  (dat5 (F := Ideal) V c).arrAt_eq_of_cover 2 (Cert.Stage.elu (Cert.Stage.addBias a b)) (fun t _ => written5 V c a b ha hb t) covered5

end Cert.KernelIdeal.Region

end
-- ==== Proof.RegionHead.lean ====
/-
  The head, region 6 of the kernel program: a grid of ONE point whose eight windows each take their whole array as the
  block. With the read-out `r` [256, 64], weights `W₁` [64, 64], `W₂` [64, 32], `W₃` [32, 1] and biases `b₁`, `b₂`, `b₃`
  (entering as rows [1, 64], [1, 32], [1, 1]), the body stores, once,
      max (max (r · W₁ + b₁) 0 · W₂ + b₂) 0 · W₃ + b₃          (a column [256, 1]).
  Two steps.
  (i) The stored term IS the stage function `Cert.Stage.headCol`, layer by layer as whole arrays over the extended reals:
      a product accumulated into the zero splat is the plain product (both are Σ_k a(p, k) · w(k, q) over the one
      contracted axis, with the same index maps, and rounding the operands to bf16 is the identity on ideal values);
      a bias row [1, n] broadcast down the 256 rows reads entry (0, q) at every (p, q), as the reference's vector [n],
      made a row and then broadcast, reads entry q; and the maximum against the splat of the scalar 0 is, entry by entry,
      the maximum against the broadcast of the rank-0 constant 0.
  (ii) The one block is the whole array: every window's block at the single point has offset 0 and the array's own
      extents, so reading an array through it returns the array, and the output's one block covers every index.
-/
import proofs.«128728_j78176994722446_1_alg».proof.Proof.Stage
import proofs.«128728_j78176994722446_1_alg».proof.Proof.Gen.KernelIdeal.Frame
import Idealize.ShloMosaic.PureOps.Ideal.Laws
import Idealize.ShloMosaic.Lib.ValueIdx
import Idealize.ShloMosaic.Lib.Pipeline.Value

noncomputable section

namespace Cert.KernelIdeal.Region

open Cert.KernelIdeal Cert.KernelIdeal.Gen Idealize.ShloMosaic Idealize.ShloMosaic.TcCoe Idealize.ShloMosaic.ValueIdx
open Idealize.ShloMosaic.Pipeline (Dat)

namespace Head

/-! ## (i) The stored term is the stage function

Each lemma is over VARIABLES of the literal array types; the side conditions that are propositions are variables too
(any two proofs of one are equal), so the lemmas rewrite the printed term whichever names its proofs carry. -/

/-- First layer's product. Into the zero accumulator, Σ_k A(p, k) · W(k, q) over k < 64 is all there is; it is the reference's product entry by entry, the two contractions having the same dimension numbers, and the operands' rounding to bf16 being the identity on ideal values. -/
theorem prod_64_64 (A : FVec Ideal S256x64 .f32) (W : FVec Ideal S64x64 .f32) (h h' : FTy.bf16.bits < FTy.f32.bits) :
    matmul dot_S256x64_S64x64_S256x64_1_0_0_1_n_n none (truncf .bf16 A h) (truncf .bf16 W h')
        (constant S256x64 .f32 0x00000000#32)
      = Host.dotGeneral (F := Ideal) Cert.ReferenceIdeal.dot_S256x64_S64x64_S256x64_1_0_0_1_n_n none A W := by
  funext j
  refine (Ideal.matmul_constant_zero_apply _ none _ _ j).trans ?_
  exact (Ideal.dotGeneral_apply _ none .single A W j).symm

/-- Second layer's product, [256, 64] · [64, 32]: the same sum over k < 64. -/
theorem prod_64_32 (A : FVec Ideal S256x64 .f32) (W : FVec Ideal S64x32 .f32) (h h' : FTy.bf16.bits < FTy.f32.bits) :
    matmul dot_S256x64_S64x32_S256x32_1_0_0_1_n_n none (truncf .bf16 A h) (truncf .bf16 W h')
        (constant S256x32 .f32 0x00000000#32)
      = Host.dotGeneral (F := Ideal) Cert.ReferenceIdeal.dot_S256x64_S64x32_S256x32_1_0_0_1_n_n none A W := by
  funext j
  refine (Ideal.matmul_constant_zero_apply _ none _ _ j).trans ?_
  exact (Ideal.dotGeneral_apply _ none .single A W j).symm

/-- Third layer's product, [256, 32] · [32, 1]: the same sum over k < 32. -/
theorem prod_32_1 (A : FVec Ideal S256x32 .f32) (W : FVec Ideal S32x1 .f32) (h h' : FTy.bf16.bits < FTy.f32.bits) :
    matmul dot_S256x32_S32x1_S256x1_1_0_0_1_n_n none (truncf .bf16 A h) (truncf .bf16 W h')
        (constant S256x1 .f32 0x00000000#32)
      = Host.dotGeneral (F := Ideal) Cert.ReferenceIdeal.dot_S256x32_S32x1_S256x1_1_0_0_1_n_n none A W := by
  funext j
  refine (Ideal.matmul_constant_zero_apply _ none _ _ j).trans ?_
  exact (Ideal.dotGeneral_apply _ none .single A W j).symm

/-- The first bias. The row [1, 64] broadcast to [256, 64] reads its entry (0, q) at (p, q); the reference's vector [64] made a row [1, 64] and broadcast to [256, 64] reads its entry q there. Equal when the row's (0, q) is the vector's q. -/
theorem bias_64 (x : Vec Ideal S1x64 .f32) (b : Cert.Stage.Arr Ideal Cert.ReferenceIdeal.S64 .f32)
    (hb : ∀ q : Fin 64, x (ix2 (0 : Fin 1) q) = b (ix1 q)) (hs : S1x64.ShapeCasts S1x64) (hbr : S1x64.Broadcasts S256x64) :
    broadcastTo S256x64 (shapeCast S1x64 x hs) hbr
      = broadcastInDim Cert.ReferenceIdeal.S256x64 ![0, 1] Cert.ReferenceIdeal.Facts₀.bcast_S1x64_S256x64_0_1
          (broadcastInDim Cert.ReferenceIdeal.S1x64 ![1] Cert.ReferenceIdeal.Facts₀.bcast_S64_S1x64_1 b) := by
  funext j
  obtain ⟨p, q, rfl⟩ : ∃ (p : Fin 256) (q : Fin 64), j = ix2 p q := ⟨j 0, j 1, eq_ix2 j⟩
  rw [shapeCast_self]
  refine (broadcastTo_apply x _ (ix2 p q) (ix2 (0 : Fin 1) q) ?_).trans ?_
  · intro a; match a with | ⟨0, _⟩ => rfl | ⟨1, _⟩ => rfl
  refine Eq.trans ?_ (broadcastInDim_apply _ _ _ (ix2 p q) (ix2 (0 : Fin 1) q) ?_).symm
  · refine (hb q).trans (broadcastInDim_apply _ _ b (ix2 (0 : Fin 1) q) (ix1 q) ?_).symm
    intro a; match a with | ⟨0, _⟩ => rfl
  · intro a; match a with | ⟨0, _⟩ => rfl | ⟨1, _⟩ => rfl

/-- The second bias, a row [1, 32] under [256, 32]: entry (0, q) at every (p, q). -/
theorem bias_32 (x : Vec Ideal S1x32 .f32) (b : Cert.Stage.Arr Ideal Cert.ReferenceIdeal.S32 .f32)
    (hb : ∀ q : Fin 32, x (ix2 (0 : Fin 1) q) = b (ix1 q)) (hs : S1x32.ShapeCasts S1x32) (hbr : S1x32.Broadcasts S256x32) :
    broadcastTo S256x32 (shapeCast S1x32 x hs) hbr
      = broadcastInDim Cert.ReferenceIdeal.S256x32 ![0, 1] Cert.ReferenceIdeal.Facts₀.bcast_S1x32_S256x32_0_1
          (broadcastInDim Cert.ReferenceIdeal.S1x32 ![1] Cert.ReferenceIdeal.Facts₀.bcast_S32_S1x32_1 b) := by
  funext j
  obtain ⟨p, q, rfl⟩ : ∃ (p : Fin 256) (q : Fin 32), j = ix2 p q := ⟨j 0, j 1, eq_ix2 j⟩
  rw [shapeCast_self]
  refine (broadcastTo_apply x _ (ix2 p q) (ix2 (0 : Fin 1) q) ?_).trans ?_
  · intro a; match a with | ⟨0, _⟩ => rfl | ⟨1, _⟩ => rfl
  refine Eq.trans ?_ (broadcastInDim_apply _ _ _ (ix2 p q) (ix2 (0 : Fin 1) q) ?_).symm
  · refine (hb q).trans (broadcastInDim_apply _ _ b (ix2 (0 : Fin 1) q) (ix1 q) ?_).symm
    intro a; match a with | ⟨0, _⟩ => rfl
  · intro a; match a with | ⟨0, _⟩ => rfl | ⟨1, _⟩ => rfl

/-- The third bias, [1, 1] under [256, 1]: the one entry (0, 0) at every (p, 0) — the only column there is. -/
theorem bias_1 (x : Vec Ideal S1x1 .f32) (b : Cert.Stage.Arr Ideal Cert.ReferenceIdeal.S1 .f32)
    (hb : ∀ q : Fin 1, x (ix2 (0 : Fin 1) q) = b (ix1 q)) (hs : S1x1.ShapeCasts S1x1) (hbr : S1x1.Broadcasts S256x1) :
    broadcastTo S256x1 (shapeCast S1x1 x hs) hbr
      = broadcastInDim Cert.ReferenceIdeal.S256x1 ![0, 1] Cert.ReferenceIdeal.Facts₀.bcast_S1x1_S256x1_0_1
          (broadcastInDim Cert.ReferenceIdeal.S1x1 ![1] Cert.ReferenceIdeal.Facts₀.bcast_S1_S1x1_1 b) := by
  funext j
  obtain ⟨p, q, rfl⟩ : ∃ (p : Fin 256) (q : Fin 1), j = ix2 p q := ⟨j 0, j 1, eq_ix2 j⟩
  obtain rfl : q = 0 := Subsingleton.elim _ _
  rw [shapeCast_self]
  refine (broadcastTo_apply x _ (ix2 p 0) (ix2 (0 : Fin 1) 0) ?_).trans ?_
  · intro a; match a with | ⟨0, _⟩ => rfl | ⟨1, _⟩ => rfl
  refine Eq.trans ?_ (broadcastInDim_apply _ _ _ (ix2 p 0) (ix2 (0 : Fin 1) 0) ?_).symm
  · refine (hb 0).trans (broadcastInDim_apply _ _ b (ix2 (0 : Fin 1) 0) (ix1 0) ?_).symm
    intro a; match a with | ⟨0, _⟩ => rfl
  · intro a; match a with | ⟨0, _⟩ => rfl | ⟨1, _⟩ => rfl

/-- `max (v, 0)` entry by entry: the splat of the scalar 0 and the broadcast of the rank-0 constant 0 hold the same 0 at every index. -/
theorem relu_64 (v : FVec Ideal S256x64 .f32) :
    maximumf v (broadcast S256x64 (Scalar.ofBits .f32 0x00000000#32))
      = maximumf v (broadcastInDim Cert.ReferenceIdeal.S256x64 ![] Cert.ReferenceIdeal.Facts₀.bcast_S_S256x64 (constant (F := Ideal) Cert.ReferenceIdeal.S_ .f32 0x00000000#32)) := rfl

/-- The same at [256, 32]. -/
theorem relu_32 (v : FVec Ideal S256x32 .f32) :
    maximumf v (broadcast S256x32 (Scalar.ofBits .f32 0x00000000#32))
      = maximumf v (broadcastInDim Cert.ReferenceIdeal.S256x32 ![] Cert.ReferenceIdeal.Facts₀.bcast_S_S256x32 (constant (F := Ideal) Cert.ReferenceIdeal.S_ .f32 0x00000000#32)) := rfl

/-- THE STORED TERM: over any seven input arrays whose bias rows' entries (0, q) are the vectors' entries q, the body's
    one payload is `max (max (x₀ · x₁ + b₁) 0 · x₃ + b₂) 0 · x₅ + b₃`, the stage function. The casts of an array to its
    own shape drop out; then the three layers rewrite in order, inside out. -/
theorem payload_eq_headCol (x0 : Vec Ideal S256x64 .f32) (x1 : Vec Ideal S64x64 .f32) (x2 : Vec Ideal S1x64 .f32) (x3 : Vec Ideal S64x32 .f32)
    (x4 : Vec Ideal S1x32 .f32) (x5 : Vec Ideal S32x1 .f32) (x6 : Vec Ideal S1x1 .f32)
    (b1 : Cert.Stage.Arr Ideal Cert.ReferenceIdeal.S64 .f32) (b2 : Cert.Stage.Arr Ideal Cert.ReferenceIdeal.S32 .f32)
    (b3 : Cert.Stage.Arr Ideal Cert.ReferenceIdeal.S1 .f32)
    (h1 : ∀ q : Fin 64, x2 (ix2 (0 : Fin 1) q) = b1 (ix1 q))
    (h2 : ∀ q : Fin 32, x4 (ix2 (0 : Fin 1) q) = b2 (ix1 q))
    (h3 : ∀ q : Fin 1, x6 (ix2 (0 : Fin 1) q) = b3 (ix1 q)) :
    k6_pay1 x0 x1 x2 x3 x4 x5 x6 = Cert.Stage.headCol x0 x1 b1 x3 b2 x5 b3 := by
  unfold k6_pay1 Cert.Stage.headCol
  dsimp only
  rw [shapeCast_self, prod_64_64, bias_64 x2 b1 h1, relu_64, prod_64_32, bias_32 x4 b2 h2, relu_32, prod_32_1, bias_1 x6 b3 h3]

/-! ## (ii) The one block is the whole array -/

/-- The body's accesses are at the literal offsets (0, 0). -/
theorem zero_offsets : (![0, 0] : Fin 2 → Nat) = fun _ => 0 := funext fun a => by fin_cases a <;> rfl

/-- Window 0 (the read-out [256, 64]): the one point's block starts at offset 0 on both axes. -/
theorem offsets_0 : (fun a => win6_0.index t6_0 a * S256x64.size a) = fun _ => 0 := funext fun a => by fin_cases a <;> decide +kernel

/-- So its block at that point, of the array's own extents, is the whole array as the region finds it. -/
theorem block_whole_0 (V : (c : Dev nD) → (b : Ref sig .tc) → Buf (Elt Ideal) ((c : Thread nD τ).loc b)) (c : Dev nD) :
    (iblk6 V c 0 t6_0 : Vec Ideal S256x64 .f32) = V c (Pipeline.arrRef spec6 0) :=
  Memref.read_access_unit_zero (Elt Ideal) main_v128 offsets_0 (fun a => by rw [congrFun offsets_0 a]; simp) (V c (Pipeline.arrRef spec6 0))

/-- Window 1 (the first weight matrix [64, 64]): the one point's block starts at offset 0 on both axes. -/
theorem offsets_1 : (fun a => win6_1.index t6_0 a * S64x64.size a) = fun _ => 0 := funext fun a => by fin_cases a <;> decide +kernel

/-- So its block at that point, of the array's own extents, is the whole array as the region finds it. -/
theorem block_whole_1 (V : (c : Dev nD) → (b : Ref sig .tc) → Buf (Elt Ideal) ((c : Thread nD τ).loc b)) (c : Dev nD) :
    (iblk6 V c 1 t6_0 : Vec Ideal S64x64 .f32) = V c (Pipeline.arrRef spec6 1) :=
  Memref.read_access_unit_zero (Elt Ideal) main_arg9 offsets_1 (fun a => by rw [congrFun offsets_1 a]; simp) (V c (Pipeline.arrRef spec6 1))

/-- Window 2 (the first bias as a row [1, 64]): the one point's block starts at offset 0 on both axes. -/
theorem offsets_2 : (fun a => win6_2.index t6_0 a * S1x64.size a) = fun _ => 0 := funext fun a => by fin_cases a <;> decide +kernel

/-- So its block at that point, of the array's own extents, is the whole array as the region finds it. -/
theorem block_whole_2 (V : (c : Dev nD) → (b : Ref sig .tc) → Buf (Elt Ideal) ((c : Thread nD τ).loc b)) (c : Dev nD) :
    (iblk6 V c 2 t6_0 : Vec Ideal S1x64 .f32) = V c (Pipeline.arrRef spec6 2) :=
  Memref.read_access_unit_zero (Elt Ideal) main_v129 offsets_2 (fun a => by rw [congrFun offsets_2 a]; simp) (V c (Pipeline.arrRef spec6 2))

/-- Window 3 (the second weight matrix [64, 32]): the one point's block starts at offset 0 on both axes. -/
theorem offsets_3 : (fun a => win6_3.index t6_0 a * S64x32.size a) = fun _ => 0 := funext fun a => by fin_cases a <;> decide +kernel

/-- So its block at that point, of the array's own extents, is the whole array as the region finds it. -/
theorem block_whole_3 (V : (c : Dev nD) → (b : Ref sig .tc) → Buf (Elt Ideal) ((c : Thread nD τ).loc b)) (c : Dev nD) :
    (iblk6 V c 3 t6_0 : Vec Ideal S64x32 .f32) = V c (Pipeline.arrRef spec6 3) :=
  Memref.read_access_unit_zero (Elt Ideal) main_arg11 offsets_3 (fun a => by rw [congrFun offsets_3 a]; simp) (V c (Pipeline.arrRef spec6 3))

/-- Window 4 (the second bias as a row [1, 32]): the one point's block starts at offset 0 on both axes. -/
theorem offsets_4 : (fun a => win6_4.index t6_0 a * S1x32.size a) = fun _ => 0 := funext fun a => by fin_cases a <;> decide +kernel

/-- So its block at that point, of the array's own extents, is the whole array as the region finds it. -/
theorem block_whole_4 (V : (c : Dev nD) → (b : Ref sig .tc) → Buf (Elt Ideal) ((c : Thread nD τ).loc b)) (c : Dev nD) :
    (iblk6 V c 4 t6_0 : Vec Ideal S1x32 .f32) = V c (Pipeline.arrRef spec6 4) :=
  Memref.read_access_unit_zero (Elt Ideal) main_v130 offsets_4 (fun a => by rw [congrFun offsets_4 a]; simp) (V c (Pipeline.arrRef spec6 4))

/-- Window 5 (the third weight matrix [32, 1]): the one point's block starts at offset 0 on both axes. -/
theorem offsets_5 : (fun a => win6_5.index t6_0 a * S32x1.size a) = fun _ => 0 := funext fun a => by fin_cases a <;> decide +kernel

/-- So its block at that point, of the array's own extents, is the whole array as the region finds it. -/
theorem block_whole_5 (V : (c : Dev nD) → (b : Ref sig .tc) → Buf (Elt Ideal) ((c : Thread nD τ).loc b)) (c : Dev nD) :
    (iblk6 V c 5 t6_0 : Vec Ideal S32x1 .f32) = V c (Pipeline.arrRef spec6 5) :=
  Memref.read_access_unit_zero (Elt Ideal) main_arg13 offsets_5 (fun a => by rw [congrFun offsets_5 a]; simp) (V c (Pipeline.arrRef spec6 5))

/-- Window 6 (the third bias as [1, 1]): the one point's block starts at offset 0 on both axes. -/
theorem offsets_6 : (fun a => win6_6.index t6_0 a * S1x1.size a) = fun _ => 0 := funext fun a => by fin_cases a <;> decide +kernel

/-- So its block at that point, of the array's own extents, is the whole array as the region finds it. -/
theorem block_whole_6 (V : (c : Dev nD) → (b : Ref sig .tc) → Buf (Elt Ideal) ((c : Thread nD τ).loc b)) (c : Dev nD) :
    (iblk6 V c 6 t6_0 : Vec Ideal S1x1 .f32) = V c (Pipeline.arrRef spec6 6) :=
  Memref.read_access_unit_zero (Elt Ideal) main_v131 offsets_6 (fun a => by rw [congrFun offsets_6 a]; simp) (V c (Pipeline.arrRef spec6 6))

/-- The output window (the column [256, 1]): its one block starts at offset 0 on both axes. -/
theorem offsets_7 : (fun a => win6_7.index t6_0 a * S256x1.size a) = fun _ => 0 := funext fun a => by fin_cases a <;> decide +kernel

/-- The unit-stride rectangle of a buffer's own extents at zero offsets goes through every element of the buffer. -/
theorem set_access_unit_zero {sg : RefSig} {κ : Kind} (b : Ref sg κ) {off : Fin b.ty.shape.rank → Nat}
    (h : off = fun _ => 0) (inb : ∀ a, off a + b.ty.shape.size a ≤ b.ty.shape.size a) :
    ((Memref.whole b).access (Rect.unit off b.ty.shape.size inb) : View sg κ _ _ _).set = Finset.univ := by
  subst h; exact Memref.set_access_whole b

end Head

open Head

/-- THE HEAD'S OUTPUT ARRAY after the region: the stage function of the region's input arrays as it finds them — the
    read-out and the three weight matrices as whole arrays, each bias row through its entries (0, q).
    What the single point writes back is the stored term of the seven input blocks, which are the whole arrays
    (`block_whole_k`), so it is `headCol` of them (`payload_eq_headCol`), read through a block that is the whole output
    array; and that block covers every index, so the array ends holding exactly that. -/
theorem head6 (V : (c : Dev nD) → (b : Ref sig .tc) → Buf (Elt Ideal) ((c : Thread nD τ).loc b)) (c : Dev nD)
    (r : Cert.Stage.Arr Ideal Cert.ReferenceIdeal.S256x64 .f32) (Wp1 : Cert.Stage.Arr Ideal Cert.ReferenceIdeal.S64x64 .f32) (bp1 : Cert.Stage.Arr Ideal Cert.ReferenceIdeal.S64 .f32)
    (Wp2 : Cert.Stage.Arr Ideal Cert.ReferenceIdeal.S64x32 .f32) (bp2 : Cert.Stage.Arr Ideal Cert.ReferenceIdeal.S32 .f32)
    (Wp3 : Cert.Stage.Arr Ideal Cert.ReferenceIdeal.S32x1 .f32) (bp3 : Cert.Stage.Arr Ideal Cert.ReferenceIdeal.S1 .f32)
    (hr : V c (Pipeline.arrRef spec6 0) = r) (hW1 : V c (Pipeline.arrRef spec6 1) = Wp1)
    (hb1 : ∀ q : Fin 64, V c (Pipeline.arrRef spec6 2) (ValueIdx.ix2 (0 : Fin 1) q) = bp1 (ValueIdx.ix1 q))
    (hW2 : V c (Pipeline.arrRef spec6 3) = Wp2)
    (hb2 : ∀ q : Fin 32, V c (Pipeline.arrRef spec6 4) (ValueIdx.ix2 (0 : Fin 1) q) = bp2 (ValueIdx.ix1 q))
    (hW3 : V c (Pipeline.arrRef spec6 5) = Wp3)
    (hb3 : ∀ q : Fin 1, V c (Pipeline.arrRef spec6 6) (ValueIdx.ix2 (0 : Fin 1) q) = bp3 (ValueIdx.ix1 q)) :
    (Gen.dat6 (F := Ideal) V c).arrAt 7 cfg6.N = Cert.Stage.headCol r Wp1 bp1 Wp2 bp2 Wp3 bp3 := by
  refine (Gen.dat6 (F := Ideal) V c).arrAt_eq_of_cover 7 (Cert.Stage.headCol r Wp1 bp1 Wp2 bp2 Wp3 bp3) (fun t _ => ?_) (fun i => ?_)
  · -- what the point writes back: the grid has one point
    obtain rfl := fin_N6 t
    show (cfg6.win 7).cut (grid6.coords t6_0) ((dat6 V c).after 7 t6_0) = _
    rw [after6_7]
    unfold out6_7
    rw [View.canon_unit_zero zero_offsets]
    simp only [View.ld_unit_zero (S := S256x64) zero_offsets, View.ld_unit_zero (S := S64x64) zero_offsets,
      View.ld_unit_zero (S := S1x64) zero_offsets, View.ld_unit_zero (S := S64x32) zero_offsets,
      View.ld_unit_zero (S := S1x32) zero_offsets, View.ld_unit_zero (S := S32x1) zero_offsets,
      View.ld_unit_zero (S := S1x1) zero_offsets]
    rw [block_whole_0, block_whole_1, block_whole_2, block_whole_3, block_whole_4, block_whole_5, block_whole_6]
    rw [payload_eq_headCol _ _ _ _ _ _ _ bp1 bp2 bp3 hb1 hb2 hb3, hr, hW1, hW2, hW3]
    exact (Memref.read_access_unit_zero (Elt Ideal) main_v132 offsets_7 (fun a => by rw [congrFun offsets_7 a]; simp) _).symm
  · -- the cover: the single point's block is all of the column
    refine ⟨t6_0, flush6_7 t6_0, ?_⟩
    have h := set_access_unit_zero main_v132 offsets_7 (fun a => by rw [congrFun offsets_7 a]; simp)
    exact (Finset.ext_iff.mp h i).mpr (Finset.mem_univ i)

end Cert.KernelIdeal.Region

end
-- ==== Proof.KernelWalk.lean ====
/-
  The kernel program's two results as stage compositions of its arguments.

  The buffer contents at the fourteen segment boundaries (the generated frame's `W0 … W13`) are walked in order from
  the launch memory. A host stretch leaves each of its results at the stage function of what it read, and every
  other buffer as it was. A launch leaves its output array at the region's whole-array function of its input arrays
  — the three products `x · W`, the three `elu (· + b)`, the head: one theorem per region — and
  every buffer that is none of its arrays as it was. The edge rows and the weights `dinv (src e) · dinv (dst e)` and
  `dinv²` are computed once, by stretch 0, and reach the three aggregations unchanged.
-/
import proofs.«128728_j78176994722446_1_alg».proof.Proof.Gen.KernelIdeal.Frame
import proofs.«128728_j78176994722446_1_alg».proof.Proof.KernelStretch
import proofs.«128728_j78176994722446_1_alg».proof.Proof.KernelKeep
import proofs.«128728_j78176994722446_1_alg».proof.Proof.RegionDot
import proofs.«128728_j78176994722446_1_alg».proof.Proof.RegionElu
import proofs.«128728_j78176994722446_1_alg».proof.Proof.RegionHead
import Idealize.ShloMosaic.Lib.ValueLayout

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## Names: the launch contents of a buffer, and the stage terms over them -/

/-- What buffer `b` of core `c` holds at the launch. -/
abbrev at0 (b : Ref sig .tc) : Buf (Elt Ideal) ((c : Thread nD τ).loc b) := m ((c : Thread nD τ).loc b)

abbrev src := Cert.Stage.srcRow (at0 m c main_arg1)
abbrev dst := Cert.Stage.dstRow (at0 m c main_arg1)
abbrev dinv := Cert.Stage.invSqrtDeg (dst m c)
abbrev edgeW := Cert.Stage.edgeWeight (src m c) (dst m c) (dinv m c)
abbrev selfW := mulf (F := Ideal) (s := Cert.ReferenceIdeal.S100000) (φ := .f32) (dinv m c) (dinv m c)
abbrev prod1 := Cert.Stage.dot7 (at0 m c main_arg0) (at0 m c main_arg3)
abbrev nodes1 := Cert.Stage.layerPost (at0 m c main_arg1) (prod1 m c) (at0 m c main_arg4)
abbrev prod2 := Cert.Stage.dot64 (nodes1 m c) (at0 m c main_arg5)
abbrev nodes2 := Cert.Stage.layerPost (at0 m c main_arg1) (prod2 m c) (at0 m c main_arg6)
abbrev prod3 := Cert.Stage.dot64 (nodes2 m c) (at0 m c main_arg7)
abbrev nodes3 := Cert.Stage.layerPost (at0 m c main_arg1) (prod3 m c) (at0 m c main_arg8)
/-- The read-out as the kernel indexes it. -/
abbrev readoutK := Cert.Stage.poolAt (Stretch.wrapGraph (at0 m c main_arg2)) (nodes3 m c)

/-! ## A launch leaves a buffer that is none of its arrays as it found it -/

section Launches
variable (b : Ref sig .tc)
theorem past0 (n : ∀ w, Pipeline.arrRef spec0 w ≠ b := by decide) :
    W2 m ρ c (Proc.devRef .tc b) = W1 m ρ c (Proc.devRef .tc b) := W2_of_ne m ρ c b n
theorem past1 (n : ∀ w, Pipeline.arrRef spec1 w ≠ b := by decide) :
    W4 m ρ c (Proc.devRef .tc b) = W3 m ρ c (Proc.devRef .tc b) := W4_of_ne m ρ c b n
theorem past2 (n : ∀ w, Pipeline.arrRef spec2 w ≠ b := by decide) :
    W5 m ρ c (Proc.devRef .tc b) = W4 m ρ c (Proc.devRef .tc b) := W5_of_ne m ρ c b n
theorem past3 (n : ∀ w, Pipeline.arrRef spec3 w ≠ b := by decide) :
    W7 m ρ c (Proc.devRef .tc b) = W6 m ρ c (Proc.devRef .tc b) := W7_of_ne m ρ c b n
theorem past4 (n : ∀ w, Pipeline.arrRef spec4 w ≠ b := by decide) :
    W8 m ρ c (Proc.devRef .tc b) = W7 m ρ c (Proc.devRef .tc b) := W8_of_ne m ρ c b n
theorem past5 (n : ∀ w, Pipeline.arrRef spec5 w ≠ b := by decide) :
    W10 m ρ c (Proc.devRef .tc b) = W9 m ρ c (Proc.devRef .tc b) := W10_of_ne m ρ c b n

/-- Through layer 1 (stretch 0's launch, stretch 1, the two launches after it): a buffer they all leave alone. -/
theorem layer1 (k1 : ∀ W : Valuation τ sig (Elt Ideal), after hostOps1 W (Proc.devRef .tc b) = W (Proc.devRef .tc b))
    (n0 : ∀ w, Pipeline.arrRef spec0 w ≠ b := by decide) (n1 : ∀ w, Pipeline.arrRef spec1 w ≠ b := by decide)
    (n2 : ∀ w, Pipeline.arrRef spec2 w ≠ b := by decide) :
    W5 m ρ c (Proc.devRef .tc b) = W1 m ρ c (Proc.devRef .tc b) :=
  (past2 m ρ c b n2).trans ((past1 m ρ c b n1).trans ((k1 _).trans (past0 m ρ c b n0)))
/-- Through layer 2 (stretch 3 and the two launches after it). -/
theorem layer2 (k3 : ∀ W : Valuation τ sig (Elt Ideal), after hostOps3 W (Proc.devRef .tc b) = W (Proc.devRef .tc b))
    (n3 : ∀ w, Pipeline.arrRef spec3 w ≠ b := by decide) (n4 : ∀ w, Pipeline.arrRef spec4 w ≠ b := by decide) :
    W8 m ρ c (Proc.devRef .tc b) = W5 m ρ c (Proc.devRef .tc b) :=
  (past4 m ρ c b n4).trans ((past3 m ρ c b n3).trans (k3 _))
/-- Through layer 3's stretch and its one launch. -/
theorem layer3 (k5 : ∀ W : Valuation τ sig (Elt Ideal), after hostOps5 W (Proc.devRef .tc b) = W (Proc.devRef .tc b))
    (n5 : ∀ w, Pipeline.arrRef spec5 w ≠ b := by decide) :
    W10 m ρ c (Proc.devRef .tc b) = W8 m ρ c (Proc.devRef .tc b) :=
  (past5 m ρ c b n5).trans (k5 _)

/-- An argument that only the read-out or the head reads holds its launch contents until then. -/
theorem late (k0 : after hostOps0 (W0 m ρ c) (Proc.devRef .tc b) = W0 m ρ c (Proc.devRef .tc b))
    (k1 : ∀ W : Valuation τ sig (Elt Ideal), after hostOps1 W (Proc.devRef .tc b) = W (Proc.devRef .tc b))
    (k3 : ∀ W : Valuation τ sig (Elt Ideal), after hostOps3 W (Proc.devRef .tc b) = W (Proc.devRef .tc b))
    (k5 : ∀ W : Valuation τ sig (Elt Ideal), after hostOps5 W (Proc.devRef .tc b) = W (Proc.devRef .tc b))
    (n0 : ∀ w, Pipeline.arrRef spec0 w ≠ b := by decide) (n1 : ∀ w, Pipeline.arrRef spec1 w ≠ b := by decide)
    (n2 : ∀ w, Pipeline.arrRef spec2 w ≠ b := by decide) (n3 : ∀ w, Pipeline.arrRef spec3 w ≠ b := by decide)
    (n4 : ∀ w, Pipeline.arrRef spec4 w ≠ b := by decide) (n5 : ∀ w, Pipeline.arrRef spec5 w ≠ b := by decide) :
    W10 m ρ c (Proc.devRef .tc b) = at0 m c b :=
  (layer3 m ρ c b k5 n5).trans ((layer2 m ρ c b k3 n3 n4).trans ((layer1 m ρ c b k1 n0 n1 n2).trans k0))
end Launches

/-! ## What stretch 0 computes once, at the three boundaries where an aggregation reads it -/

theorem src1 : W1 m ρ c (Proc.devRef .tc main_v1) = src m c := Stretch.s0_src (W0 m ρ c)
theorem dst1 : W1 m ρ c (Proc.devRef .tc main_v3) = dst m c := Stretch.s0_dst (W0 m ρ c)
theorem edgeW1 : W1 m ρ c (Proc.devRef .tc main_v30) = edgeW m c := Stretch.s0_edgeWeight (W0 m ρ c)
theorem selfW1 : W1 m ρ c (Proc.devRef .tc main_v31) = selfW m c := Stretch.s0_selfWeight (W0 m ρ c)

/-- One layer's aggregation, read from contents `W` that hold the edge rows and weights stretch 0 left. -/
theorem agg_of (W : Valuation τ sig (Elt Ideal)) (h v : Cert.Stage.Arr Ideal Cert.ReferenceIdeal.S100000x64 .f32)
    (e1 : W (Proc.devRef .tc main_v1) = src m c) (e3 : W (Proc.devRef .tc main_v3) = dst m c)
    (e30 : W (Proc.devRef .tc main_v30) = edgeW m c) (e31 : W (Proc.devRef .tc main_v31) = selfW m c)
    (ev : v = Cert.Stage.aggregate (W (Proc.devRef .tc main_v1)) (W (Proc.devRef .tc main_v3)) (W (Proc.devRef .tc main_v30))
      (W (Proc.devRef .tc main_v31)) h) :
    v = Cert.Stage.layerAgg (at0 m c main_arg1) h := by
  rw [ev, e1, e3, e30, e31]
  rfl

/-- A bias vector turned into a row, read at column `q`. -/
theorem row_apply {n : ℕ} (x : (⟨1, ![n]⟩ : Shape).Idx → EReal) (h : (⟨1, ![n]⟩ : Shape).ShapeCasts ⟨2, ![1, n]⟩)
    (r : (⟨2, ![1, n]⟩ : Shape).Idx → EReal) (e : r = fun i => shapeCast ⟨2, ![1, n]⟩ x h i) (q : Fin n) :
    r (ix2 (0 : Fin 1) q) = x (ix1 q) := by
  rw [e]
  exact shapeCast_a_1a_apply x h 0 q

/-! ## Layer 1 -/

theorem prod1_at2 : W2 m ρ c (Proc.devRef .tc main_v32) = prod1 m c :=
  (W2_arr m ρ c 2).trans (Region.dot0 (V1 m ρ) c _ _ (Keep.s0_arg0 (W0 m ρ c)) (Keep.s0_arg3 (W0 m ρ c)))

theorem agg1_at3 : W3 m ρ c (Proc.devRef .tc main_v54) = Cert.Stage.layerAgg (at0 m c main_arg1) (prod1 m c) :=
  agg_of m c (W2 m ρ c) _ _
    ((past0 m ρ c main_v1).trans (src1 m ρ c)) ((past0 m ρ c main_v3).trans (dst1 m ρ c))
    ((past0 m ρ c main_v30).trans (edgeW1 m ρ c)) ((past0 m ρ c main_v31).trans (selfW1 m ρ c))
    ((Stretch.s1_agg (W2 m ρ c)).trans (by rw [prod1_at2 m ρ c]))

theorem bias1_at3 : W3 m ρ c (Proc.devRef .tc main_v55)
    = fun i => shapeCast S1x64 (at0 m c main_arg4) Facts₀.shapeCasts_S64_S1x64 i :=
  (Stretch.s1_bias (W2 m ρ c)).trans (by rw [(past0 m ρ c main_arg4).trans (Keep.s0_arg4 (W0 m ρ c))])

theorem nodes1_at4 : W4 m ρ c (Proc.devRef .tc main_v56) = nodes1 m c :=
  (W4_arr m ρ c 2).trans (Region.elu1 (V3 m ρ) c _ _ (agg1_at3 m ρ c)
    (row_apply _ _ _ (bias1_at3 m ρ c)))

/-! ## Layer 2 -/

theorem prod2_at5 : W5 m ρ c (Proc.devRef .tc main_v57) = prod2 m c :=
  (W5_arr m ρ c 2).trans (Region.dot2 (V4 m ρ) c _ _ (nodes1_at4 m ρ c)
    ((past1 m ρ c main_arg5).trans ((Keep.s1_arg5 _).trans ((past0 m ρ c main_arg5).trans (Keep.s0_arg5 (W0 m ρ c))))))

theorem agg2_at6 : W6 m ρ c (Proc.devRef .tc main_v79) = Cert.Stage.layerAgg (at0 m c main_arg1) (prod2 m c) :=
  agg_of m c (W5 m ρ c) _ _
    ((layer1 m ρ c main_v1 Keep.s1_v1).trans (src1 m ρ c)) ((layer1 m ρ c main_v3 Keep.s1_v3).trans (dst1 m ρ c))
    ((layer1 m ρ c main_v30 Keep.s1_v30).trans (edgeW1 m ρ c)) ((layer1 m ρ c main_v31 Keep.s1_v31).trans (selfW1 m ρ c))
    ((Stretch.s3_agg (W5 m ρ c)).trans (by rw [prod2_at5 m ρ c]))

theorem bias2_at6 : W6 m ρ c (Proc.devRef .tc main_v80)
    = fun i => shapeCast S1x64 (at0 m c main_arg6) Facts₀.shapeCasts_S64_S1x64 i :=
  (Stretch.s3_bias (W5 m ρ c)).trans (by rw [(layer1 m ρ c main_arg6 Keep.s1_arg6).trans (Keep.s0_arg6 (W0 m ρ c))])

theorem nodes2_at7 : W7 m ρ c (Proc.devRef .tc main_v81) = nodes2 m c :=
  (W7_arr m ρ c 2).trans (Region.elu3 (V6 m ρ) c _ _ (agg2_at6 m ρ c)
    (row_apply _ _ _ (bias2_at6 m ρ c)))

/-! ## Layer 3 -/

theorem prod3_at8 : W8 m ρ c (Proc.devRef .tc main_v82) = prod3 m c :=
  (W8_arr m ρ c 2).trans (Region.dot4 (V7 m ρ) c _ _ (nodes2_at7 m ρ c)
    ((past3 m ρ c main_arg7).trans ((Keep.s3_arg7 _).trans
      ((layer1 m ρ c main_arg7 Keep.s1_arg7).trans (Keep.s0_arg7 (W0 m ρ c))))))

theorem agg3_at9 : W9 m ρ c (Proc.devRef .tc main_v104) = Cert.Stage.layerAgg (at0 m c main_arg1) (prod3 m c) :=
  agg_of m c (W8 m ρ c) _ _
    ((layer2 m ρ c main_v1 Keep.s3_v1).trans ((layer1 m ρ c main_v1 Keep.s1_v1).trans (src1 m ρ c)))
    ((layer2 m ρ c main_v3 Keep.s3_v3).trans ((layer1 m ρ c main_v3 Keep.s1_v3).trans (dst1 m ρ c)))
    ((layer2 m ρ c main_v30 Keep.s3_v30).trans ((layer1 m ρ c main_v30 Keep.s1_v30).trans (edgeW1 m ρ c)))
    ((layer2 m ρ c main_v31 Keep.s3_v31).trans ((layer1 m ρ c main_v31 Keep.s1_v31).trans (selfW1 m ρ c)))
    ((Stretch.s5_agg (W8 m ρ c)).trans (by rw [prod3_at8 m ρ c]))

theorem bias3_at9 : W9 m ρ c (Proc.devRef .tc main_v105)
    = fun i => shapeCast S1x64 (at0 m c main_arg8) Facts₀.shapeCasts_S64_S1x64 i :=
  (Stretch.s5_bias (W8 m ρ c)).trans (by
    rw [(layer2 m ρ c main_arg8 Keep.s3_arg8).trans ((layer1 m ρ c main_arg8 Keep.s1_arg8).trans (Keep.s0_arg8 (W0 m ρ c)))])

theorem nodes3_at10 : W10 m ρ c (Proc.devRef .tc main_v106) = nodes3 m c :=
  (W10_arr m ρ c 2).trans (Region.elu5 (V9 m ρ) c _ _ (agg3_at9 m ρ c)
    (row_apply _ _ _ (bias3_at9 m ρ c)))

/-! ## The read-out and the head -/

theorem readout_at11 : W11 m ρ c (Proc.devRef .tc main_v128) = readoutK m c :=
  (Stretch.s6_readout (W10 m ρ c)).trans (by
    rw [nodes3_at10 m ρ c,
      late m ρ c main_arg2 (Keep.s0_arg2 _) Keep.s1_arg2 Keep.s3_arg2 Keep.s5_arg2])

theorem biasP1_at11 : W11 m ρ c (Proc.devRef .tc main_v129)
    = fun i => shapeCast S1x64 (at0 m c main_arg10) Facts₀.shapeCasts_S64_S1x64 i :=
  (Stretch.s6_bias1 (W10 m ρ c)).trans (by rw [late m ρ c main_arg10 (Keep.s0_arg10 _) Keep.s1_arg10 Keep.s3_arg10 Keep.s5_arg10])
theorem biasP2_at11 : W11 m ρ c (Proc.devRef .tc main_v130)
    = fun i => shapeCast S1x32 (at0 m c main_arg12) Facts₀.shapeCasts_S32_S1x32 i :=
  (Stretch.s6_bias2 (W10 m ρ c)).trans (by rw [late m ρ c main_arg12 (Keep.s0_arg12 _) Keep.s1_arg12 Keep.s3_arg12 Keep.s5_arg12])
theorem biasP3_at11 : W11 m ρ c (Proc.devRef .tc main_v131)
    = fun i => shapeCast S1x1 (at0 m c main_arg14) Facts₀.shapeCasts_S1_S1x1 i :=
  (Stretch.s6_bias3 (W10 m ρ c)).trans (by rw [late m ρ c main_arg14 (Keep.s0_arg14 _) Keep.s1_arg14 Keep.s3_arg14 Keep.s5_arg14])

theorem col_at12 : W12 m ρ c (Proc.devRef .tc main_v132)
    = Cert.Stage.headCol (readoutK m c) (at0 m c main_arg9) (at0 m c main_arg10) (at0 m c main_arg11) (at0 m c main_arg12)
        (at0 m c main_arg13) (at0 m c main_arg14) :=
  (W12_arr m ρ c 7).trans (Region.head6 (V11 m ρ) c _ _ _ _ _ _ _
    (readout_at11 m ρ c)
    ((Keep.s6_arg9 _).trans (late m ρ c main_arg9 (Keep.s0_arg9 _) Keep.s1_arg9 Keep.s3_arg9 Keep.s5_arg9))
    (row_apply _ _ _ (biasP1_at11 m ρ c))
    ((Keep.s6_arg11 _).trans (late m ρ c main_arg11 (Keep.s0_arg11 _) Keep.s1_arg11 Keep.s3_arg11 Keep.s5_arg11))
    (row_apply _ _ _ (biasP2_at11 m ρ c))
    ((Keep.s6_arg13 _).trans (late m ρ c main_arg13 (Keep.s0_arg13 _) Keep.s1_arg13 Keep.s3_arg13 Keep.s5_arg13))
    (row_apply _ _ _ (biasP3_at11 m ρ c)))

/-- The kernel program's second result: the read-out is an input of the last launch, which leaves it as it found it,
    and the last stretch does not write it. -/
theorem readout : W13 m ρ c (Proc.devRef .tc main_v128) = readoutK m c :=
  (Keep.s7_v128 (W12 m ρ c)).trans
    (((W12_arr m ρ c 0).trans (((dat6 (V11 m ρ) c).arrAt_in 0 rfl _).trans (A_eq6 (V11 m ρ) c 0))).trans
      (readout_at11 m ρ c))

/-- The kernel program's first result: the head's column with its unit axis dropped. -/
theorem out : W13 m ρ c (Proc.devRef .tc main_v133)
    = Cert.Stage.head (readoutK m c) (at0 m c main_arg9) (at0 m c main_arg10) (at0 m c main_arg11) (at0 m c main_arg12)
        (at0 m c main_arg13) (at0 m c main_arg14) :=
  (Stretch.s7_out (W12 m ρ c)).trans (by
    rw [col_at12 m ρ c]
    rfl)

end Cert.KernelIdeal.Walk

end
-- ==== Proof.PreBatch.lean ====
/-
  What the added conjunct of the precondition gives: every graph number `batch v` is, as a signed word, at least 0.
  The kernel replaces a graph number below zero by that number plus 256 before it indexes the 256 rows of the
  read-out; where no number is below zero that replacement is the identity, which is the one place the two programs'
  host arithmetic differs.
-/
import proofs.«128728_j78176994722446_1_alg».proof.Defs
import proofs.«128728_j78176994722446_1_alg».proof.Proof.Gen.Pre_finite_inputs
import proofs.«128728_j78176994722446_1_alg».proof.Proof.Gen.KernelIdeal
import Idealize.ShloMosaic.Lib.ReduceAll
import Idealize.ShloMosaic.Lib.ValueIdx

noncomputable section

namespace Cert.PreBatch

open Idealize.ShloMosaic Idealize.SL.Sem

theorem ofBool_eq_one (b : Bool) : BitVec.ofBool b = 1#1 ↔ b = true := by cases b <;> decide

/-- A signed word that is at least 0 is not below 0. -/
theorem not_neg_of_nonneg (w : BitVec 32) (h : IntOp.cmpi .sge w (0#32) = 1#1) : ¬ IntOp.cmpi .slt w (0#32) = 1#1 := by
  unfold IntOp.cmpi at h ⊢
  rw [ofBool_eq_one] at h ⊢
  simp only [BitVec.slt, BitVec.sle, decide_eq_true_eq, BitVec.toInt_zero] at h ⊢
  omega

/-- Replacing the words below 0 by themselves plus `n` changes nothing where no word is below 0. -/
theorem wrap_word (w n : BitVec 32) (h : IntOp.cmpi .sge w (0#32) = 1#1) :
    Scalar.select (IntOp.cmpi .slt w (0#32)) (IntOp.addi w n) w = w := by
  unfold Scalar.select
  split
  · rename_i hc
    exact absurd hc (not_neg_of_nonneg w h)
  · rfl

instance : Subsingleton Cert.Pre_finite_inputs.S_.Idx := ⟨fun a b => funext fun d => d.elim0⟩

/-- The precondition's last conjunct, at a node: its graph number is at least 0. -/
theorem batch_nonneg (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000.Idx) :
    IntOp.cmpi .sge
      ((m ((c.tc : Thread Cert.KernelIdeal.nD Cert.KernelIdeal.τ).loc Cert.KernelIdeal.main_arg2) : Cert.KernelIdeal.S100000.Idx → BitVec 32) i)
      (0#32) = 1#1 := by
  have e := congrFun (h c) ValueIdx.ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  have e2 := Host.reduce_andi_all _ _ _ _ _ e.2 i
  simpa only [cmpi, broadcastInDim, constantI] using e2

end Cert.PreBatch

end
-- ==== Proof.Bridge.lean ====
/-
  Where every graph number is at least 0, the column of graph numbers the kernel indexes the read-out with — a number
  below zero replaced by that number plus 256 — is the column of the graph numbers themselves, which is what the
  reference indexes with.
-/
import proofs.«128728_j78176994722446_1_alg».proof.Proof.KernelStretch
import proofs.«128728_j78176994722446_1_alg».proof.Proof.PreBatch

noncomputable section

namespace Cert.Bridge

open Idealize.ShloMosaic Cert.KernelIdeal

theorem wrapGraph_of_nonneg (b : Cert.Stage.Arr Ideal S100000 .i32) (h : ∀ i, IntOp.cmpi .sge (b i) (0#32) = 1#1) :
    Cert.KernelIdeal.Stretch.wrapGraph (F := Ideal) b
      = broadcastInDim S100000x1 ![0] Facts₀.bcast_S100000_S100000x1_0 b := by
  unfold Cert.KernelIdeal.Stretch.wrapGraph
  refine congrArg _ ?_
  funext i
  simp only [select, cmpi, addi, broadcastInDim, constantI]
  exact Cert.PreBatch.wrap_word _ _ (h i)

/-- The read-out indexed by the kernel's column is the read-out indexed by the graph numbers as they come. -/
theorem poolAt_wrapGraph (b : Cert.Stage.Arr Ideal S100000 .i32) (h : ∀ i, IntOp.cmpi .sge (b i) (0#32) = 1#1)
    (x : Cert.Stage.Arr Ideal S100000x64 .f32) :
    Cert.Stage.poolAt (Cert.KernelIdeal.Stretch.wrapGraph (F := Ideal) b) x = Cert.Stage.pool b x := by
  rw [wrapGraph_of_nonneg b h]
  rfl

end Cert.Bridge

end
-- ==== Proof.RefOps.lean ====
/-
  The reference program's @main as lists of its operations, in order: 288 operations in 10 consecutive chunks.
  A call of a module-local function is its body's operations at the call site, over the call's record of
  buffers (elu: the zero, its broadcast and the comparison, twice; the zero; the three of the inner select;
  exp - 1; the one, its broadcast, the product; the outer select). The chunks are cut where the program's
  windows end and where a stage of the network ends: opsA the two rows of the edge list; opsL1a ++ opsL1b,
  opsL2a ++ opsL2b, opsL3a ++ opsL3b the three layers; opsP the read-out; opsH1 ++ opsH2 the head.
  Beside each chunk, w... lists the references its operations write, in the same order.
-/
import proofs.«128728_j78176994722446_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.StableHlo Idealize.SL.Sem

variable {F : FTy → Type} [FloatOps F]

/-- 4 operations. -/
def opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

def wA : List (Ref sig .tc) :=
  [main_v0, main_v1, main_v2, main_v3]

/-- 56 operations. -/
def opsL1a : List (HloOp τ sig (Elt F)) :=
  [ StableHlo.binary main_arg0 main_arg3 main_v4 ((fun l r => Host.dotGeneral dot_S100000x7_S7x64_S100000x64_1_0_0_1_n_n none l r) : (⟨S100000x7, .f32⟩ : BufTy).Contents (Elt F) → (⟨S7x64, .f32⟩ : BufTy).Contents (Elt F) → (⟨S100000x64, .f32⟩ : BufTy).Contents (Elt F)),
    StableHlo.nullary main_cst (constant S_ .f32 0x00000000#32),
    StableHlo.unary main_cst main_v5 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v3 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v8 (broadcastInDim S1600000 ![] bcast_S_S1600000 : (⟨S_, .i32⟩ : BufTy).Contents (Elt F) → (⟨S1600000, .i32⟩ : BufTy).Contents (Elt F)),
    StableHlo.binary main_v3 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v3 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v12 (broadcastInDim S1600000 ![] bcast_S_S1600000 : (⟨S_, .f32⟩ : BufTy).Contents (Elt F) → (⟨S1600000, .f32⟩ : BufTy).Contents (Elt F)),
    StableHlo.ternary main_v5 main_v11 main_v12 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v13 main_v14 main_v15 (addf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_c_3 (constantI S_ 32 0#32),
    StableHlo.unary main_c_3 main_v17 (broadcastInDim S1600000 ![] bcast_S_S1600000 : (⟨S_, .i32⟩ : BufTy).Contents (Elt F) → (⟨S1600000, .i32⟩ : BufTy).Contents (Elt F)),
    StableHlo.binary main_v1 main_v17 main_v18 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v19 (broadcastInDim S1600000 ![] bcast_S_S1600000 : (⟨S_, .i32⟩ : BufTy).Contents (Elt F) → (⟨S1600000, .i32⟩ : BufTy).Contents (Elt F)),
    StableHlo.binary main_v1 main_v19 main_v20 (addi : (⟨S1600000, .i32⟩ : BufTy).Contents (Elt F) → (⟨S1600000, .i32⟩ : BufTy).Contents (Elt F) → (⟨S1600000, .i32⟩ : BufTy).Contents (Elt F)),
    StableHlo.ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v21 main_v22 (broadcastInDim S1600000x1 ![0] bcast_S1600000_S1600000x1_0 : (⟨S1600000, .i32⟩ : BufTy).Contents (Elt F) → (⟨S1600000x1, .i32⟩ : BufTy).Contents (Elt F)),
    StableHlo.binary main_v16 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v24 (broadcastInDim S1600000 ![] bcast_S_S1600000 : (⟨S_, .i32⟩ : BufTy).Contents (Elt F) → (⟨S1600000, .i32⟩ : BufTy).Contents (Elt F)),
    StableHlo.binary main_v3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v26 (broadcastInDim S1600000 ![] bcast_S_S1600000 : (⟨S_, .i32⟩ : BufTy).Contents (Elt F) → (⟨S1600000, .i32⟩ : BufTy).Contents (Elt F)),
    StableHlo.binary main_v3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v16 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v23 main_v30 main_v31 (mulf : (⟨S1600000, .f32⟩ : BufTy).Contents (Elt F) → (⟨S1600000, .f32⟩ : BufTy).Contents (Elt F) → (⟨S1600000, .f32⟩ : BufTy).Contents (Elt F)),
    StableHlo.nullary main_cst_7 (constant S_ .f32 0x00000000#32),
    StableHlo.unary main_cst_7 main_v32 (broadcastInDim S100000x64 ![] bcast_S_S100000x64 : (⟨S_, .f32⟩ : BufTy).Contents (Elt F) → (⟨S100000x64, .f32⟩ : BufTy).Contents (Elt F)),
    StableHlo.nullary main_c_8 (constantI S_ 32 0#32),
    StableHlo.unary main_c_8 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v4 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v31 main_v40 (broadcastInDim S1600000x1 ![0] bcast_S1600000_S1600000x1_0 : (⟨S1600000, .f32⟩ : BufTy).Contents (Elt F) → (⟨S1600000x1, .f32⟩ : BufTy).Contents (Elt F)),
    StableHlo.unary main_v40 main_v41 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v39 main_v41 main_v42 (mulf : (⟨S1600000x64, .f32⟩ : BufTy).Contents (Elt F) → (⟨S1600000x64, .f32⟩ : BufTy).Contents (Elt F) → (⟨S1600000x64, .f32⟩ : BufTy).Contents (Elt F)),
    StableHlo.nullary main_c_10 (constantI S_ 32 0#32),
    StableHlo.unary main_c_10 main_v43 (broadcastInDim S1600000 ![] bcast_S_S1600000 : (⟨S_, .i32⟩ : BufTy).Contents (Elt F) → (⟨S1600000, .i32⟩ : BufTy).Contents (Elt F)),
    StableHlo.binary main_v3 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v45 (broadcastInDim S1600000 ![] bcast_S_S1600000 : (⟨S_, .i32⟩ : BufTy).Contents (Elt F) → (⟨S1600000, .i32⟩ : BufTy).Contents (Elt F)) ]

def wL1a : List (Ref sig .tc) :=
  [main_v4, main_cst, main_v5, main_c, main_v6, main_v7, main_c_0, main_v8, main_v9, main_v10, main_v11, main_cst_1, main_v12, main_v13, main_cst_2, main_v14, main_v15, main_v16, main_c_3, main_v17, main_v18, main_c_4, main_v19, main_v20, main_v21, main_v22, main_v23, main_c_5, main_v24, main_v25, main_c_6, main_v26, main_v27, main_v28, main_v29, main_v30, main_v31, main_cst_7, main_v32, main_c_8, main_v33, main_v34, main_c_9, main_v35, main_v36, main_v37, main_v38, main_v39, main_v40, main_v41, main_v42, main_c_10, main_v43, main_v44, main_c_11, main_v45]

/-- 27 operations. -/
def opsL1b : List (HloOp τ sig (Elt F)) :=
  [ StableHlo.binary main_v3 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v3 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.ternary main_v32 main_v48 main_v42 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v16 main_v16 main_v50 (mulf : (⟨S100000, .f32⟩ : BufTy).Contents (Elt F) → (⟨S100000, .f32⟩ : BufTy).Contents (Elt F) → (⟨S100000, .f32⟩ : BufTy).Contents (Elt F)),
    StableHlo.unary main_v50 main_v51 (broadcastInDim S100000x1 ![0] bcast_S100000_S100000x1_0 : (⟨S100000, .f32⟩ : BufTy).Contents (Elt F) → (⟨S100000x1, .f32⟩ : BufTy).Contents (Elt F)),
    StableHlo.unary main_v51 main_v52 (broadcastInDim S100000x64 ![0, 1] bcast_S100000x1_S100000x64_0_1 : (⟨S100000x1, .f32⟩ : BufTy).Contents (Elt F) → (⟨S100000x64, .f32⟩ : BufTy).Contents (Elt F)),
    StableHlo.binary main_v4 main_v52 main_v53 (mulf : (⟨S100000x64, .f32⟩ : BufTy).Contents (Elt F) → (⟨S100000x64, .f32⟩ : BufTy).Contents (Elt F) → (⟨S100000x64, .f32⟩ : BufTy).Contents (Elt F)),
    StableHlo.binary main_v49 main_v53 main_v54 (addf : (⟨S100000x64, .f32⟩ : BufTy).Contents (Elt F) → (⟨S100000x64, .f32⟩ : BufTy).Contents (Elt F) → (⟨S100000x64, .f32⟩ : BufTy).Contents (Elt F)),
    StableHlo.unary main_arg4 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v57) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v57) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v57) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v57) main_call0.v7 main_call0.call1.v0 select ]

def wL1b : List (Ref sig .tc) :=
  [main_v46, main_v47, main_v48, main_v49, main_v50, main_v51, main_v52, main_v53, main_v54, main_v55, main_v56, main_v57, (main_call0.cst).ref, (main_call0.v0).ref, (main_call0.v1).ref, (main_call0.cst_0).ref, (main_call0.v2).ref, (main_call0.v3).ref, (main_call0.cst_1).ref, (main_call0.call0.v0).ref, (main_call0.call0.v1).ref, (main_call0.call0.v2).ref, (main_call0.v5).ref, (main_call0.cst_2).ref, (main_call0.v6).ref, (main_call0.v7).ref, (main_call0.call1.v0).ref]

/-- 47 operations. -/
def opsL2a : List (HloOp τ sig (Elt F)) :=
  [ StableHlo.binary main_v58 main_arg5 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.nullary main_c_13 (constantI S_ 32 0#32),
    StableHlo.unary main_c_13 main_v61 (broadcastInDim S1600000 ![] bcast_S_S1600000 : (⟨S_, .i32⟩ : BufTy).Contents (Elt F) → (⟨S1600000, .i32⟩ : BufTy).Contents (Elt F)),
    StableHlo.binary main_v3 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v63 (broadcastInDim S1600000 ![] bcast_S_S1600000 : (⟨S_, .i32⟩ : BufTy).Contents (Elt F) → (⟨S1600000, .i32⟩ : BufTy).Contents (Elt F)),
    StableHlo.binary main_v3 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v3 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.nullary main_cst_15 (constant S_ .f32 0x3F800000#32),
    StableHlo.unary main_cst_15 main_v67 (broadcastInDim S1600000 ![] bcast_S_S1600000 : (⟨S_, .f32⟩ : BufTy).Contents (Elt F) → (⟨S1600000, .f32⟩ : BufTy).Contents (Elt F)),
    StableHlo.ternary main_v60 main_v66 main_v67 main_v68 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_16 (constant S_ .f32 0x3F800000#32),
    StableHlo.unary main_cst_16 main_v69 (broadcastInDim S100000 ![] bcast_S_S100000 : (⟨S_, .f32⟩ : BufTy).Contents (Elt F) → (⟨S100000, .f32⟩ : BufTy).Contents (Elt F)),
    StableHlo.binary main_v68 main_v69 main_v70 (addf : (⟨S100000, .f32⟩ : BufTy).Contents (Elt F) → (⟨S100000, .f32⟩ : BufTy).Contents (Elt F) → (⟨S100000, .f32⟩ : BufTy).Contents (Elt F)),
    StableHlo.unary main_v70 main_v71 (Host.rsqrt : (⟨S100000, .f32⟩ : BufTy).Contents (Elt F) → (⟨S100000, .f32⟩ : BufTy).Contents (Elt F)),
    StableHlo.nullary main_c_17 (constantI S_ 32 0#32),
    StableHlo.unary main_c_17 main_v72 (broadcastInDim S1600000 ![] bcast_S_S1600000 : (⟨S_, .i32⟩ : BufTy).Contents (Elt F) → (⟨S1600000, .i32⟩ : BufTy).Contents (Elt F)),
    StableHlo.binary main_v1 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v74 (broadcastInDim S1600000 ![] bcast_S_S1600000 : (⟨S_, .i32⟩ : BufTy).Contents (Elt F) → (⟨S1600000, .i32⟩ : BufTy).Contents (Elt F)),
    StableHlo.binary main_v1 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v71 main_v77 main_v78 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_19 (constantI S_ 32 0#32),
    StableHlo.unary main_c_19 main_v79 (broadcastInDim S1600000 ![] bcast_S_S1600000 : (⟨S_, .i32⟩ : BufTy).Contents (Elt F) → (⟨S1600000, .i32⟩ : BufTy).Contents (Elt F)),
    StableHlo.binary main_v3 main_v79 main_v80 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v81 (broadcastInDim S1600000 ![] bcast_S_S1600000 : (⟨S_, .i32⟩ : BufTy).Contents (Elt F) → (⟨S1600000, .i32⟩ : BufTy).Contents (Elt F)),
    StableHlo.binary main_v3 main_v81 main_v82 (addi : (⟨S1600000, .i32⟩ : BufTy).Contents (Elt F) → (⟨S1600000, .i32⟩ : BufTy).Contents (Elt F) → (⟨S1600000, .i32⟩ : BufTy).Contents (Elt F)),
    StableHlo.ternary main_v80 main_v82 main_v3 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v83 main_v84 (broadcastInDim S1600000x1 ![0] bcast_S1600000_S1600000x1_0 : (⟨S1600000, .i32⟩ : BufTy).Contents (Elt F) → (⟨S1600000x1, .i32⟩ : BufTy).Contents (Elt F)),
    StableHlo.binary main_v71 main_v84 main_v85 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v78 main_v85 main_v86 (mulf : (⟨S1600000, .f32⟩ : BufTy).Contents (Elt F) → (⟨S1600000, .f32⟩ : BufTy).Contents (Elt F) → (⟨S1600000, .f32⟩ : BufTy).Contents (Elt F)),
    StableHlo.nullary main_cst_21 (constant S_ .f32 0x00000000#32),
    StableHlo.unary main_cst_21 main_v87 (broadcastInDim S100000x64 ![] bcast_S_S100000x64 : (⟨S_, .f32⟩ : BufTy).Contents (Elt F) → (⟨S100000x64, .f32⟩ : BufTy).Contents (Elt F)),
    StableHlo.nullary main_c_22 (constantI S_ 32 0#32),
    StableHlo.unary main_c_22 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)) ]

def wL2a : List (Ref sig .tc) :=
  [main_v59, main_cst_12, main_v60, main_c_13, main_v61, main_v62, main_c_14, main_v63, main_v64, main_v65, main_v66, main_cst_15, main_v67, main_v68, main_cst_16, main_v69, main_v70, main_v71, main_c_17, main_v72, main_v73, main_c_18, main_v74, main_v75, main_v76, main_v77, main_v78, main_c_19, main_v79, main_v80, main_c_20, main_v81, main_v82, main_v83, main_v84, main_v85, main_v86, main_cst_21, main_v87, main_c_22, main_v88, main_v89, main_c_23, main_v90, main_v91, main_v92, main_v93]

/-- 36 operations. -/
def opsL2b : List (HloOp τ sig (Elt F)) :=
  [ StableHlo.binary main_v59 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v86 main_v95 (broadcastInDim S1600000x1 ![0] bcast_S1600000_S1600000x1_0 : (⟨S1600000, .f32⟩ : BufTy).Contents (Elt F) → (⟨S1600000x1, .f32⟩ : BufTy).Contents (Elt F)),
    StableHlo.unary main_v95 main_v96 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v94 main_v96 main_v97 (mulf : (⟨S1600000x64, .f32⟩ : BufTy).Contents (Elt F) → (⟨S1600000x64, .f32⟩ : BufTy).Contents (Elt F) → (⟨S1600000x64, .f32⟩ : BufTy).Contents (Elt F)),
    StableHlo.nullary main_c_24 (constantI S_ 32 0#32),
    StableHlo.unary main_c_24 main_v98 (broadcastInDim S1600000 ![] bcast_S_S1600000 : (⟨S_, .i32⟩ : BufTy).Contents (Elt F) → (⟨S1600000, .i32⟩ : BufTy).Contents (Elt F)),
    StableHlo.binary main_v3 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v100 (broadcastInDim S1600000 ![] bcast_S_S1600000 : (⟨S_, .i32⟩ : BufTy).Contents (Elt F) → (⟨S1600000, .i32⟩ : BufTy).Contents (Elt F)),
    StableHlo.binary main_v3 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v3 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.ternary main_v87 main_v103 main_v97 main_v104 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v71 main_v71 main_v105 (mulf : (⟨S100000, .f32⟩ : BufTy).Contents (Elt F) → (⟨S100000, .f32⟩ : BufTy).Contents (Elt F) → (⟨S100000, .f32⟩ : BufTy).Contents (Elt F)),
    StableHlo.unary main_v105 main_v106 (broadcastInDim S100000x1 ![0] bcast_S100000_S100000x1_0 : (⟨S100000, .f32⟩ : BufTy).Contents (Elt F) → (⟨S100000x1, .f32⟩ : BufTy).Contents (Elt F)),
    StableHlo.unary main_v106 main_v107 (broadcastInDim S100000x64 ![0, 1] bcast_S100000x1_S100000x64_0_1 : (⟨S100000x1, .f32⟩ : BufTy).Contents (Elt F) → (⟨S100000x64, .f32⟩ : BufTy).Contents (Elt F)),
    StableHlo.binary main_v59 main_v107 main_v108 (mulf : (⟨S100000x64, .f32⟩ : BufTy).Contents (Elt F) → (⟨S100000x64, .f32⟩ : BufTy).Contents (Elt F) → (⟨S100000x64, .f32⟩ : BufTy).Contents (Elt F)),
    StableHlo.binary main_v104 main_v108 main_v109 (addf : (⟨S100000x64, .f32⟩ : BufTy).Contents (Elt F) → (⟨S100000x64, .f32⟩ : BufTy).Contents (Elt F) → (⟨S100000x64, .f32⟩ : BufTy).Contents (Elt F)),
    StableHlo.unary main_arg6 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v112) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v112) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v112) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v112) main_call1.v7 main_call1.call1.v0 select ]

def wL2b : List (Ref sig .tc) :=
  [main_v94, main_v95, main_v96, main_v97, main_c_24, main_v98, main_v99, main_c_25, main_v100, main_v101, main_v102, main_v103, main_v104, main_v105, main_v106, main_v107, main_v108, main_v109, main_v110, main_v111, main_v112, (main_call1.cst).ref, (main_call1.v0).ref, (main_call1.v1).ref, (main_call1.cst_0).ref, (main_call1.v2).ref, (main_call1.v3).ref, (main_call1.cst_1).ref, (main_call1.call0.v0).ref, (main_call1.call0.v1).ref, (main_call1.call0.v2).ref, (main_call1.v5).ref, (main_call1.cst_2).ref, (main_call1.v6).ref, (main_call1.v7).ref, (main_call1.call1.v0).ref]

/-- 38 operations. -/
def opsL3a : List (HloOp τ sig (Elt F)) :=
  [ StableHlo.binary main_v113 main_arg7 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_26 (constant S_ .f32 0x00000000#32),
    StableHlo.unary main_cst_26 main_v115 (broadcastInDim S100000 ![] bcast_S_S100000 : (⟨S_, .f32⟩ : BufTy).Contents (Elt F) → (⟨S100000, .f32⟩ : BufTy).Contents (Elt F)),
    StableHlo.nullary main_c_27 (constantI S_ 32 0#32),
    StableHlo.unary main_c_27 main_v116 (broadcastInDim S1600000 ![] bcast_S_S1600000 : (⟨S_, .i32⟩ : BufTy).Contents (Elt F) → (⟨S1600000, .i32⟩ : BufTy).Contents (Elt F)),
    StableHlo.binary main_v3 main_v116 main_v117 (cmpi .slt : (⟨S1600000, .i32⟩ : BufTy).Contents (Elt F) → (⟨S1600000, .i32⟩ : BufTy).Contents (Elt F) → (⟨S1600000, .i1⟩ : BufTy).Contents (Elt F)),
    StableHlo.nullary main_c_28 (constantI S_ 32 100000#32),
    StableHlo.unary main_c_28 main_v118 (broadcastInDim S1600000 ![] bcast_S_S1600000 : (⟨S_, .i32⟩ : BufTy).Contents (Elt F) → (⟨S1600000, .i32⟩ : BufTy).Contents (Elt F)),
    StableHlo.binary main_v3 main_v118 main_v119 (addi : (⟨S1600000, .i32⟩ : BufTy).Contents (Elt F) → (⟨S1600000, .i32⟩ : BufTy).Contents (Elt F) → (⟨S1600000, .i32⟩ : BufTy).Contents (Elt F)),
    StableHlo.ternary main_v117 main_v119 main_v3 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v120 main_v121 (broadcastInDim S1600000x1 ![0] bcast_S1600000_S1600000x1_0 : (⟨S1600000, .i32⟩ : BufTy).Contents (Elt F) → (⟨S1600000x1, .i32⟩ : BufTy).Contents (Elt F)),
    StableHlo.nullary main_cst_29 (constant S_ .f32 0x3F800000#32),
    StableHlo.unary main_cst_29 main_v122 (broadcastInDim S1600000 ![] bcast_S_S1600000 : (⟨S_, .f32⟩ : BufTy).Contents (Elt F) → (⟨S1600000, .f32⟩ : BufTy).Contents (Elt F)),
    StableHlo.ternary main_v115 main_v121 main_v122 main_v123 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_30 (constant S_ .f32 0x3F800000#32),
    StableHlo.unary main_cst_30 main_v124 (broadcastInDim S100000 ![] bcast_S_S100000 : (⟨S_, .f32⟩ : BufTy).Contents (Elt F) → (⟨S100000, .f32⟩ : BufTy).Contents (Elt F)),
    StableHlo.binary main_v123 main_v124 main_v125 (addf : (⟨S100000, .f32⟩ : BufTy).Contents (Elt F) → (⟨S100000, .f32⟩ : BufTy).Contents (Elt F) → (⟨S100000, .f32⟩ : BufTy).Contents (Elt F)),
    StableHlo.unary main_v125 main_v126 (Host.rsqrt : (⟨S100000, .f32⟩ : BufTy).Contents (Elt F) → (⟨S100000, .f32⟩ : BufTy).Contents (Elt F)),
    StableHlo.nullary main_c_31 (constantI S_ 32 0#32),
    StableHlo.unary main_c_31 main_v127 (broadcastInDim S1600000 ![] bcast_S_S1600000 : (⟨S_, .i32⟩ : BufTy).Contents (Elt F) → (⟨S1600000, .i32⟩ : BufTy).Contents (Elt F)),
    StableHlo.binary main_v1 main_v127 main_v128 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v129 (broadcastInDim S1600000 ![] bcast_S_S1600000 : (⟨S_, .i32⟩ : BufTy).Contents (Elt F) → (⟨S1600000, .i32⟩ : BufTy).Contents (Elt F)),
    StableHlo.binary main_v1 main_v129 main_v130 (addi : (⟨S1600000, .i32⟩ : BufTy).Contents (Elt F) → (⟨S1600000, .i32⟩ : BufTy).Contents (Elt F) → (⟨S1600000, .i32⟩ : BufTy).Contents (Elt F)),
    StableHlo.ternary main_v128 main_v130 main_v1 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v131 main_v132 (broadcastInDim S1600000x1 ![0] bcast_S1600000_S1600000x1_0 : (⟨S1600000, .i32⟩ : BufTy).Contents (Elt F) → (⟨S1600000x1, .i32⟩ : BufTy).Contents (Elt F)),
    StableHlo.binary main_v126 main_v132 main_v133 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_33 (constantI S_ 32 0#32),
    StableHlo.unary main_c_33 main_v134 (broadcastInDim S1600000 ![] bcast_S_S1600000 : (⟨S_, .i32⟩ : BufTy).Contents (Elt F) → (⟨S1600000, .i32⟩ : BufTy).Contents (Elt F)),
    StableHlo.binary main_v3 main_v134 main_v135 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v136 (broadcastInDim S1600000 ![] bcast_S_S1600000 : (⟨S_, .i32⟩ : BufTy).Contents (Elt F) → (⟨S1600000, .i32⟩ : BufTy).Contents (Elt F)),
    StableHlo.binary main_v3 main_v136 main_v137 (addi : (⟨S1600000, .i32⟩ : BufTy).Contents (Elt F) → (⟨S1600000, .i32⟩ : BufTy).Contents (Elt F) → (⟨S1600000, .i32⟩ : BufTy).Contents (Elt F)),
    StableHlo.ternary main_v135 main_v137 main_v3 main_v138 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v138 main_v139 (broadcastInDim S1600000x1 ![0] bcast_S1600000_S1600000x1_0 : (⟨S1600000, .i32⟩ : BufTy).Contents (Elt F) → (⟨S1600000x1, .i32⟩ : BufTy).Contents (Elt F)),
    StableHlo.binary main_v126 main_v139 main_v140 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v133 main_v140 main_v141 (mulf : (⟨S1600000, .f32⟩ : BufTy).Contents (Elt F) → (⟨S1600000, .f32⟩ : BufTy).Contents (Elt F) → (⟨S1600000, .f32⟩ : BufTy).Contents (Elt F)),
    StableHlo.nullary main_cst_35 (constant S_ .f32 0x00000000#32) ]

def wL3a : List (Ref sig .tc) :=
  [main_v114, main_cst_26, main_v115, main_c_27, main_v116, main_v117, main_c_28, main_v118, main_v119, main_v120, main_v121, main_cst_29, main_v122, main_v123, main_cst_30, main_v124, main_v125, main_v126, main_c_31, main_v127, main_v128, main_c_32, main_v129, main_v130, main_v131, main_v132, main_v133, main_c_33, main_v134, main_v135, main_c_34, main_v136, main_v137, main_v138, main_v139, main_v140, main_v141, main_cst_35]

/-- 45 operations. -/
def opsL3b : List (HloOp τ sig (Elt F)) :=
  [ StableHlo.unary main_cst_35 main_v142 (broadcastInDim S100000x64 ![] bcast_S_S100000x64 : (⟨S_, .f32⟩ : BufTy).Contents (Elt F) → (⟨S100000x64, .f32⟩ : BufTy).Contents (Elt F)),
    StableHlo.nullary main_c_36 (constantI S_ 32 0#32),
    StableHlo.unary main_c_36 main_v143 (broadcastInDim S1600000 ![] bcast_S_S1600000 : (⟨S_, .i32⟩ : BufTy).Contents (Elt F) → (⟨S1600000, .i32⟩ : BufTy).Contents (Elt F)),
    StableHlo.binary main_v1 main_v143 main_v144 (cmpi .slt : (⟨S1600000, .i32⟩ : BufTy).Contents (Elt F) → (⟨S1600000, .i32⟩ : BufTy).Contents (Elt F) → (⟨S1600000, .i1⟩ : BufTy).Contents (Elt F)),
    StableHlo.nullary main_c_37 (constantI S_ 32 100000#32),
    StableHlo.unary main_c_37 main_v145 (broadcastInDim S1600000 ![] bcast_S_S1600000 : (⟨S_, .i32⟩ : BufTy).Contents (Elt F) → (⟨S1600000, .i32⟩ : BufTy).Contents (Elt F)),
    StableHlo.binary main_v1 main_v145 main_v146 (addi : (⟨S1600000, .i32⟩ : BufTy).Contents (Elt F) → (⟨S1600000, .i32⟩ : BufTy).Contents (Elt F) → (⟨S1600000, .i32⟩ : BufTy).Contents (Elt F)),
    StableHlo.ternary main_v144 main_v146 main_v1 main_v147 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v147 main_v148 (broadcastInDim S1600000x1 ![0] bcast_S1600000_S1600000x1_0 : (⟨S1600000, .i32⟩ : BufTy).Contents (Elt F) → (⟨S1600000x1, .i32⟩ : BufTy).Contents (Elt F)),
    StableHlo.binary main_v114 main_v148 main_v149 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v141 main_v150 (broadcastInDim S1600000x1 ![0] bcast_S1600000_S1600000x1_0 : (⟨S1600000, .f32⟩ : BufTy).Contents (Elt F) → (⟨S1600000x1, .f32⟩ : BufTy).Contents (Elt F)),
    StableHlo.unary main_v150 main_v151 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v149 main_v151 main_v152 (mulf : (⟨S1600000x64, .f32⟩ : BufTy).Contents (Elt F) → (⟨S1600000x64, .f32⟩ : BufTy).Contents (Elt F) → (⟨S1600000x64, .f32⟩ : BufTy).Contents (Elt F)),
    StableHlo.nullary main_c_38 (constantI S_ 32 0#32),
    StableHlo.unary main_c_38 main_v153 (broadcastInDim S1600000 ![] bcast_S_S1600000 : (⟨S_, .i32⟩ : BufTy).Contents (Elt F) → (⟨S1600000, .i32⟩ : BufTy).Contents (Elt F)),
    StableHlo.binary main_v3 main_v153 main_v154 (cmpi .slt : (⟨S1600000, .i32⟩ : BufTy).Contents (Elt F) → (⟨S1600000, .i32⟩ : BufTy).Contents (Elt F) → (⟨S1600000, .i1⟩ : BufTy).Contents (Elt F)),
    StableHlo.nullary main_c_39 (constantI S_ 32 100000#32),
    StableHlo.unary main_c_39 main_v155 (broadcastInDim S1600000 ![] bcast_S_S1600000 : (⟨S_, .i32⟩ : BufTy).Contents (Elt F) → (⟨S1600000, .i32⟩ : BufTy).Contents (Elt F)),
    StableHlo.binary main_v3 main_v155 main_v156 (addi : (⟨S1600000, .i32⟩ : BufTy).Contents (Elt F) → (⟨S1600000, .i32⟩ : BufTy).Contents (Elt F) → (⟨S1600000, .i32⟩ : BufTy).Contents (Elt F)),
    StableHlo.ternary main_v154 main_v156 main_v3 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v157 main_v158 (broadcastInDim S1600000x1 ![0] bcast_S1600000_S1600000x1_0 : (⟨S1600000, .i32⟩ : BufTy).Contents (Elt F) → (⟨S1600000x1, .i32⟩ : BufTy).Contents (Elt F)),
    StableHlo.ternary main_v142 main_v158 main_v152 main_v159 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v126 main_v126 main_v160 (mulf : (⟨S100000, .f32⟩ : BufTy).Contents (Elt F) → (⟨S100000, .f32⟩ : BufTy).Contents (Elt F) → (⟨S100000, .f32⟩ : BufTy).Contents (Elt F)),
    StableHlo.unary main_v160 main_v161 (broadcastInDim S100000x1 ![0] bcast_S100000_S100000x1_0 : (⟨S100000, .f32⟩ : BufTy).Contents (Elt F) → (⟨S100000x1, .f32⟩ : BufTy).Contents (Elt F)),
    StableHlo.unary main_v161 main_v162 (broadcastInDim S100000x64 ![0, 1] bcast_S100000x1_S100000x64_0_1 : (⟨S100000x1, .f32⟩ : BufTy).Contents (Elt F) → (⟨S100000x64, .f32⟩ : BufTy).Contents (Elt F)),
    StableHlo.binary main_v114 main_v162 main_v163 (mulf : (⟨S100000x64, .f32⟩ : BufTy).Contents (Elt F) → (⟨S100000x64, .f32⟩ : BufTy).Contents (Elt F) → (⟨S100000x64, .f32⟩ : BufTy).Contents (Elt F)),
    StableHlo.binary main_v159 main_v163 main_v164 (addf : (⟨S100000x64, .f32⟩ : BufTy).Contents (Elt F) → (⟨S100000x64, .f32⟩ : BufTy).Contents (Elt F) → (⟨S100000x64, .f32⟩ : BufTy).Contents (Elt F)),
    StableHlo.unary main_arg8 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S100000x64 ![0, 1] bcast_S1x64_S100000x64_0_1 : (⟨S1x64, .f32⟩ : BufTy).Contents (Elt F) → (⟨S100000x64, .f32⟩ : BufTy).Contents (Elt F)),
    StableHlo.binary main_v164 main_v166 main_v167 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v167) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v167) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v167) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v167) main_call2.v7 main_call2.call1.v0 select ]

def wL3b : List (Ref sig .tc) :=
  [main_v142, main_c_36, main_v143, main_v144, main_c_37, main_v145, main_v146, main_v147, main_v148, main_v149, main_v150, main_v151, main_v152, main_c_38, main_v153, main_v154, main_c_39, main_v155, main_v156, main_v157, main_v158, main_v159, main_v160, main_v161, main_v162, main_v163, main_v164, main_v165, main_v166, main_v167, (main_call2.cst).ref, (main_call2.v0).ref, (main_call2.v1).ref, (main_call2.cst_0).ref, (main_call2.v2).ref, (main_call2.v3).ref, (main_call2.cst_1).ref, (main_call2.call0.v0).ref, (main_call2.call0.v1).ref, (main_call2.call0.v2).ref, (main_call2.v5).ref, (main_call2.cst_2).ref, (main_call2.v6).ref, (main_call2.v7).ref, (main_call2.call1.v0).ref]

/-- 16 operations. -/
def opsP : List (HloOp τ sig (Elt F)) :=
  [ StableHlo.nullary main_cst_40 (constant S_ .f32 0x00000000#32),
    StableHlo.unary main_cst_40 main_v169 (broadcastInDim S256x64 ![] bcast_S_S256x64 : (⟨S_, .f32⟩ : BufTy).Contents (Elt F) → (⟨S256x64, .f32⟩ : BufTy).Contents (Elt F)),
    StableHlo.unary main_arg2 main_v170 (broadcastInDim S100000x1 ![0] bcast_S100000_S100000x1_0 : (⟨S100000, .i32⟩ : BufTy).Contents (Elt F) → (⟨S100000x1, .i32⟩ : BufTy).Contents (Elt F)),
    StableHlo.ternary main_v169 main_v170 main_v168 main_v171 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)),
    StableHlo.nullary main_cst_41 (constant S_ .f32 0x3F800000#32),
    StableHlo.unary main_cst_41 main_v172 (broadcastInDim S100000 ![] bcast_S_S100000 : (⟨S_, .f32⟩ : BufTy).Contents (Elt F) → (⟨S100000, .f32⟩ : BufTy).Contents (Elt F)),
    StableHlo.nullary main_cst_42 (constant S_ .f32 0x00000000#32),
    StableHlo.unary main_cst_42 main_v173 (broadcastInDim S256 ![] bcast_S_S256 : (⟨S_, .f32⟩ : BufTy).Contents (Elt F) → (⟨S256, .f32⟩ : BufTy).Contents (Elt F)),
    StableHlo.unary main_arg2 main_v174 (broadcastInDim S100000x1 ![0] bcast_S100000_S100000x1_0 : (⟨S100000, .i32⟩ : BufTy).Contents (Elt F) → (⟨S100000x1, .i32⟩ : BufTy).Contents (Elt F)),
    StableHlo.ternary main_v173 main_v174 main_v172 main_v175 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    StableHlo.nullary main_cst_43 (constant S_ .f32 0x3F800000#32),
    StableHlo.unary main_cst_43 main_v176 (broadcastInDim S256 ![] bcast_S_S256 : (⟨S_, .f32⟩ : BufTy).Contents (Elt F) → (⟨S256, .f32⟩ : BufTy).Contents (Elt F)),
    StableHlo.binary main_v175 main_v176 main_v177 (maximumf : (⟨S256, .f32⟩ : BufTy).Contents (Elt F) → (⟨S256, .f32⟩ : BufTy).Contents (Elt F) → (⟨S256, .f32⟩ : BufTy).Contents (Elt F)),
    StableHlo.unary main_v177 main_v178 (broadcastInDim S256x1 ![0] bcast_S256_S256x1_0 : (⟨S256, .f32⟩ : BufTy).Contents (Elt F) → (⟨S256x1, .f32⟩ : BufTy).Contents (Elt F)),
    StableHlo.unary main_v178 main_v179 (broadcastInDim S256x64 ![0, 1] bcast_S256x1_S256x64_0_1 : (⟨S256x1, .f32⟩ : BufTy).Contents (Elt F) → (⟨S256x64, .f32⟩ : BufTy).Contents (Elt F)),
    StableHlo.binary main_v171 main_v179 main_v180 (Host.divf : (⟨S256x64, .f32⟩ : BufTy).Contents (Elt F) → (⟨S256x64, .f32⟩ : BufTy).Contents (Elt F) → (⟨S256x64, .f32⟩ : BufTy).Contents (Elt F)) ]

def wP : List (Ref sig .tc) :=
  [main_cst_40, main_v169, main_v170, main_v171, main_cst_41, main_v172, main_cst_42, main_v173, main_v174, main_v175, main_cst_43, main_v176, main_v177, main_v178, main_v179, main_v180]

/-- 17 operations. -/
def opsH1 : List (HloOp τ sig (Elt F)) :=
  [ StableHlo.binary main_v180 main_arg9 main_v181 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    StableHlo.unary main_arg10 main_v182 (broadcastInDim S1x64 ![1] bcast_S64_S1x64_1 : (⟨S64, .f32⟩ : BufTy).Contents (Elt F) → (⟨S1x64, .f32⟩ : BufTy).Contents (Elt F)),
    StableHlo.unary main_v182 main_v183 (broadcastInDim S256x64 ![0, 1] bcast_S1x64_S256x64_0_1 : (⟨S1x64, .f32⟩ : BufTy).Contents (Elt F) → (⟨S256x64, .f32⟩ : BufTy).Contents (Elt F)),
    StableHlo.binary main_v181 main_v183 main_v184 (addf : (⟨S256x64, .f32⟩ : BufTy).Contents (Elt F) → (⟨S256x64, .f32⟩ : BufTy).Contents (Elt F) → (⟨S256x64, .f32⟩ : BufTy).Contents (Elt F)),
    StableHlo.TRef.nullary main_call3.cst (constant S_ .f32 0x00000000#32),
    StableHlo.TRef.unary main_call3.cst main_call3.v0 (broadcastInDim S256x64 ![] bcast_S_S256x64),
    StableHlo.TRef.binary (.of main_v184) main_call3.v0 main_call3.v1 maximumf,
    StableHlo.binary main_v185 main_arg11 main_v186 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    StableHlo.unary main_arg12 main_v187 (broadcastInDim S1x32 ![1] bcast_S32_S1x32_1 : (⟨S32, .f32⟩ : BufTy).Contents (Elt F) → (⟨S1x32, .f32⟩ : BufTy).Contents (Elt F)),
    StableHlo.unary main_v187 main_v188 (broadcastInDim S256x32 ![0, 1] bcast_S1x32_S256x32_0_1 : (⟨S1x32, .f32⟩ : BufTy).Contents (Elt F) → (⟨S256x32, .f32⟩ : BufTy).Contents (Elt F)),
    StableHlo.binary main_v186 main_v188 main_v189 (addf : (⟨S256x32, .f32⟩ : BufTy).Contents (Elt F) → (⟨S256x32, .f32⟩ : BufTy).Contents (Elt F) → (⟨S256x32, .f32⟩ : BufTy).Contents (Elt F)),
    StableHlo.TRef.nullary main_call4.cst (constant S_ .f32 0x00000000#32),
    StableHlo.TRef.unary main_call4.cst main_call4.v0 (broadcastInDim S256x32 ![] bcast_S_S256x32),
    StableHlo.TRef.binary (.of main_v189) main_call4.v0 main_call4.v1 maximumf,
    StableHlo.binary main_v190 main_arg13 main_v191 ((fun l r => Host.dotGeneral dot_S256x32_S32x1_S256x1_1_0_0_1_n_n none l r) : (⟨S256x32, .f32⟩ : BufTy).Contents (Elt F) → (⟨S32x1, .f32⟩ : BufTy).Contents (Elt F) → (⟨S256x1, .f32⟩ : BufTy).Contents (Elt F)),
    StableHlo.unary main_arg14 main_v192 (broadcastInDim S1x1 ![1] bcast_S1_S1x1_1 : (⟨S1, .f32⟩ : BufTy).Contents (Elt F) → (⟨S1x1, .f32⟩ : BufTy).Contents (Elt F)),
    StableHlo.unary main_v192 main_v193 (broadcastInDim S256x1 ![0, 1] bcast_S1x1_S256x1_0_1 : (⟨S1x1, .f32⟩ : BufTy).Contents (Elt F) → (⟨S256x1, .f32⟩ : BufTy).Contents (Elt F)) ]

def wH1 : List (Ref sig .tc) :=
  [main_v181, main_v182, main_v183, main_v184, (main_call3.cst).ref, (main_call3.v0).ref, (main_call3.v1).ref, main_v186, main_v187, main_v188, main_v189, (main_call4.cst).ref, (main_call4.v0).ref, (main_call4.v1).ref, main_v191, main_v192, main_v193]

/-- 2 operations. -/
def opsH2 : List (HloOp τ sig (Elt F)) :=
  [ StableHlo.binary main_v191 main_v193 main_v194 (addf : (⟨S256x1, .f32⟩ : BufTy).Contents (Elt F) → (⟨S256x1, .f32⟩ : BufTy).Contents (Elt F) → (⟨S256x1, .f32⟩ : BufTy).Contents (Elt F)),
    StableHlo.reshape main_v194 main_v195 rfl shapeCasts_S256x1_S256 ]

def wH2 : List (Ref sig .tc) :=
  [main_v194, main_v195]

end Cert.ReferenceIdeal.RefRun

end
-- ==== Proof.RefRun.lean ====
/-
  The reference program's run, read back through the stages of the network.

  The program is a straight line: `ops` lists its 288 operations in ten consecutive chunks (RefOps.lean), and @main is
  `seq ops` — the calls of elu and relu are the callee's operations at the call site. Its run therefore ends with
  every buffer at the fold `after ops` of the operations' results over the launch contents (`run_main`).

  The fold is read chunk by chunk, from ANY contents `W` before the chunk:
    the first chunk leaves the two rows of the edge list (sources, targets) in %1 and %3;
    each of the three layer chunks leaves in its result  elu (aggregate (h · W) + b)  of the rows in %1, %3, the
      previous layer's result h and its two parameters — the degree normalisation recomputed from %3 each time;
    the read-out chunk leaves in %180 the per-graph means of the third layer's result;
    the head chunk leaves in %195 the three affine layers of %180, the first two clamped at zero, as a vector.
  A chunk changes no buffer but the ones its operations write (`keep…`: the written references are listed beside the
  chunk), so the chunks compose: the argument buffers are never written, %1 and %3 survive the layers, %180 survives
  the head. The composition is the stage composition `Stage.pool … (Stage.nodes …)`, resp. `Stage.head` of it, by
  unfolding the stage definitions.
-/
import proofs.«128728_j78176994722446_1_alg».proof.Proof.RefOps
import proofs.«128728_j78176994722446_1_alg».proof.Proof.Stage

noncomputable section

namespace Cert.ReferenceIdeal.RefRun

open Cert.ReferenceIdeal Idealize.ShloMosaic Idealize.ShloMosaic.TcCoe Idealize.ShloMosaic.StableHlo Idealize.SL.Sem

variable {F : FTy → Type} [FloatOps F]

/-- @main's 288 operations, in order: the ten chunks one after the other. -/
def ops : List (HloOp τ sig (Elt F)) :=
  opsA ++ (opsL1a ++ (opsL1b ++ (opsL2a ++ (opsL2b ++ (opsL3a ++ (opsL3b ++ (opsP ++ (opsH1 ++ opsH2))))))))

/-! ## Folds over a concatenation, and what a chunk leaves alone -/

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is a listed reference writes inside the list. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Every operation of a literal chunk writes a reference of the chunk's list: each writes exactly its result buffer,
    and that reference is found in the list by comparison. -/
macro "writes_sub" : tactic =>
  `(tactic| repeat' (first | exact writes_sub_of_mem rfl (by decide) | refine And.intro ?_ ?_))

/-- No operation of a literal chunk leaves a buffer undetermined. -/
macro "fresh_none" : tactic =>
  `(tactic| repeat' (first | exact rfl | refine And.intro ?_ ?_))

/-- Every operation of a literal chunk touches TensorCore references only: each builder's own fact. -/
macro "bufs_sub" : tactic =>
  `(tactic| simp only [List.forall_cons, List.Forall, nullary_bufs_sub, unary_bufs_sub, binary_bufs_sub, ternary_bufs_sub,
    reshape_bufs_sub, and_self])

theorem subA : (opsA (F := F)).Forall fun op => op.bufs ⊆ tcRefs τ sig := by
  unfold opsA; bufs_sub
theorem freshA : (opsA (F := F)).Forall fun op => op.fresh = ∅ := by
  unfold opsA; fresh_none
theorem hwA : (opsA (F := F)).Forall fun op => op.writes ⊆ (wA.map (Proc.devRef (τ := τ) .tc)).toFinset := by
  unfold opsA; writes_sub
/-- The chunk changes no buffer outside its list. -/
theorem keepA (W : Valuation τ sig (Elt F)) {r : Ref sig .tc} (hr : r ∉ wA) :
    after opsA W (no_index (Proc.devRef .tc r)) = W (Proc.devRef .tc r) := after_of_writes_sub opsA W hwA hr

theorem subL1a : (opsL1a (F := F)).Forall fun op => op.bufs ⊆ tcRefs τ sig := by
  unfold opsL1a; bufs_sub
theorem freshL1a : (opsL1a (F := F)).Forall fun op => op.fresh = ∅ := by
  unfold opsL1a; fresh_none
theorem hwL1a : (opsL1a (F := F)).Forall fun op => op.writes ⊆ (wL1a.map (Proc.devRef (τ := τ) .tc)).toFinset := by
  unfold opsL1a; writes_sub
/-- The chunk changes no buffer outside its list. -/
theorem keepL1a (W : Valuation τ sig (Elt F)) {r : Ref sig .tc} (hr : r ∉ wL1a) :
    after opsL1a W (no_index (Proc.devRef .tc r)) = W (Proc.devRef .tc r) := after_of_writes_sub opsL1a W hwL1a hr

theorem subL1b : (opsL1b (F := F)).Forall fun op => op.bufs ⊆ tcRefs τ sig := by
  unfold opsL1b; bufs_sub
theorem freshL1b : (opsL1b (F := F)).Forall fun op => op.fresh = ∅ := by
  unfold opsL1b; fresh_none
theorem hwL1b : (opsL1b (F := F)).Forall fun op => op.writes ⊆ (wL1b.map (Proc.devRef (τ := τ) .tc)).toFinset := by
  unfold opsL1b; writes_sub
/-- The chunk changes no buffer outside its list. -/
theorem keepL1b (W : Valuation τ sig (Elt F)) {r : Ref sig .tc} (hr : r ∉ wL1b) :
    after opsL1b W (no_index (Proc.devRef .tc r)) = W (Proc.devRef .tc r) := after_of_writes_sub opsL1b W hwL1b hr

theorem subL2a : (opsL2a (F := F)).Forall fun op => op.bufs ⊆ tcRefs τ sig := by
  unfold opsL2a; bufs_sub
theorem freshL2a : (opsL2a (F := F)).Forall fun op => op.fresh = ∅ := by
  unfold opsL2a; fresh_none
theorem hwL2a : (opsL2a (F := F)).Forall fun op => op.writes ⊆ (wL2a.map (Proc.devRef (τ := τ) .tc)).toFinset := by
  unfold opsL2a; writes_sub
/-- The chunk changes no buffer outside its list. -/
theorem keepL2a (W : Valuation τ sig (Elt F)) {r : Ref sig .tc} (hr : r ∉ wL2a) :
    after opsL2a W (no_index (Proc.devRef .tc r)) = W (Proc.devRef .tc r) := after_of_writes_sub opsL2a W hwL2a hr

theorem subL2b : (opsL2b (F := F)).Forall fun op => op.bufs ⊆ tcRefs τ sig := by
  unfold opsL2b; bufs_sub
theorem freshL2b : (opsL2b (F := F)).Forall fun op => op.fresh = ∅ := by
  unfold opsL2b; fresh_none
theorem hwL2b : (opsL2b (F := F)).Forall fun op => op.writes ⊆ (wL2b.map (Proc.devRef (τ := τ) .tc)).toFinset := by
  unfold opsL2b; writes_sub
/-- The chunk changes no buffer outside its list. -/
theorem keepL2b (W : Valuation τ sig (Elt F)) {r : Ref sig .tc} (hr : r ∉ wL2b) :
    after opsL2b W (no_index (Proc.devRef .tc r)) = W (Proc.devRef .tc r) := after_of_writes_sub opsL2b W hwL2b hr

theorem subL3a : (opsL3a (F := F)).Forall fun op => op.bufs ⊆ tcRefs τ sig := by
  unfold opsL3a; bufs_sub
theorem freshL3a : (opsL3a (F := F)).Forall fun op => op.fresh = ∅ := by
  unfold opsL3a; fresh_none
theorem hwL3a : (opsL3a (F := F)).Forall fun op => op.writes ⊆ (wL3a.map (Proc.devRef (τ := τ) .tc)).toFinset := by
  unfold opsL3a; writes_sub
/-- The chunk changes no buffer outside its list. -/
theorem keepL3a (W : Valuation τ sig (Elt F)) {r : Ref sig .tc} (hr : r ∉ wL3a) :
    after opsL3a W (no_index (Proc.devRef .tc r)) = W (Proc.devRef .tc r) := after_of_writes_sub opsL3a W hwL3a hr

theorem subL3b : (opsL3b (F := F)).Forall fun op => op.bufs ⊆ tcRefs τ sig := by
  unfold opsL3b; bufs_sub
theorem freshL3b : (opsL3b (F := F)).Forall fun op => op.fresh = ∅ := by
  unfold opsL3b; fresh_none
theorem hwL3b : (opsL3b (F := F)).Forall fun op => op.writes ⊆ (wL3b.map (Proc.devRef (τ := τ) .tc)).toFinset := by
  unfold opsL3b; writes_sub
/-- The chunk changes no buffer outside its list. -/
theorem keepL3b (W : Valuation τ sig (Elt F)) {r : Ref sig .tc} (hr : r ∉ wL3b) :
    after opsL3b W (no_index (Proc.devRef .tc r)) = W (Proc.devRef .tc r) := after_of_writes_sub opsL3b W hwL3b hr

theorem subP : (opsP (F := F)).Forall fun op => op.bufs ⊆ tcRefs τ sig := by
  unfold opsP; bufs_sub
theorem freshP : (opsP (F := F)).Forall fun op => op.fresh = ∅ := by
  unfold opsP; fresh_none
theorem hwP : (opsP (F := F)).Forall fun op => op.writes ⊆ (wP.map (Proc.devRef (τ := τ) .tc)).toFinset := by
  unfold opsP; writes_sub
/-- The chunk changes no buffer outside its list. -/
theorem keepP (W : Valuation τ sig (Elt F)) {r : Ref sig .tc} (hr : r ∉ wP) :
    after opsP W (no_index (Proc.devRef .tc r)) = W (Proc.devRef .tc r) := after_of_writes_sub opsP W hwP hr

theorem subH1 : (opsH1 (F := F)).Forall fun op => op.bufs ⊆ tcRefs τ sig := by
  unfold opsH1; bufs_sub
theorem freshH1 : (opsH1 (F := F)).Forall fun op => op.fresh = ∅ := by
  unfold opsH1; fresh_none
theorem hwH1 : (opsH1 (F := F)).Forall fun op => op.writes ⊆ (wH1.map (Proc.devRef (τ := τ) .tc)).toFinset := by
  unfold opsH1; writes_sub
/-- The chunk changes no buffer outside its list. -/
theorem keepH1 (W : Valuation τ sig (Elt F)) {r : Ref sig .tc} (hr : r ∉ wH1) :
    after opsH1 W (no_index (Proc.devRef .tc r)) = W (Proc.devRef .tc r) := after_of_writes_sub opsH1 W hwH1 hr

theorem subH2 : (opsH2 (F := F)).Forall fun op => op.bufs ⊆ tcRefs τ sig := by
  unfold opsH2; bufs_sub
theorem freshH2 : (opsH2 (F := F)).Forall fun op => op.fresh = ∅ := by
  unfold opsH2; fresh_none
theorem hwH2 : (opsH2 (F := F)).Forall fun op => op.writes ⊆ (wH2.map (Proc.devRef (τ := τ) .tc)).toFinset := by
  unfold opsH2; writes_sub
/-- The chunk changes no buffer outside its list. -/
theorem keepH2 (W : Valuation τ sig (Elt F)) {r : Ref sig .tc} (hr : r ∉ wH2) :
    after opsH2 W (no_index (Proc.devRef .tc r)) = W (Proc.devRef .tc r) := after_of_writes_sub opsH2 W hwH2 hr

/-! ## @main is the line -/

theorem part0_eq (c : Dev nD) : main_part0 (F := F) c = seq (opsA ++ opsL1a) := rfl

-- each elu call unfolds into fifteen operations whose binds are re-associated one by one
set_option maxRecDepth 4096 in
theorem part1_eq (c : Dev nD) : main_part1 (F := F) c = seq (opsL1b ++ opsL2a) := by
  simp only [main_part1, fn_elu.body, fn_where.body, fn_where_0.body, opsL1b, opsL2a, List.cons_append, List.nil_append, seq,
    bind_assoc, pure_bind]
  first | done | rfl

set_option maxRecDepth 4096 in
theorem part2_eq (c : Dev nD) : main_part2 (F := F) c = seq (opsL2b ++ opsL3a) := by
  simp only [main_part2, fn_elu.body, fn_where.body, fn_where_0.body, opsL2b, opsL3a, List.cons_append, List.nil_append, seq,
    bind_assoc, pure_bind]
  first | done | rfl

set_option maxRecDepth 4096 in
theorem part3_eq (c : Dev nD) : main_part3 (F := F) c = seq (opsL3b ++ (opsP ++ opsH1)) := by
  simp only [main_part3, fn_elu.body, fn_where.body, fn_where_0.body, fn_relu.body, fn_relu_1.body, opsL3b, opsP, opsH1,
    List.cons_append, List.nil_append, seq, bind_assoc, pure_bind]
  first | done | rfl

theorem part4_eq (c : Dev nD) : main_part4 (F := F) c = seq opsH2 := rfl

/-- @main is that straight line: its five windows are the chunks' lines (the calls' bodies unfolded at the call sites,
    sequencing re-associated), and a concatenation's line is the lines in turn. -/
theorem main_eq (c : Dev nD) : main (F := F) c = seq ops := by
  simp only [main, part0_eq, part1_eq, part2_eq, part3_eq, part4_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  simp only [ops, List.forall_append]
  exact ⟨subA, subL1a, subL1b, subL2a, subL2b, subL3a, subL3b, subP, subH1, subH2⟩

theorem ops_fresh : ∀ op ∈ ops (F := F), op.fresh = ∅ := by
  refine List.forall_iff_forall_mem.mp ?_
  simp only [ops, List.forall_append]
  exact ⟨freshA, freshL1a, freshL1b, freshL2a, freshL2b, freshL3a, freshL3b, freshP, freshH1, freshH2⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each chunk leaves, from any contents before it -/

/-- One layer from the two rows of the edge list: `Stage.layerPost` with the rows named. -/
def layerOf (s d : Cert.Stage.Arr F S1600000 .i32) (h : Cert.Stage.Arr F S100000x64 .f32) (b : Cert.Stage.Arr F S64 .f32) :
    Cert.Stage.Arr F S100000x64 .f32 :=
  Cert.Stage.elu (Cert.Stage.addBias (Cert.Stage.aggregate s d (Cert.Stage.edgeWeight s d (Cert.Stage.invSqrtDeg d))
    (mulf (Cert.Stage.invSqrtDeg d) (Cert.Stage.invSqrtDeg d)) h) b)

theorem layerPost_eq (ei : Cert.Stage.Arr F S2x1600000 .i32) (h : Cert.Stage.Arr F S100000x64 .f32) (b : Cert.Stage.Arr F S64 .f32) :
    Cert.Stage.layerPost ei h b = layerOf (Cert.Stage.srcRow ei) (Cert.Stage.dstRow ei) h b := rfl

/-- %1 is row 0 of the edge list. -/
theorem A_src (W : Valuation τ sig (Elt F)) :
    after opsA W (no_index (Proc.devRef .tc main_v1)) = Cert.Stage.srcRow (W (main_arg1 : DevRef τ sig)) := by
  simp only [opsA]
  after_results_simp
  rfl

/-- %3 is row 1 of the edge list. -/
theorem A_dst (W : Valuation τ sig (Elt F)) :
    after opsA W (no_index (Proc.devRef .tc main_v3)) = Cert.Stage.dstRow (W (main_arg1 : DevRef τ sig)) := by
  simp only [opsA]
  after_results_simp
  rfl

set_option maxHeartbeats 1600000 in
/-- The first layer: %58 is the layer of the rows in %1, %3 and the product of the node features with the first weight
    (each operation's result at its own buffer, any other buffer as it was; what is left is the stage by unfolding). -/
theorem L1_out (W : Valuation τ sig (Elt F)) :
    after opsL1b (after opsL1a W) (no_index (Proc.devRef .tc main_v58))
      = layerOf (W (main_v1 : DevRef τ sig)) (W (main_v3 : DevRef τ sig))
          (Cert.Stage.dot7 (W (main_arg0 : DevRef τ sig)) (W (main_arg3 : DevRef τ sig))) (W (main_arg4 : DevRef τ sig)) := by
  rw [← after_append]
  simp only [opsL1a, opsL1b, List.cons_append, List.nil_append]
  after_results_simp
  rfl

set_option maxHeartbeats 1600000 in
/-- The second layer: %113 from %58. -/
theorem L2_out (W : Valuation τ sig (Elt F)) :
    after opsL2b (after opsL2a W) (no_index (Proc.devRef .tc main_v113))
      = layerOf (W (main_v1 : DevRef τ sig)) (W (main_v3 : DevRef τ sig))
          (Cert.Stage.dot64 (W (main_v58 : DevRef τ sig)) (W (main_arg5 : DevRef τ sig))) (W (main_arg6 : DevRef τ sig)) := by
  rw [← after_append]
  simp only [opsL2a, opsL2b, List.cons_append, List.nil_append]
  after_results_simp
  rfl

set_option maxHeartbeats 1600000 in
/-- The third layer: %168 from %113. -/
theorem L3_out (W : Valuation τ sig (Elt F)) :
    after opsL3b (after opsL3a W) (no_index (Proc.devRef .tc main_v168))
      = layerOf (W (main_v1 : DevRef τ sig)) (W (main_v3 : DevRef τ sig))
          (Cert.Stage.dot64 (W (main_v113 : DevRef τ sig)) (W (main_arg7 : DevRef τ sig))) (W (main_arg8 : DevRef τ sig)) := by
  rw [← after_append]
  simp only [opsL3a, opsL3b, List.cons_append, List.nil_append]
  after_results_simp
  rfl

/-- The read-out: %180 is the per-graph mean of %168 by the graph numbers. -/
theorem P_out (W : Valuation τ sig (Elt F)) :
    after opsP W (no_index (Proc.devRef .tc main_v180))
      = Cert.Stage.pool (W (main_arg2 : DevRef τ sig)) (W (main_v168 : DevRef τ sig)) := by
  simp only [opsP]
  after_results_simp
  rfl

/-- The head: %195 from %180. -/
theorem H_out (W : Valuation τ sig (Elt F)) :
    after opsH2 (after opsH1 W) (no_index (Proc.devRef .tc main_v195))
      = Cert.Stage.head (W (main_v180 : DevRef τ sig)) (W (main_arg9 : DevRef τ sig)) (W (main_arg10 : DevRef τ sig))
          (W (main_arg11 : DevRef τ sig)) (W (main_arg12 : DevRef τ sig)) (W (main_arg13 : DevRef τ sig))
          (W (main_arg14 : DevRef τ sig)) := by
  rw [← after_append]
  simp only [opsH1, opsH2, List.cons_append, List.nil_append]
  after_results_simp
  rfl

/-! ## The whole line -/

/-- The chunks composed: each chunk's result by its lemma, every other buffer carried through the chunks that do
    not write it (the membership in a chunk's list decided by comparison). -/
macro "compose_chunks" : tactic =>
  `(tactic| simp (disch := decide) only [ops, after_append, A_src, A_dst, L1_out, L2_out, L3_out, P_out, H_out,
    keepA, keepL1a, keepL1b, keepL2a, keepL2b, keepL3a, keepL3b, keepP, keepH1, keepH2])

/-- The second result, %180: the read-out of the node features after the three layers. -/
theorem readout_eq (V : Valuation τ sig (Elt F)) :
    after ops V (main_v180 : DevRef τ sig)
      = Cert.Stage.pool (V (main_arg2 : DevRef τ sig))
          (Cert.Stage.nodes (V (main_arg1 : DevRef τ sig)) (V (main_arg0 : DevRef τ sig)) (V (main_arg3 : DevRef τ sig)) (V (main_arg4 : DevRef τ sig))
            (V (main_arg5 : DevRef τ sig)) (V (main_arg6 : DevRef τ sig)) (V (main_arg7 : DevRef τ sig)) (V (main_arg8 : DevRef τ sig))) := by
  compose_chunks
  rfl

/-- The first result, %195: the head of the read-out. -/
theorem out_eq (V : Valuation τ sig (Elt F)) :
    after ops V (main_v195 : DevRef τ sig)
      = Cert.Stage.head
          (Cert.Stage.pool (V (main_arg2 : DevRef τ sig))
            (Cert.Stage.nodes (V (main_arg1 : DevRef τ sig)) (V (main_arg0 : DevRef τ sig)) (V (main_arg3 : DevRef τ sig)) (V (main_arg4 : DevRef τ sig))
              (V (main_arg5 : DevRef τ sig)) (V (main_arg6 : DevRef τ sig)) (V (main_arg7 : DevRef τ sig)) (V (main_arg8 : DevRef τ sig))))
          (V (main_arg9 : DevRef τ sig)) (V (main_arg10 : DevRef τ sig)) (V (main_arg11 : DevRef τ sig))
          (V (main_arg12 : DevRef τ sig)) (V (main_arg13 : DevRef τ sig)) (V (main_arg14 : DevRef τ sig)) := by
  compose_chunks
  rfl

/-! The arguments' buffers: no operation writes them. -/

theorem arg0_eq (V : Valuation τ sig (Elt F)) :
    after ops V (main_arg0 : DevRef τ sig) = V (main_arg0 : DevRef τ sig) := by
  compose_chunks

theorem arg1_eq (V : Valuation τ sig (Elt F)) :
    after ops V (main_arg1 : DevRef τ sig) = V (main_arg1 : DevRef τ sig) := by
  compose_chunks

theorem arg2_eq (V : Valuation τ sig (Elt F)) :
    after ops V (main_arg2 : DevRef τ sig) = V (main_arg2 : DevRef τ sig) := by
  compose_chunks

theorem arg3_eq (V : Valuation τ sig (Elt F)) :
    after ops V (main_arg3 : DevRef τ sig) = V (main_arg3 : DevRef τ sig) := by
  compose_chunks

theorem arg4_eq (V : Valuation τ sig (Elt F)) :
    after ops V (main_arg4 : DevRef τ sig) = V (main_arg4 : DevRef τ sig) := by
  compose_chunks

theorem arg5_eq (V : Valuation τ sig (Elt F)) :
    after ops V (main_arg5 : DevRef τ sig) = V (main_arg5 : DevRef τ sig) := by
  compose_chunks

theorem arg6_eq (V : Valuation τ sig (Elt F)) :
    after ops V (main_arg6 : DevRef τ sig) = V (main_arg6 : DevRef τ sig) := by
  compose_chunks

theorem arg7_eq (V : Valuation τ sig (Elt F)) :
    after ops V (main_arg7 : DevRef τ sig) = V (main_arg7 : DevRef τ sig) := by
  compose_chunks

theorem arg8_eq (V : Valuation τ sig (Elt F)) :
    after ops V (main_arg8 : DevRef τ sig) = V (main_arg8 : DevRef τ sig) := by
  compose_chunks

theorem arg9_eq (V : Valuation τ sig (Elt F)) :
    after ops V (main_arg9 : DevRef τ sig) = V (main_arg9 : DevRef τ sig) := by
  compose_chunks

theorem arg10_eq (V : Valuation τ sig (Elt F)) :
    after ops V (main_arg10 : DevRef τ sig) = V (main_arg10 : DevRef τ sig) := by
  compose_chunks

theorem arg11_eq (V : Valuation τ sig (Elt F)) :
    after ops V (main_arg11 : DevRef τ sig) = V (main_arg11 : DevRef τ sig) := by
  compose_chunks

theorem arg12_eq (V : Valuation τ sig (Elt F)) :
    after ops V (main_arg12 : DevRef τ sig) = V (main_arg12 : DevRef τ sig) := by
  compose_chunks

theorem arg13_eq (V : Valuation τ sig (Elt F)) :
    after ops V (main_arg13 : DevRef τ sig) = V (main_arg13 : DevRef τ sig) := by
  compose_chunks

theorem arg14_eq (V : Valuation τ sig (Elt F)) :
    after ops V (main_arg14 : DevRef τ sig) = V (main_arg14 : DevRef τ sig) := by
  compose_chunks

end Cert.ReferenceIdeal.RefRun

end
-- ==== Proof.lean ====
/-
  The certificate: a three-layer graph convolution network with a mean read-out and a small head, as a kernel
  program of seven launches among host arithmetic, against its reference of host arithmetic alone.

  Both programs end, on arguments that agree, with the same two results as extended reals:
    readout = pool batch (nodes edges x W1 b1 W2 b2 W3 b3)      and      out = head readout Wp1 bp1 Wp2 bp2 Wp3 bp3
  (the stage functions of Proof/Stage.lean). The reference's run ends there by reading its operations in order.
  The kernel's run ends at the same composition except that it indexes the read-out's 256 rows with each graph number
  below zero replaced by that number plus 256; the precondition's conjunct "every graph number is at least 0" makes
  that replacement the identity. Its launches contribute, as whole-array functions of their input arrays, the three
  products `x · W` (a block of rows of a product is the product of the block of rows), the three `elu (· + b)`
  (pointwise: `exp z - 1` is `1 · (exp z' - 1)` where `z ≤ 0` makes `z' = z`) and the head.
  The idealization changed no operation, so what it preserves is nothing to prove; each program's frame is its run
  with the results forgotten.
-/
import proofs.«128728_j78176994722446_1_alg».proof.Defs
import proofs.«128728_j78176994722446_1_alg».proof.Proof.Gen.Kernel
import proofs.«128728_j78176994722446_1_alg».proof.Proof.Gen.Kernel.Frame
import proofs.«128728_j78176994722446_1_alg».proof.Proof.Gen.KernelIdeal
import proofs.«128728_j78176994722446_1_alg».proof.Proof.Gen.KernelIdeal.Frame
import proofs.«128728_j78176994722446_1_alg».proof.Proof.Gen.ReferenceIdeal
import proofs.«128728_j78176994722446_1_alg».proof.Proof.Gen.Pre_finite_inputs
import proofs.«128728_j78176994722446_1_alg».proof.Proof.KernelRun
import proofs.«128728_j78176994722446_1_alg».proof.Proof.KernelWalk
import proofs.«128728_j78176994722446_1_alg».proof.Proof.Bridge
import proofs.«128728_j78176994722446_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

open Cert.ReferenceIdeal in
/-- The reference's frame: its run, read at the fifteen argument arrays, none of which an operation writes. -/
theorem frame_ri : Cert.frame_ReferenceIdeal := fun m ρ _ =>
  (θ_run Cert.ReferenceIdeal.defs _ _).mono
    (fun r h c =>
      ⟨(h c main_arg0).trans (RefRun.arg0_eq _), (h c main_arg1).trans (RefRun.arg1_eq _),
       (h c main_arg2).trans (RefRun.arg2_eq _), (h c main_arg3).trans (RefRun.arg3_eq _),
       (h c main_arg4).trans (RefRun.arg4_eq _), (h c main_arg5).trans (RefRun.arg5_eq _),
       (h c main_arg6).trans (RefRun.arg6_eq _), (h c main_arg7).trans (RefRun.arg7_eq _),
       (h c main_arg8).trans (RefRun.arg8_eq _), (h c main_arg9).trans (RefRun.arg9_eq _),
       (h c main_arg10).trans (RefRun.arg10_eq _), (h c main_arg11).trans (RefRun.arg11_eq _),
       (h c main_arg12).trans (RefRun.arg12_eq _), (h c main_arg13).trans (RefRun.arg13_eq _),
       (h c main_arg14).trans (RefRun.arg14_eq _)⟩)
    (RefRun.run_main (F := Ideal) m ρ)

theorem preserves : Cert.preserves_Kernel_KernelIdeal := trivial

open Cert.KernelIdeal in
/-- The read-out both programs end with, over the kernel program's launch memory. -/
abbrev readoutOf (m : (ℓ : Loc nD τ sig) → Buf (Elt Ideal) ℓ) (c : Dev nD) :=
  Cert.Stage.pool (m ((c.tc : Thread nD τ).loc main_arg2))
    (Cert.Stage.nodes (m ((c.tc : Thread nD τ).loc main_arg1)) (m ((c.tc : Thread nD τ).loc main_arg0))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)))

open Cert.KernelIdeal in
/-- The head's output both programs end with. -/
abbrev outOf (m : (ℓ : Loc nD τ sig) → Buf (Elt Ideal) ℓ) (c : Dev nD) :=
  Cert.Stage.head (readoutOf m c) (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))

open Cert.KernelIdeal in
/-- Under the precondition the kernel's read-out is the read-out indexed by the graph numbers as they come. -/
theorem kernel_readout (m : (ℓ : Loc nD τ sig) → Buf (Elt Ideal) ℓ) (hpre : Cert.Pre_KernelIdeal m) (c : Dev nD) :
    Walk.readoutK m c = readoutOf m c :=
  Cert.Bridge.poolAt_wrapGraph _ (fun i => Cert.PreBatch.batch_nonneg m hpre c i) _

theorem algebraic : Cert.algebraic_KernelIdeal_ReferenceIdeal := by
  intro m ρ m' ρ' hpre hagree
  refine ⟨fun c => outOf m c, fun c => readoutOf m c, ?_, ?_⟩
  · refine (θ_run Cert.KernelIdeal.defs _ _).mono (fun r h c => ?_) (Cert.KernelIdeal.Run.run_main (F := Ideal) m ρ)
    refine ⟨(h c).1.trans ((Cert.KernelIdeal.Walk.out m ρ c).trans ?_),
      (h c).2.1.trans ((Cert.KernelIdeal.Walk.readout m ρ c).trans (kernel_readout m hpre c)), (h c).2.2⟩
    rw [kernel_readout m hpre c]
  · refine (θ_run Cert.ReferenceIdeal.defs _ _).mono (fun r h c => ?_) (Cert.ReferenceIdeal.RefRun.run_main (F := Ideal) m' ρ')
    obtain ⟨e0, e1, e2, e3, e4, e5, e6, e7, e8, e9, e10, e11, e12, e13, e14⟩ := hagree c
    have hro : Cert.Stage.pool (m' ((c.tc : Thread Cert.ReferenceIdeal.nD Cert.ReferenceIdeal.τ).loc Cert.ReferenceIdeal.main_arg2))
        (Cert.Stage.nodes (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)))
        = readoutOf m c := by
      rw [e0, e1, e2, e3, e4, e5, e6, e7, e8]
    refine ⟨(h c Cert.ReferenceIdeal.main_v195).trans ((Cert.ReferenceIdeal.RefRun.out_eq _).trans ?_),
      (h c Cert.ReferenceIdeal.main_v180).trans ((Cert.ReferenceIdeal.RefRun.readout_eq _).trans hro),
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _)⟩
    show Cert.Stage.head _ (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = outOf m c
    rw [show Cert.Stage.pool _ _ = readoutOf m c from hro, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
